-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1x80x16 : Shape := ⟨4, ![256, 1, 80, 16]⟩
abbrev S256x3x5x96x96 : Shape := ⟨5, ![256, 3, 5, 96, 96]⟩
abbrev S1280x512 : Shape := ⟨2, ![1280, 512]⟩
abbrev S69120x512 : Shape := ⟨2, ![69120, 512]⟩
abbrev S_ : Shape := ⟨0, ![]⟩

class Facts : Prop where
  bcast_S_S256x1x80x16 : S_.BroadcastsInDim S256x1x80x16 (![] : Fin 0 → Fin S256x1x80x16.rank)
  reducesTo_S256x1x80x16_S_d0_1_2_3 : S256x1x80x16.ReducesTo [0, 1, 2, 3] S_
  h_S_ : 0 < S_.numel
  bcast_S_S256x3x5x96x96 : S_.BroadcastsInDim S256x3x5x96x96 (![] : Fin 0 → Fin S256x3x5x96x96.rank)
  reducesTo_S256x3x5x96x96_S_d0_1_2_3_4 : S256x3x5x96x96.ReducesTo [0, 1, 2, 3, 4] S_
  bcast_S_S1280x512 : S_.BroadcastsInDim S1280x512 (![] : Fin 0 → Fin S1280x512.rank)
  reducesTo_S1280x512_S_d0_1 : S1280x512.ReducesTo [0, 1] S_
  bcast_S_S69120x512 : S_.BroadcastsInDim S69120x512 (![] : Fin 0 → Fin S69120x512.rank)
  reducesTo_S69120x512_S_d0_1 : S69120x512.ReducesTo [0, 1] S_

variable [Facts]

def fn_part1 {F : FTy → Type} [FloatOps F] (main_arg4 : FVec F S1280x512 .f32) (main_arg5 : FVec F S69120x512 .f32) (main_v13 : IVec S_ 1) (main_v16 : IVec S256x3x5x96x96 1) : IVec S_ 1 :=
  let main_c_5 : IVec S_ 1 := constantI S_ 1 1#1
  let main_v17 : IVec S_ 1 := (fun x v => Host.reduce IntOp.andi x v reducesTo_S256x3x5x96x96_S_d0_1_2_3_4 h_S_) main_v16 main_c_5
  let main_v18 : IVec S_ 1 := andi main_v13 main_v17
  let main_v19 : FVec F S1280x512 .f32 := Host.absf main_arg4
  let main_cst_6 : FVec F S_ .f32 := constant S_ .f32 0x7F800000#32
  let main_v20 : FVec F S1280x512 .f32 := broadcastInDim S1280x512 ![] bcast_S_S1280x512 main_cst_6
  let main_v21 : IVec S1280x512 1 := cmpf .olt main_v19 main_v20
  let main_c_7 : IVec S_ 1 := constantI S_ 1 1#1
  let main_v22 : IVec S_ 1 := (fun x v => Host.reduce IntOp.andi x v reducesTo_S1280x512_S_d0_1 h_S_) main_v21 main_c_7
  let main_v23 : IVec S_ 1 := andi main_v18 main_v22
  let main_v24 : FVec F S69120x512 .f32 := Host.absf main_arg5
  let main_cst_8 : FVec F S_ .f32 := constant S_ .f32 0x7F800000#32
  let main_v25 : FVec F S69120x512 .f32 := broadcastInDim S69120x512 ![] bcast_S_S69120x512 main_cst_8
  let main_v26 : IVec S69120x512 1 := cmpf .olt main_v24 main_v25
  let main_c_9 : IVec S_ 1 := constantI S_ 1 1#1
  let main_v27 : IVec S_ 1 := (fun x v => Host.reduce IntOp.andi x v reducesTo_S69120x512_S_d0_1 h_S_) main_v26 main_c_9
  let main_v28 : IVec S_ 1 := andi main_v23 main_v27
  main_v28

def fn {F : FTy → Type} [FloatOps F] (main_arg0 : FVec F S256x1x80x16 .f32) (main_arg1 : FVec F S256x3x5x96x96 .f32) (main_arg2 : FVec F S256x1x80x16 .f32) (main_arg3 : FVec F S256x3x5x96x96 .f32) (main_arg4 : FVec F S1280x512 .f32) (main_arg5 : FVec F S69120x512 .f32) : IVec S_ 1 :=
  let main_v0 : FVec F S256x1x80x16 .f32 := Host.absf main_arg0
  let main_cst : FVec F S_ .f32 := constant S_ .f32 0x7F800000#32
  let main_v1 : FVec F S256x1x80x16 .f32 := broadcastInDim S256x1x80x16 ![] bcast_S_S256x1x80x16 main_cst
  let main_v2 : IVec S256x1x80x16 1 := cmpf .olt main_v0 main_v1
  let main_c : IVec S_ 1 := constantI S_ 1 1#1
  let main_v3 : IVec S_ 1 := (fun x v => Host.reduce IntOp.andi x v reducesTo_S256x1x80x16_S_d0_1_2_3 h_S_) main_v2 main_c
  let main_v4 : FVec F S256x3x5x96x96 .f32 := Host.absf main_arg1
  let main_cst_0 : FVec F S_ .f32 := constant S_ .f32 0x7F800000#32
  let main_v5 : FVec F S256x3x5x96x96 .f32 := broadcastInDim S256x3x5x96x96 ![] bcast_S_S256x3x5x96x96 main_cst_0
  let main_v6 : IVec S256x3x5x96x96 1 := cmpf .olt main_v4 main_v5
  let main_c_1 : IVec S_ 1 := constantI S_ 1 1#1
  let main_v7 : IVec S_ 1 := (fun x v => Host.reduce IntOp.andi x v reducesTo_S256x3x5x96x96_S_d0_1_2_3_4 h_S_) main_v6 main_c_1
  let main_v8 : IVec S_ 1 := andi main_v3 main_v7
  let main_v9 : FVec F S256x1x80x16 .f32 := Host.absf main_arg2
  let main_cst_2 : FVec F S_ .f32 := constant S_ .f32 0x7F800000#32
  let main_v10 : FVec F S256x1x80x16 .f32 := broadcastInDim S256x1x80x16 ![] bcast_S_S256x1x80x16 main_cst_2
  let main_v11 : IVec S256x1x80x16 1 := cmpf .olt main_v9 main_v10
  let main_c_3 : IVec S_ 1 := constantI S_ 1 1#1
  let main_v12 : IVec S_ 1 := (fun x v => Host.reduce IntOp.andi x v reducesTo_S256x1x80x16_S_d0_1_2_3 h_S_) main_v11 main_c_3
  let main_v13 : IVec S_ 1 := andi main_v8 main_v12
  let main_v14 : FVec F S256x3x5x96x96 .f32 := Host.absf main_arg3
  let main_cst_4 : FVec F S_ .f32 := constant S_ .f32 0x7F800000#32
  let main_v15 : FVec F S256x3x5x96x96 .f32 := broadcastInDim S256x3x5x96x96 ![] bcast_S_S256x3x5x96x96 main_cst_4
  let main_v16 : IVec S256x3x5x96x96 1 := cmpf .olt main_v14 main_v15
  fn_part1 (F := F) main_arg4 main_arg5 main_v13 main_v16
-- ==== Kernel.lean ====
abbrev S256x1x80x16 : Shape := ⟨4, ![256, 1, 80, 16]⟩
abbrev S256x3x5x96x96 : Shape := ⟨5, ![256, 3, 5, 96, 96]⟩
abbrev S1280x512 : Shape := ⟨2, ![1280, 512]⟩
abbrev S69120x512 : Shape := ⟨2, ![69120, 512]⟩
abbrev S512x1x80x16 : Shape := ⟨4, ![512, 1, 80, 16]⟩
abbrev S512x1280 : Shape := ⟨2, ![512, 1280]⟩
abbrev S512x512 : Shape := ⟨2, ![512, 512]⟩
abbrev S256x512 : Shape := ⟨2, ![256, 512]⟩
abbrev S256x1x1x48x96 : Shape := ⟨5, ![256, 1, 1, 48, 96]⟩
abbrev S4608x256 : Shape := ⟨2, ![4608, 256]⟩
abbrev S256x256 : Shape := ⟨2, ![256, 256]⟩
abbrev S256x48x96 : Shape := ⟨3, ![256, 48, 96]⟩
abbrev S256x4608 : Shape := ⟨2, ![256, 4608]⟩
abbrev S_ : Shape := ⟨0, ![]⟩
abbrev S512 : Shape := ⟨1, ![512]⟩
abbrev S512x1 : Shape := ⟨2, ![512, 1]⟩
abbrev S256 : Shape := ⟨1, ![256]⟩

abbrev nBuf : Space → Nat
  | .hbm => 81
  | .vmem => 14
  | .smem => 0
  | _ => 0

abbrev bufTy : (tb : Table) → Fin (tcTables nBuf tb) → BufTy
  | .hbm, ⟨0, _⟩ => ⟨S256x1x80x16, .f32⟩
  | .hbm, ⟨1, _⟩ => ⟨S256x3x5x96x96, .f32⟩
  | .hbm, ⟨2, _⟩ => ⟨S256x1x80x16, .f32⟩
  | .hbm, ⟨3, _⟩ => ⟨S256x3x5x96x96, .f32⟩
  | .hbm, ⟨4, _⟩ => ⟨S1280x512, .f32⟩
  | .hbm, ⟨5, _⟩ => ⟨S69120x512, .f32⟩
  | .hbm, ⟨6, _⟩ => ⟨S512x1x80x16, .f32⟩
  | .hbm, ⟨7, _⟩ => ⟨S512x1280, .f32⟩
  | .hbm, ⟨8, _⟩ => ⟨S512x512, .f32⟩
  | .hbm, ⟨9, _⟩ => ⟨S256x512, .f32⟩
  | .hbm, ⟨10, _⟩ => ⟨S256x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S_, .f32⟩
  | .hbm, ⟨24, _⟩ => ⟨S512, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S512x512, .f32⟩
  | .hbm, ⟨31, _⟩ => ⟨S512x512, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256x512, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256x512, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256x512, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256x512, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256x512, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S512x512, .f32⟩
  | .hbm, ⟨66, _⟩ => ⟨S256x512, .f32⟩
  | .hbm, ⟨67, _⟩ => ⟨S256x512, .f32⟩
  | .hbm, ⟨68, _⟩ => ⟨S512x512, .f32⟩
  | .hbm, ⟨69, _⟩ => ⟨S256x512, .f32⟩
  | .hbm, ⟨70, _⟩ => ⟨S256x512, .f32⟩
  | .hbm, ⟨71, _⟩ => ⟨S256x512, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S256x1x1x48x96, .f32⟩
  | .local _ .vmem, ⟨1, _⟩ => ⟨S256x1x1x48x96, .f32⟩
  | .local _ .vmem, ⟨2, _⟩ => ⟨S4608x256, .f32⟩
  | .local _ .vmem, ⟨3, _⟩ => ⟨S4608x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x1x1x48x96, .f32⟩
  | .local _ .vmem, ⟨8, _⟩ => ⟨S256x1x1x48x96, .f32⟩
  | .local _ .vmem, ⟨9, _⟩ => ⟨S4608x256, .f32⟩
  | .local _ .vmem, ⟨10, _⟩ => ⟨S4608x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S256x1x80x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 15], ![false, false]⟩

def k0_cond2 (i : grid0.Coords) : BitVec 1 :=
  let arg1 : BitVec 32 := BitVec.ofNat 32 (i 1).val
  let c14_i32 : BitVec 32 := 14#32
  let v15 : BitVec 1 := Scalar.cmpi .eq arg1 c14_i32
  let v16 : BitVec 32 := Scalar.extui v15
  let c0_i32_11 : BitVec 32 := 0#32
  let v17 : BitVec 1 := Scalar.cmpi .ne v16 c0_i32_11
  v17

def cc0_transform_0 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c1_i32_11 : BitVec 32 := 1#32
  let c0_i32_12 : BitVec 32 := 0#32
  let c0_i32_13 : BitVec 32 := 0#32
  ![c0_i32_10.toNat, v26.toNat, v16.toNat, c1_i32_11.toNat, c0_i32_12.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1x1x48x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4608x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 15], ![false, false]⟩

def k1_cond2 (i : grid1.Coords) : BitVec 1 :=
  let arg1 : BitVec 32 := BitVec.ofNat 32 (i 1).val
  let c14_i32 : BitVec 32 := 14#32
  let v15 : BitVec 1 := Scalar.cmpi .eq arg1 c14_i32
  let v16 : BitVec 32 := Scalar.extui v15
  let c0_i32_11 : BitVec 32 := 0#32
  let v17 : BitVec 1 := Scalar.cmpi .ne v16 c0_i32_11
  v17

def cc1_transform_0 (i : grid1.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c1_i32_11 : BitVec 32 := 1#32
  let c0_i32_12 : BitVec 32 := 0#32
  let c0_i32_13 : BitVec 32 := 0#32
  ![c0_i32_10.toNat, v26.toNat, v16.toNat, c1_i32_11.toNat, c0_i32_12.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x1x1x48x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4608x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S256x1x80x16_S256x1x80x16_S512x1x80x16_d0 : Shape.Concatenates [S256x1x80x16, S256x1x80x16] S512x1x80x16 0
  shapeCasts_S512x1x80x16_S512x1280 : S512x1x80x16.ShapeCasts S512x1280
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1x1x48x96_S256x1x1x48x96_0_0_0_0_0 : ∀ a, (![0, 0, 0, 0, 0] : Fin 5 → Nat) a + S256x1x1x48x96.size a ≤ S256x1x1x48x96.size a
  h_S256x1x1x48x96 : 0 < S256x1x1x48x96.numel
  shapeCasts_S256x1x1x48x96_S256x48x96 : S256x1x1x48x96.ShapeCasts S256x48x96
  shapeCasts_S256x48x96_S256x4608 : S256x48x96.ShapeCasts S256x4608
  bitsLt_bf16_f32 : FTy.bits .bf16 < FTy.bits .f32
  inb_S4608x256_S4608x256_0_0 : ∀ a, (![0, 0] : Fin 2 → Nat) a + S4608x256.size a ≤ S4608x256.size a
  h_S4608x256 : 0 < S4608x256.numel
  concatenates_S256x512_S256x512_S512x512_d0 : Shape.Concatenates [S256x512, S256x512] S512x512 0
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  slices_S512x512_S256x512_0_0 : S512x512.Slices ![0, 0] S256x512
  slices_S512x512_S256x512_256_0 : S512x512.Slices ![256, 0] S256x512
  reducesTo_S256x512_S256_d1 : S256x512.ReducesTo [1] S256
  transposes_S512x512_S512x512_1_0 : S512x512.Transposes [1, 0] S512x512
  reducesTo_S256_S_d0 : S256.ReducesTo [0] S_
  dot_S512x1280_S1280x512_S512x512_1_0_0_1_n_n_wf : DotDims.WF S512x1280 S1280x512 S512x512 [1] [0] [0] [1] [] []
  dot_S256x4608_S4608x256_S256x256_1_0_0_1_n_n_wf : DotDims.WF S256x4608 S4608x256 S256x256 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x1x48x96.size a ≤ S256x3x5x96x96.size a
  hwx0_0 : ∀ i : grid0.Coords, EltTy.bits .f32 = 32 ∨ (Rect.block (s := S256x3x5x96x96) S256x1x1x48x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4608x256.size a ≤ S69120x512.size a
  hwx0_1 : ∀ i : grid0.Coords, EltTy.bits .f32 = 32 ∨ (Rect.block (s := S69120x512) S4608x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x512.size a
  hwx0_2 : ∀ i : grid0.Coords, EltTy.bits .f32 = 32 ∨ (Rect.block (s := S256x512) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1x1x48x96.size a ≤ S256x3x5x96x96.size a
  hwx1_0 : ∀ i : grid1.Coords, EltTy.bits .f32 = 32 ∨ (Rect.block (s := S256x3x5x96x96) S256x1x1x48x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4608x256.size a ≤ S69120x512.size a
  hwx1_1 : ∀ i : grid1.Coords, EltTy.bits .f32 = 32 ∨ (Rect.block (s := S69120x512) S4608x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x512.size a
  hwx1_2 : ∀ i : grid1.Coords, EltTy.bits .f32 = 32 ∨ (Rect.block (s := S256x512) S256x256.size (cc1_transform_2 i) (hinb1_2 i)).WholeWords (EltTy.packing .f32)

variable [Facts₀]

def dot_S512x1280_S1280x512_S512x512_1_0_0_1_n_n : DotDims S512x1280 S1280x512 S512x512 where
  lhsContracting := [1]
  rhsContracting := [0]
  lhsNonContracting := [0]
  rhsNonContracting := [1]
  lhsBatch := []
  rhsBatch := []
  wf := dot_S512x1280_S1280x512_S512x512_1_0_0_1_n_n_wf
def dot_S256x4608_S4608x256_S256x256_1_0_0_1_n_n : DotDims S256x4608 S4608x256 S256x256 where
  lhsContracting := [1]
  rhsContracting := [0]
  lhsNonContracting := [0]
  rhsNonContracting := [1]
  lhsBatch := []
  rhsBatch := []
  wf := dot_S256x4608_S4608x256_S256x256_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg1) S256x1x1x48x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4608x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S256x1x1x48x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S4608x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x1x80x16 : Shape := ⟨4, ![256, 1, 80, 16]⟩
abbrev S256x3x5x96x96 : Shape := ⟨5, ![256, 3, 5, 96, 96]⟩
abbrev S1280x512 : Shape := ⟨2, ![1280, 512]⟩
abbrev S69120x512 : Shape := ⟨2, ![69120, 512]⟩
abbrev S512x1x80x16 : Shape := ⟨4, ![512, 1, 80, 16]⟩
abbrev S512x3x5x96x96 : Shape := ⟨5, ![512, 3, 5, 96, 96]⟩
abbrev S512x3x5x48x96 : Shape := ⟨5, ![512, 3, 5, 48, 96]⟩
abbrev S512x5x3x48x96 : Shape := ⟨5, ![512, 5, 3, 48, 96]⟩
abbrev S512x15x48x96 : Shape := ⟨4, ![512, 15, 48, 96]⟩
abbrev S512x1280 : Shape := ⟨2, ![512, 1280]⟩
abbrev S512x512 : Shape := ⟨2, ![512, 512]⟩
abbrev S_ : Shape := ⟨0, ![]⟩
abbrev S512 : Shape := ⟨1, ![512]⟩
abbrev S512x1 : Shape := ⟨2, ![512, 1]⟩
abbrev S512x69120 : Shape := ⟨2, ![512, 69120]⟩
abbrev S256x512 : Shape := ⟨2, ![256, 512]⟩
abbrev S256 : Shape := ⟨1, ![256]⟩

abbrev nBuf : Space → Nat
  | .hbm => 84
  | .vmem => 0
  | .smem => 0
  | _ => 0

abbrev bufTy : (tb : Table) → Fin (tcTables nBuf tb) → BufTy
  | .hbm, ⟨0, _⟩ => ⟨S256x1x80x16, .f32⟩
  | .hbm, ⟨1, _⟩ => ⟨S256x3x5x96x96, .f32⟩
  | .hbm, ⟨2, _⟩ => ⟨S256x1x80x16, .f32⟩
  | .hbm, ⟨3, _⟩ => ⟨S256x3x5x96x96, .f32⟩
  | .hbm, ⟨4, _⟩ => ⟨S1280x512, .f32⟩
  | .hbm, ⟨5, _⟩ => ⟨S69120x512, .f32⟩
  | .hbm, ⟨6, _⟩ => ⟨S512x1x80x16, .f32⟩
  | .hbm, ⟨7, _⟩ => ⟨S512x3x5x96x96, .f32⟩
  | .hbm, ⟨8, _⟩ => ⟨S512x3x5x48x96, .f32⟩
  | .hbm, ⟨9, _⟩ => ⟨S512x5x3x48x96, .f32⟩
  | .hbm, ⟨10, _⟩ => ⟨S512x15x48x96, .f32⟩
  | .hbm, ⟨11, _⟩ => ⟨S512x1280, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x512, .f32⟩
  | .hbm, ⟨22, _⟩ => ⟨S512x512, .f32⟩
  | .hbm, ⟨23, _⟩ => ⟨S512x69120, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S512x1, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x512, .f32⟩
  | .hbm, ⟨34, _⟩ => ⟨S512x512, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256x512, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256x512, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256x512, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S256x512, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256x512, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S512x512, .f32⟩
  | .hbm, ⟨69, _⟩ => ⟨S256x512, .f32⟩
  | .hbm, ⟨70, _⟩ => ⟨S256x512, .f32⟩
  | .hbm, ⟨71, _⟩ => ⟨S512x512, .f32⟩
  | .hbm, ⟨72, _⟩ => ⟨S256x512, .f32⟩
  | .hbm, ⟨73, _⟩ => ⟨S256x512, .f32⟩
  | .hbm, ⟨74, _⟩ => ⟨S256x512, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S256x1x80x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  concatenates_S256x1x80x16_S256x1x80x16_S512x1x80x16_d0 : Shape.Concatenates [S256x1x80x16, S256x1x80x16] S512x1x80x16 0
  concatenates_S256x3x5x96x96_S256x3x5x96x96_S512x3x5x96x96_d0 : Shape.Concatenates [S256x3x5x96x96, S256x3x5x96x96] S512x3x5x96x96 0
  slices_S512x3x5x96x96_S512x3x5x48x96_0_0_0_48_0 : S512x3x5x96x96.Slices ![0, 0, 0, 48, 0] S512x3x5x48x96
  transposes_S512x3x5x48x96_S512x5x3x48x96_0_2_1_3_4 : S512x3x5x48x96.Transposes [0, 2, 1, 3, 4] S512x5x3x48x96
  shapeCasts_S512x5x3x48x96_S512x15x48x96 : S512x5x3x48x96.ShapeCasts S512x15x48x96
  shapeCasts_S512x1x80x16_S512x1280 : S512x1x80x16.ShapeCasts S512x1280
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  shapeCasts_S512x15x48x96_S512x69120 : S512x15x48x96.ShapeCasts S512x69120
  slices_S512x512_S256x512_0_0 : S512x512.Slices ![0, 0] S256x512
  slices_S512x512_S256x512_256_0 : S512x512.Slices ![256, 0] S256x512
  reducesTo_S256x512_S256_d1 : S256x512.ReducesTo [1] S256
  transposes_S512x512_S512x512_1_0 : S512x512.Transposes [1, 0] S512x512
  reducesTo_S256_S_d0 : S256.ReducesTo [0] S_
  dot_S512x1280_S1280x512_S512x512_1_0_0_1_n_n_wf : DotDims.WF S512x1280 S1280x512 S512x512 [1] [0] [0] [1] [] []
  dot_S512x69120_S69120x512_S512x512_1_0_0_1_n_n_wf : DotDims.WF S512x69120 S69120x512 S512x512 [1] [0] [0] [1] [] []
  dot_S256x512_S512x512_S256x512_1_0_0_1_n_n_wf : DotDims.WF S256x512 S512x512 S256x512 [1] [0] [0] [1] [] []

variable [Facts₀]

def dot_S512x1280_S1280x512_S512x512_1_0_0_1_n_n : DotDims S512x1280 S1280x512 S512x512 where
  lhsContracting := [1]
  rhsContracting := [0]
  lhsNonContracting := [0]
  rhsNonContracting := [1]
  lhsBatch := []
  rhsBatch := []
  wf := dot_S512x1280_S1280x512_S512x512_1_0_0_1_n_n_wf
def dot_S512x69120_S69120x512_S512x512_1_0_0_1_n_n : DotDims S512x69120 S69120x512 S512x512 where
  lhsContracting := [1]
  rhsContracting := [0]
  lhsNonContracting := [0]
  rhsNonContracting := [1]
  lhsBatch := []
  rhsBatch := []
  wf := dot_S512x69120_S69120x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

class Facts : Prop extends Facts₀ where

variable [Facts]
-- ==== Proof.K0.Base.lean ====
/-
  Call 0 of the visual kernel: the vocabulary its run is stated over.

  The grid has 30 points, numbered t = 15·n + k for the output column tile n ∈ {0, 1} and the reduction step k ∈ {0, …, 14}.
  The body zeroes the accumulator when k = 0, adds the product of the point's two input blocks to it at every point, and copies
  it to the output block when k = 14; the output block is written back exactly at those points and is idle at the others.
  Stated here: the two input blocks of a point, the two branch conditions in closed form, where the output window is idle or
  written back, the memrefs the body is called with, and the region's scoped buffers with the accumulator singled out.
-/
import proofs.«172429_j24283745091878_2_alg».proof.Proof.Gen.Kernel.Launch
import proofs.«172429_j24283745091878_2_alg».proof.Proof.Gen.Kernel.Skeleton
import proofs.«172429_j24283745091878_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered
variable (V : (c : Dev nD) → (b : Ref sig .tc) → Buf (Elt F) ((c : Thread nD τ).loc b))

/-! ## The input blocks of a point -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The visual tensor's block of point t: one plane's lower half, for all 256 samples. -/
def xblk (c : Dev nD) (t : Fin cfg0.N) : Vec F S256x1x1x48x96 .f32 := iblk V c 0 t
/-- The weights' block of point t: 4608 rows by the tile's 256 columns. -/
def wblk (c : Dev nD) (t : Fin cfg0.N) : Vec F S4608x256 .f32 := iblk V c 1 t

/-- An input window's current staging buffer holds its block at every point, for any proof data whose array is the entry
    contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branch conditions -/

/-- "This is the first reduction step": the condition of the body's first conditional, from the grid coordinates. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 15 = 0 :=
  (by decide +kernel : ∀ t : Fin grid0.N, condFirst (grid0.coords t) ↔ t.val % 15 = 0)
/-- "This is the last reduction step": the condition of the body's second conditional. -/
abbrev condLast (i : grid0.Coords) : Prop := k0_cond2 i = 1#1
theorem hcondLast : ∀ t : Fin cfg0.N, condLast (grid0.coords t) ↔ t.val % 15 = 14 :=
  (by decide +kernel : ∀ t : Fin grid0.N, condLast (grid0.coords t) ↔ t.val % 15 = 14)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from the last reduction step the output window is idle and is not written back. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At the last reduction step the output window is live. -/
theorem liveAt_2 : ∀ t : Fin cfg0.N, condLast (grid0.coords t) → cfg0.idle 2 (grid0.coords t) = false := by decide +kernel

/-! ## The memrefs the body is called with -/

abbrev ms_0 (t : Fin cfg0.N) : Memref sig .tc .vmem S256x1x1x48x96 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4608x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x256 .f32 := win0_2.stage (cfg0.slots t 2)
abbrev hs_2 (t : Fin cfg0.N) : (ms_2 t).IsWhole := hstage0_2 ((cfg0.slots t 2).cast nbuf0_2)
/-- The accumulator: a whole scoped buffer of the call's own, passed beside the windows. -/
abbrev scM : Memref sig .tc .vmem S256x256 .f32 := Memref.whole cc0_scratch0
/-- The views the output block's and the accumulator's contents are stated through. -/
abbrev VO : View sig .tc .vmem S256x256 .f32 := (Memref.whole cc0_stg2_0 : Memref sig .tc .vmem S256x256 .f32).view
abbrev VS : View sig .tc .vmem S256x256 .f32 := scM.view

/-! ## The call's scoped buffers, the accumulator first -/

/-- The other call's seven scoped buffers, each whole at some contents: this call never touches them. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped buffers no window of this call stages: the accumulator and the other call's seven. -/
theorem scopedRest_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others c) :=
  Pipeline.scopedRest_eq_of_list spec0 c [cc0_scratch0, cc1_stg0_0, cc1_stg0_1, cc1_stg1_0, cc1_stg1_1, cc1_stg2_0, cc1_stg2_1, cc1_scratch0] (by decide) (by decide)

/-- The invariant before the first point: the accumulator at anything, the other scoped buffers, the generator register. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest_eq]; simp only [scM, owns_whole]; try rfl

end Cert.Kernel.Call0

end
-- ==== Proof.K0.Run.lean ====
/-
  Call 0 of the visual kernel: the body's run in each of its three control cases.

  FIRST (k = 0): the accumulator, found at anything, is zeroed and then receives the first product. MIDDLE (0 < k < 14): the
  accumulator, found at what the point before left, receives one more product. LAST (k = 14): as MIDDLE, and the accumulator is
  then copied into the output block. In every case the two input blocks are handed back as found; in FIRST and MIDDLE the output
  block is not touched. Each run is a subtype: its witness is the list of pieces the stores leave in each buffer written.
-/
import proofs.«172429_j24283745091878_2_alg».proof.Proof.K0.Base

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST: the pieces left in the accumulator, with the run. -/
noncomputable def runFirst (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc0__visual_kernel i arg2 harg2 arg3 harg3 arg4 harg4 arg5 harg5) K } := by
  refine ⟨?_, fun d2 E K => ?run⟩
  case run =>
    simp only [cc0__visual_kernel_eq_skeleton]; unfold cc0__visual_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- MIDDLE: the pieces left in the accumulator, over what it held (xs), with the run. -/
noncomputable def runMiddle (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc0__visual_kernel i arg2 harg2 arg3 harg3 arg4 harg4 arg5 harg5) K } := by
  refine ⟨?_, fun d2 E K => ?run⟩
  case run =>
    simp only [cc0__visual_kernel_eq_skeleton]; unfold cc0__visual_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- LAST: the pieces left in the output block and in the accumulator, over what the accumulator held (xs), with the run. -/
noncomputable def runLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    Σ' (L2 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__visual_kernel i arg2 harg2 arg3 harg3 arg4 harg4 arg5 harg5) K } := by
  refine ⟨?_, ?_, fun E K => ?run⟩
  case run =>
    simp only [cc0__visual_kernel_eq_skeleton]; unfold cc0__visual_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Call0

end
-- ==== Proof.K0.Pieces.lean ====
/-
  Call 0 of the visual kernel: what each control case leaves in the accumulator and in the output block, as the body's stored
  value of the point's two input blocks. Every store of the body covers its whole buffer, so what a buffer ends with is the
  payload of the last store into it: the first step leaves the product added to the zero block, every later step the product
  added to what the accumulator held, and the last step copies that sum into the output block.
-/
import proofs.«172429_j24283745091878_2_alg».proof.Proof.K0.Run
import Idealize.ShloMosaic.Lib.Pipeline.Value

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → Nat) = fun _ => 0 := by
  funext a; match a with | ⟨0, _⟩ => rfl | ⟨1, _⟩ => rfl
theorem off5_zero : (![0, 0, 0, 0, 0] : Fin 5 → Nat) = fun _ => 0 := by
  funext a; match a with | ⟨0, _⟩ => rfl | ⟨1, _⟩ => rfl | ⟨2, _⟩ => rfl | ⟨3, _⟩ => rfl | ⟨4, _⟩ => rfl

/-! ## FIRST -/

/-- What FIRST leaves in the accumulator: its pieces read back. -/
def soutFirst (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) : Vec F S256x256 .f32 :=
  VS.read (Elt F) (VS.writes (Elt F) VS.junk (runFirst c i arg2 harg2 arg3 harg3 arg4 harg4 arg5 harg5 hc1 hc2 x0 x1).1)

theorem scoverFirst (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) (y : S256x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S256x256.size (by sl_kernel_rfl) y

/-- The first step leaves the first product added to the zero block. -/
theorem soutFirst_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    soutFirst c i arg2 harg2 arg3 harg3 arg4 harg4 arg5 harg5 hc1 hc2 x0 x1 = k0_pay2 x0 x1 (k0_pay1 (F := F)) := by
  unfold soutFirst
  rw [View.read_writes_eq_canon _ _ _ (scoverFirst c i arg2 harg2 arg3 harg3 arg4 harg4 arg5 harg5 hc1 hc2 x0 x1)]
  unfold runFirst
  dsimp only
  sl_unfold_run_names
  rw [View.canon_cons_unit_zero off2_zero]
  simp only [View.readAt_eq_ld, harg2.read_unread, harg3.read_unread, View.ld_unit_zero (S := S256x1x1x48x96) off5_zero,
    View.ld_unit_zero (S := S4608x256) off2_zero, View.readCov_unit_zero (S := S256x256) arg5.view off2_zero]

/-! ## MIDDLE -/

def soutMiddle (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) : Vec F S256x256 .f32 :=
  VS.read (Elt F) (VS.writes (Elt F) VS.junk (runMiddle c i arg2 harg2 arg3 harg3 arg4 harg4 arg5 harg5 hc1 hc2 x0 x1 xs).1)

theorem scoverMiddle (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) (y : S256x256.Idx) :
    ∃ pc ∈ (runMiddle c i arg2 harg2 arg3 harg3 arg4 harg4 arg5 harg5 hc1 hc2 x0 x1 xs).1, y ∈ pc.1.set :=
  View.cover_of_tiledL (runMiddle c i arg2 harg2 arg3 harg3 arg4 harg4 arg5 harg5 hc1 hc2 x0 x1 xs).1 S256x256.size (by sl_kernel_rfl) y

/-- A middle step leaves its product added to what the accumulator held. -/
theorem soutMiddle_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    soutMiddle c i arg2 harg2 arg3 harg3 arg4 harg4 arg5 harg5 hc1 hc2 x0 x1 xs = k0_pay2 x0 x1 xs := by
  unfold soutMiddle
  rw [View.read_writes_eq_canon _ _ _ (scoverMiddle c i arg2 harg2 arg3 harg3 arg4 harg4 arg5 harg5 hc1 hc2 x0 x1 xs)]
  unfold runMiddle
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-! ## LAST -/

def soutLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VS.read (Elt F) (VS.writes (Elt F) VS.junk (runLast c i arg2 harg2 arg3 harg3 arg4 harg4 arg5 harg5 hc1 hc2 x0 x1 xs).2.1)

def outLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VO.read (Elt F) (VO.writes (Elt F) VO.junk (runLast c i arg2 harg2 arg3 harg3 arg4 harg4 arg5 harg5 hc1 hc2 x0 x1 xs).1)

theorem scoverLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S256x256.size (by sl_kernel_rfl) y

theorem coverLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S256x256.size (by sl_kernel_rfl) y

/-- The last step leaves its product added to what the accumulator held, -/
theorem soutLast_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    soutLast c i arg2 harg2 arg3 harg3 arg4 harg4 arg5 harg5 hc1 hc2 x0 x1 xs = k0_pay2 x0 x1 xs := by
  unfold soutLast
  rw [View.read_writes_eq_canon _ _ _ (scoverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-- and the output block holds the same sum. -/
theorem outLast_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    outLast c i arg2 harg2 arg3 harg3 arg4 harg4 arg5 harg5 hc1 hc2 x0 x1 xs = k0_pay2 x0 x1 xs := by
  unfold outLast
  rw [View.read_writes_eq_canon _ _ _ (coverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero, View.readCov_unit_zero (S := S256x256) arg5.view off2_zero]

end Cert.Kernel.Call0

end
-- ==== Proof.K0.Acc.lean ====
/-
  Call 0 of the visual kernel: the accumulator after the body at point n, as a recursion over the points in grid order. At a
  point that starts a column tile (n divisible by 15) the step's product is added to the zero block; at every other point to what
  the point before left.
-/
import proofs.«172429_j24283745091878_2_alg».proof.Proof.K0.Base

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after the body at point n. -/
def sAt (c : Dev nD) : (n : ℕ) → n < cfg0.N → Vec F S256x256 .f32
  | 0, h => k0_pay2 (iblk V c 0 ⟨0, h⟩) (iblk V c 1 ⟨0, h⟩) (k0_pay1 (F := F))
  | n + 1, h => k0_pay2 (iblk V c 0 ⟨n + 1, h⟩) (iblk V c 1 ⟨n + 1, h⟩)
      (if (n + 1) % 15 = 0 then k0_pay1 (F := F) else sAt c n (Nat.lt_of_succ_lt h))

/-- At the first reduction step of a column tile: the product added to the zero block. -/
theorem sAt_first (c : Dev nD) (t : Fin cfg0.N) (h : t.val % 15 = 0) :
    sAt V c t.val t.isLt = k0_pay2 (iblk V c 0 t) (iblk V c 1 t) (k0_pay1 (F := F)) := by
  obtain ⟨n, hn⟩ := t
  cases n with
  | zero => rfl
  | succ n => show k0_pay2 _ _ (if (n + 1) % 15 = 0 then _ else _) = _; rw [if_pos h]

/-- At every other step: the product added to what the point before left. -/
theorem sAt_next (c : Dev nD) (t : Fin cfg0.N) (h : ¬t.val % 15 = 0) :
    sAt V c t.val t.isLt = k0_pay2 (iblk V c 0 t) (iblk V c 1 t) (sAt V c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 15 = 0 then _ else _) = _; rw [if_neg h]; rfl

end

end Cert.Kernel.Call0

end
-- ==== Proof.K0.Dat.lean ====
/-
  Call 0 of the visual kernel: the proof data of its pipeline and the body obligation.

  Between two points the region holds the accumulator at what the point before left (at anything before the first point), the
  other call's scoped buffers at anything and the generator register at some state. After the body at point t the two input
  windows' buffers hold their blocks and the output window's buffer holds the accumulator's sum; the pipeline consults the
  latter only at the last reduction step of a column tile, where the body has just stored it and the block is written back —
  at the other points the output window is idle and is handed back as found. The body obligation is proved by cases on the
  reduction step: first, middle, last.
-/
import proofs.«172429_j24283745091878_2_alg».proof.Proof.K0.Pieces
import proofs.«172429_j24283745091878_2_alg».proof.Proof.K0.Acc

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The invariant -/

/-- The region's invariant before position n: the library's before the first point; afterwards the accumulator at what point
    n − 1 left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare (sAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => sAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = sAt V c t.val t.isLt := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 30 := lt_of_lt_of_eq t.isLt (show cfg0.N = 30 from N_0)
  by_cases h0 : t.val % 15 = 0
  · -- FIRST
    have hl : ¬condLast (grid0.coords t) := fun h => by have := (hcondLast t).mp h; omega
    have hf : condFirst (grid0.coords t) := (hcondFirst t).mpr h0
    rw [Dat.leavesExact_idle (dat V c) 2 t (idleAt_2 t hl) (noFlush_2 t hl)]
    rw [sAt_first V c t h0, ← soutFirst_eq c (grid0.coords t) (ms_0 t) (hs_0 t) (ms_1 t) (hs_1 t) (ms_2 t) (hs_2 t) scM (Memref.isWhole_whole _) hf hl (iblk V c 0 t) (iblk V c 1 t)]
    unfold soutFirst; (try dsimp only)
    have hpre : (dat V c).Φ t.castSucc ⊢ (iprop(iprop((∃ d, owns (c : Thread nD τ) scM fullShare d) ∗ others c) ∗ (∃ r, prngReg c r)) : sProp 𝕄) := by
      by_cases hz : t.val = 0
      · rw [PhiS_castSucc V c t, PhiS_zero V c _ _ hz, PhiA_eq]
      · rw [PhiS_castSucc V c t, PhiS_pos V c _ _ hz]
        iintro ⟨⟨HS, Hoth⟩, Hg⟩
        isplitl [HS Hoth]
        · isplitl [HS]; · iexists _; iexact HS
          iexact Hoth
        iexact Hg
    iintro ⟨HΦ, Ho, ⟨%d0, H0⟩, ⟨%d1, H1⟩, ⟨%d2, H2⟩⟩
    ihave HΦ' := hpre $$ HΦ
    icases HΦ' with ⟨⟨HS, Hoth⟩, Hg⟩
    iapply ((runFirst c (grid0.coords t) _ _ _ _ _ _ _ _ hf hl (iblk V c 0 t) (iblk V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hoth Hg]
    · isplitl [HS Hoth]
      · isplitl [HS]
        · unfold owns; iexists _; isplitr
          swap; · iexact HS
          ipureintro; exact View.read_writes_of_cover _ _ _ _ _ (scoverFirst c _ _ _ _ _ _ _ _ _ _ _ _ _)
        iexact Hoth
      iexact Hg
    isplitl [Ho]; · iexact Ho
    isplitl [H0]; · iexact H0
    isplitl [H1]; · iexact H1
    iexists _; iexact H2
  · have hnf : ¬condFirst (grid0.coords t) := fun h => h0 ((hcondFirst t).mp h)
    have hz : t.val ≠ 0 := fun h => h0 (by rw [h])
    rw [PhiS_castSucc V c t, PhiS_pos V c _ _ hz]
    by_cases h14 : t.val % 15 = 14
    · -- LAST
      have hl : condLast (grid0.coords t) := (hcondLast t).mpr h14
      rw [show (dat V c).leavesExact 2 t = owns (c : Thread nD τ) (ms_2 t) fullShare ((dat V c).after 2 t) from by
        unfold Dat.leavesExact; rw [liveAt_2 t hl], after_2]
      rw [sAt_next V c t h0]
      rw [← soutLast_eq c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      rw [show owns (c : Thread nD τ) (ms_2 t) fullShare (soutLast c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt)))
          = owns (c : Thread nD τ) (ms_2 t) fullShare (outLast c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))) from by
        rw [soutLast_eq, outLast_eq]]
      unfold soutLast outLast; (try dsimp only)
      iintro ⟨⟨⟨HS, Hoth⟩, Hg⟩, Ho, ⟨%d0, H0⟩, ⟨%d1, H1⟩, ⟨%d2, H2⟩⟩
      iapply ((runLast c (grid0.coords t) _ _ _ _ _ _ _ _ hnf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · -- MIDDLE
      have hl : ¬condLast (grid0.coords t) := fun h => h14 ((hcondLast t).mp h)
      rw [Dat.leavesExact_idle (dat V c) 2 t (idleAt_2 t hl) (noFlush_2 t hl)]
      rw [sAt_next V c t h0]
      rw [← soutMiddle_eq c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      unfold soutMiddle; (try dsimp only)
      iintro ⟨⟨⟨HS, Hoth⟩, Hg⟩, Ho, ⟨%d0, H0⟩, ⟨%d1, H1⟩, ⟨%d2, H2⟩⟩
      iapply ((runMiddle c (grid0.coords t) _ _ _ _ _ _ _ _ hnf hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scoverMiddle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the library's back: the accumulator's contents are forgotten. -/
theorem hout (c : Dev nD) : (dat V c).Φ (Fin.last cfg0.N) ⊢ Pipeline.ΦA spec0 c := by
  have ht : (Fin.last cfg0.N).val ≠ 0 := by rw [Fin.val_last]; have : cfg0.N = 30 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS, Hoth⟩, Hg⟩
  isplitl [HS Hoth]
  · isplitl [HS]; · iexists _; iexact HS
    iexact Hoth
  iexact Hg

end

end Cert.Kernel.Call0

end
-- ==== Proof.K1.Base.lean ====
/-
  Call 1 of the visual kernel: the vocabulary its run is stated over.

  The grid has 30 points, numbered t = 15·n + k for the output column tile n ∈ {0, 1} and the reduction step k ∈ {0, …, 14}.
  The body zeroes the accumulator when k = 0, adds the product of the point's two input blocks to it at every point, and copies
  it to the output block when k = 14; the output block is written back exactly at those points and is idle at the others.
  Stated here: the two input blocks of a point, the two branch conditions in closed form, where the output window is idle or
  written back, the memrefs the body is called with, and the region's scoped buffers with the accumulator singled out.
-/
import proofs.«172429_j24283745091878_2_alg».proof.Proof.Gen.Kernel.Launch
import proofs.«172429_j24283745091878_2_alg».proof.Proof.Gen.Kernel.Skeleton
import proofs.«172429_j24283745091878_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered
variable (V : (c : Dev nD) → (b : Ref sig .tc) → Buf (Elt F) ((c : Thread nD τ).loc b))

/-! ## The input blocks of a point -/

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The visual tensor's block of point t: one plane's lower half, for all 256 samples. -/
def xblk (c : Dev nD) (t : Fin cfg1.N) : Vec F S256x1x1x48x96 .f32 := iblk V c 0 t
/-- The weights' block of point t: 4608 rows by the tile's 256 columns. -/
def wblk (c : Dev nD) (t : Fin cfg1.N) : Vec F S4608x256 .f32 := iblk V c 1 t

/-- An input window's current staging buffer holds its block at every point, for any proof data whose array is the entry
    contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branch conditions -/

/-- "This is the first reduction step": the condition of the body's first conditional, from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 15 = 0 :=
  (by decide +kernel : ∀ t : Fin grid1.N, condFirst (grid1.coords t) ↔ t.val % 15 = 0)
/-- "This is the last reduction step": the condition of the body's second conditional. -/
abbrev condLast (i : grid1.Coords) : Prop := k1_cond2 i = 1#1
theorem hcondLast : ∀ t : Fin cfg1.N, condLast (grid1.coords t) ↔ t.val % 15 = 14 :=
  (by decide +kernel : ∀ t : Fin grid1.N, condLast (grid1.coords t) ↔ t.val % 15 = 14)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Away from the last reduction step the output window is idle and is not written back. -/
theorem idleAt_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
/-- At the last reduction step the output window is live. -/
theorem liveAt_2 : ∀ t : Fin cfg1.N, condLast (grid1.coords t) → cfg1.idle 2 (grid1.coords t) = false := by decide +kernel

/-! ## The memrefs the body is called with -/

abbrev ms_0 (t : Fin cfg1.N) : Memref sig .tc .vmem S256x1x1x48x96 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4608x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x256 .f32 := win1_2.stage (cfg1.slots t 2)
abbrev hs_2 (t : Fin cfg1.N) : (ms_2 t).IsWhole := hstage1_2 ((cfg1.slots t 2).cast nbuf1_2)
/-- The accumulator: a whole scoped buffer of the call's own, passed beside the windows. -/
abbrev scM : Memref sig .tc .vmem S256x256 .f32 := Memref.whole cc1_scratch0
/-- The views the output block's and the accumulator's contents are stated through. -/
abbrev VO : View sig .tc .vmem S256x256 .f32 := (Memref.whole cc1_stg2_0 : Memref sig .tc .vmem S256x256 .f32).view
abbrev VS : View sig .tc .vmem S256x256 .f32 := scM.view

/-! ## The call's scoped buffers, the accumulator first -/

/-- The other call's seven scoped buffers, each whole at some contents: this call never touches them. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers no window of this call stages: the accumulator and the other call's seven. -/
theorem scopedRest_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  Pipeline.scopedRest_eq_of_list spec1 c [cc1_scratch0, cc0_stg0_0, cc0_stg0_1, cc0_stg1_0, cc0_stg1_1, cc0_stg2_0, cc0_stg2_1, cc0_scratch0] (by decide) (by decide)

/-- The invariant before the first point: the accumulator at anything, the other scoped buffers, the generator register. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA; rw [scopedRest_eq]; simp only [scM, owns_whole]; try rfl

end Cert.Kernel.Call1

end
-- ==== Proof.K1.Run.lean ====
/-
  Call 1 of the visual kernel: the body's run in each of its three control cases.

  FIRST (k = 0): the accumulator, found at anything, is zeroed and then receives the first product. MIDDLE (0 < k < 14): the
  accumulator, found at what the point before left, receives one more product. LAST (k = 14): as MIDDLE, and the accumulator is
  then copied into the output block. In every case the two input blocks are handed back as found; in FIRST and MIDDLE the output
  block is not touched. Each run is a subtype: its witness is the list of pieces the stores leave in each buffer written.
-/
import proofs.«172429_j24283745091878_2_alg».proof.Proof.K1.Base

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST: the pieces left in the accumulator, with the run. -/
noncomputable def runFirst (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc1__visual_kernel i arg2 harg2 arg3 harg3 arg4 harg4 arg5 harg5) K } := by
  refine ⟨?_, fun d2 E K => ?run⟩
  case run =>
    simp only [cc1__visual_kernel_eq_skeleton]; unfold cc1__visual_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- MIDDLE: the pieces left in the accumulator, over what it held (xs), with the run. -/
noncomputable def runMiddle (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc1__visual_kernel i arg2 harg2 arg3 harg3 arg4 harg4 arg5 harg5) K } := by
  refine ⟨?_, fun d2 E K => ?run⟩
  case run =>
    simp only [cc1__visual_kernel_eq_skeleton]; unfold cc1__visual_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- LAST: the pieces left in the output block and in the accumulator, over what the accumulator held (xs), with the run. -/
noncomputable def runLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    Σ' (L2 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__visual_kernel i arg2 harg2 arg3 harg3 arg4 harg4 arg5 harg5) K } := by
  refine ⟨?_, ?_, fun E K => ?run⟩
  case run =>
    simp only [cc1__visual_kernel_eq_skeleton]; unfold cc1__visual_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Call1

end
-- ==== Proof.K1.Pieces.lean ====
/-
  Call 1 of the visual kernel: what each control case leaves in the accumulator and in the output block, as the body's stored
  value of the point's two input blocks. Every store of the body covers its whole buffer, so what a buffer ends with is the
  payload of the last store into it: the first step leaves the product added to the zero block, every later step the product
  added to what the accumulator held, and the last step copies that sum into the output block.
-/
import proofs.«172429_j24283745091878_2_alg».proof.Proof.K1.Run
import Idealize.ShloMosaic.Lib.Pipeline.Value

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → Nat) = fun _ => 0 := by
  funext a; match a with | ⟨0, _⟩ => rfl | ⟨1, _⟩ => rfl
theorem off5_zero : (![0, 0, 0, 0, 0] : Fin 5 → Nat) = fun _ => 0 := by
  funext a; match a with | ⟨0, _⟩ => rfl | ⟨1, _⟩ => rfl | ⟨2, _⟩ => rfl | ⟨3, _⟩ => rfl | ⟨4, _⟩ => rfl

/-! ## FIRST -/

/-- What FIRST leaves in the accumulator: its pieces read back. -/
def soutFirst (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) : Vec F S256x256 .f32 :=
  VS.read (Elt F) (VS.writes (Elt F) VS.junk (runFirst c i arg2 harg2 arg3 harg3 arg4 harg4 arg5 harg5 hc1 hc2 x0 x1).1)

theorem scoverFirst (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) (y : S256x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S256x256.size (by sl_kernel_rfl) y

/-- The first step leaves the first product added to the zero block. -/
theorem soutFirst_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    soutFirst c i arg2 harg2 arg3 harg3 arg4 harg4 arg5 harg5 hc1 hc2 x0 x1 = k1_pay2 x0 x1 (k1_pay1 (F := F)) := by
  unfold soutFirst
  rw [View.read_writes_eq_canon _ _ _ (scoverFirst c i arg2 harg2 arg3 harg3 arg4 harg4 arg5 harg5 hc1 hc2 x0 x1)]
  unfold runFirst
  dsimp only
  sl_unfold_run_names
  rw [View.canon_cons_unit_zero off2_zero]
  simp only [View.readAt_eq_ld, harg2.read_unread, harg3.read_unread, View.ld_unit_zero (S := S256x1x1x48x96) off5_zero,
    View.ld_unit_zero (S := S4608x256) off2_zero, View.readCov_unit_zero (S := S256x256) arg5.view off2_zero]

/-! ## MIDDLE -/

def soutMiddle (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) : Vec F S256x256 .f32 :=
  VS.read (Elt F) (VS.writes (Elt F) VS.junk (runMiddle c i arg2 harg2 arg3 harg3 arg4 harg4 arg5 harg5 hc1 hc2 x0 x1 xs).1)

theorem scoverMiddle (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) (y : S256x256.Idx) :
    ∃ pc ∈ (runMiddle c i arg2 harg2 arg3 harg3 arg4 harg4 arg5 harg5 hc1 hc2 x0 x1 xs).1, y ∈ pc.1.set :=
  View.cover_of_tiledL (runMiddle c i arg2 harg2 arg3 harg3 arg4 harg4 arg5 harg5 hc1 hc2 x0 x1 xs).1 S256x256.size (by sl_kernel_rfl) y

/-- A middle step leaves its product added to what the accumulator held. -/
theorem soutMiddle_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    soutMiddle c i arg2 harg2 arg3 harg3 arg4 harg4 arg5 harg5 hc1 hc2 x0 x1 xs = k1_pay2 x0 x1 xs := by
  unfold soutMiddle
  rw [View.read_writes_eq_canon _ _ _ (scoverMiddle c i arg2 harg2 arg3 harg3 arg4 harg4 arg5 harg5 hc1 hc2 x0 x1 xs)]
  unfold runMiddle
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-! ## LAST -/

def soutLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VS.read (Elt F) (VS.writes (Elt F) VS.junk (runLast c i arg2 harg2 arg3 harg3 arg4 harg4 arg5 harg5 hc1 hc2 x0 x1 xs).2.1)

def outLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VO.read (Elt F) (VO.writes (Elt F) VO.junk (runLast c i arg2 harg2 arg3 harg3 arg4 harg4 arg5 harg5 hc1 hc2 x0 x1 xs).1)

theorem scoverLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S256x256.size (by sl_kernel_rfl) y

theorem coverLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S256x256.size (by sl_kernel_rfl) y

/-- The last step leaves its product added to what the accumulator held, -/
theorem soutLast_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    soutLast c i arg2 harg2 arg3 harg3 arg4 harg4 arg5 harg5 hc1 hc2 x0 x1 xs = k1_pay2 x0 x1 xs := by
  unfold soutLast
  rw [View.read_writes_eq_canon _ _ _ (scoverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-- and the output block holds the same sum. -/
theorem outLast_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    outLast c i arg2 harg2 arg3 harg3 arg4 harg4 arg5 harg5 hc1 hc2 x0 x1 xs = k1_pay2 x0 x1 xs := by
  unfold outLast
  rw [View.read_writes_eq_canon _ _ _ (coverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero, View.readCov_unit_zero (S := S256x256) arg5.view off2_zero]

end Cert.Kernel.Call1

end
-- ==== Proof.K1.Acc.lean ====
/-
  Call 1 of the visual kernel: the accumulator after the body at point n, as a recursion over the points in grid order. At a
  point that starts a column tile (n divisible by 15) the step's product is added to the zero block; at every other point to what
  the point before left.
-/
import proofs.«172429_j24283745091878_2_alg».proof.Proof.K1.Base

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after the body at point n. -/
def sAt (c : Dev nD) : (n : ℕ) → n < cfg1.N → Vec F S256x256 .f32
  | 0, h => k1_pay2 (iblk V c 0 ⟨0, h⟩) (iblk V c 1 ⟨0, h⟩) (k1_pay1 (F := F))
  | n + 1, h => k1_pay2 (iblk V c 0 ⟨n + 1, h⟩) (iblk V c 1 ⟨n + 1, h⟩)
      (if (n + 1) % 15 = 0 then k1_pay1 (F := F) else sAt c n (Nat.lt_of_succ_lt h))

/-- At the first reduction step of a column tile: the product added to the zero block. -/
theorem sAt_first (c : Dev nD) (t : Fin cfg1.N) (h : t.val % 15 = 0) :
    sAt V c t.val t.isLt = k1_pay2 (iblk V c 0 t) (iblk V c 1 t) (k1_pay1 (F := F)) := by
  obtain ⟨n, hn⟩ := t
  cases n with
  | zero => rfl
  | succ n => show k1_pay2 _ _ (if (n + 1) % 15 = 0 then _ else _) = _; rw [if_pos h]

/-- At every other step: the product added to what the point before left. -/
theorem sAt_next (c : Dev nD) (t : Fin cfg1.N) (h : ¬t.val % 15 = 0) :
    sAt V c t.val t.isLt = k1_pay2 (iblk V c 0 t) (iblk V c 1 t) (sAt V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 15 = 0 then _ else _) = _; rw [if_neg h]; rfl

end

end Cert.Kernel.Call1

end
-- ==== Proof.K1.Dat.lean ====
/-
  Call 1 of the visual kernel: the proof data of its pipeline and the body obligation.

  Between two points the region holds the accumulator at what the point before left (at anything before the first point), the
  other call's scoped buffers at anything and the generator register at some state. After the body at point t the two input
  windows' buffers hold their blocks and the output window's buffer holds the accumulator's sum; the pipeline consults the
  latter only at the last reduction step of a column tile, where the body has just stored it and the block is written back —
  at the other points the output window is idle and is handed back as found. The body obligation is proved by cases on the
  reduction step: first, middle, last.
-/
import proofs.«172429_j24283745091878_2_alg».proof.Proof.K1.Pieces
import proofs.«172429_j24283745091878_2_alg».proof.Proof.K1.Acc

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The invariant -/

/-- The region's invariant before position n: the library's before the first point; afterwards the accumulator at what point
    n − 1 left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM fullShare (sAt V c n hn) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg1.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => sAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = sAt V c t.val t.isLt := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 30 := lt_of_lt_of_eq t.isLt (show cfg1.N = 30 from N_1)
  by_cases h0 : t.val % 15 = 0
  · -- FIRST
    have hl : ¬condLast (grid1.coords t) := fun h => by have := (hcondLast t).mp h; omega
    have hf : condFirst (grid1.coords t) := (hcondFirst t).mpr h0
    rw [Dat.leavesExact_idle (dat V c) 2 t (idleAt_2 t hl) (noFlush_2 t hl)]
    rw [sAt_first V c t h0, ← soutFirst_eq c (grid1.coords t) (ms_0 t) (hs_0 t) (ms_1 t) (hs_1 t) (ms_2 t) (hs_2 t) scM (Memref.isWhole_whole _) hf hl (iblk V c 0 t) (iblk V c 1 t)]
    unfold soutFirst; (try dsimp only)
    have hpre : (dat V c).Φ t.castSucc ⊢ (iprop(iprop((∃ d, owns (c : Thread nD τ) scM fullShare d) ∗ others c) ∗ (∃ r, prngReg c r)) : sProp 𝕄) := by
      by_cases hz : t.val = 0
      · rw [PhiS_castSucc V c t, PhiS_zero V c _ _ hz, PhiA_eq]
      · rw [PhiS_castSucc V c t, PhiS_pos V c _ _ hz]
        iintro ⟨⟨HS, Hoth⟩, Hg⟩
        isplitl [HS Hoth]
        · isplitl [HS]; · iexists _; iexact HS
          iexact Hoth
        iexact Hg
    iintro ⟨HΦ, Ho, ⟨%d0, H0⟩, ⟨%d1, H1⟩, ⟨%d2, H2⟩⟩
    ihave HΦ' := hpre $$ HΦ
    icases HΦ' with ⟨⟨HS, Hoth⟩, Hg⟩
    iapply ((runFirst c (grid1.coords t) _ _ _ _ _ _ _ _ hf hl (iblk V c 0 t) (iblk V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hoth Hg]
    · isplitl [HS Hoth]
      · isplitl [HS]
        · unfold owns; iexists _; isplitr
          swap; · iexact HS
          ipureintro; exact View.read_writes_of_cover _ _ _ _ _ (scoverFirst c _ _ _ _ _ _ _ _ _ _ _ _ _)
        iexact Hoth
      iexact Hg
    isplitl [Ho]; · iexact Ho
    isplitl [H0]; · iexact H0
    isplitl [H1]; · iexact H1
    iexists _; iexact H2
  · have hnf : ¬condFirst (grid1.coords t) := fun h => h0 ((hcondFirst t).mp h)
    have hz : t.val ≠ 0 := fun h => h0 (by rw [h])
    rw [PhiS_castSucc V c t, PhiS_pos V c _ _ hz]
    by_cases h14 : t.val % 15 = 14
    · -- LAST
      have hl : condLast (grid1.coords t) := (hcondLast t).mpr h14
      rw [show (dat V c).leavesExact 2 t = owns (c : Thread nD τ) (ms_2 t) fullShare ((dat V c).after 2 t) from by
        unfold Dat.leavesExact; rw [liveAt_2 t hl], after_2]
      rw [sAt_next V c t h0]
      rw [← soutLast_eq c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      rw [show owns (c : Thread nD τ) (ms_2 t) fullShare (soutLast c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt)))
          = owns (c : Thread nD τ) (ms_2 t) fullShare (outLast c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))) from by
        rw [soutLast_eq, outLast_eq]]
      unfold soutLast outLast; (try dsimp only)
      iintro ⟨⟨⟨HS, Hoth⟩, Hg⟩, Ho, ⟨%d0, H0⟩, ⟨%d1, H1⟩, ⟨%d2, H2⟩⟩
      iapply ((runLast c (grid1.coords t) _ _ _ _ _ _ _ _ hnf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · -- MIDDLE
      have hl : ¬condLast (grid1.coords t) := fun h => h14 ((hcondLast t).mp h)
      rw [Dat.leavesExact_idle (dat V c) 2 t (idleAt_2 t hl) (noFlush_2 t hl)]
      rw [sAt_next V c t h0]
      rw [← soutMiddle_eq c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      unfold soutMiddle; (try dsimp only)
      iintro ⟨⟨⟨HS, Hoth⟩, Hg⟩, Ho, ⟨%d0, H0⟩, ⟨%d1, H1⟩, ⟨%d2, H2⟩⟩
      iapply ((runMiddle c (grid1.coords t) _ _ _ _ _ _ _ _ hnf hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scoverMiddle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the library's back: the accumulator's contents are forgotten. -/
theorem hout (c : Dev nD) : (dat V c).Φ (Fin.last cfg1.N) ⊢ Pipeline.ΦA spec1 c := by
  have ht : (Fin.last cfg1.N).val ≠ 0 := by rw [Fin.val_last]; have : cfg1.N = 30 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS, Hoth⟩, Hg⟩
  isplitl [HS Hoth]
  · isplitl [HS]; · iexists _; iexact HS
    iexact Hoth
  iexact Hg

end

end Cert.Kernel.Call1

end
-- ==== Proof.KWhole.lean ====
/-
  The whole program's run: from any launch memory every weakly fair execution of @main terminates, and at the end every unscoped
  buffer holds what the fold below computes for it.

  @main is eight consecutive segments: the host operations of the audio embedding, the two visual pallas_calls, and five stretches
  of host operations (the concatenation of the two calls' results, the two row normalisations, the loss). The buffer contents at
  the nine boundaries are a fold from the launch memory: a host stretch applies its operations; a call leaves each of its arrays at
  what its pipeline's write-backs leave (its two input arrays as it found them, its output array at the blocks written back) and
  every other buffer untouched. Each call enters the pipeline library's launch theorem as a segment with its own proof data, taken
  at the contents the call is entered from.
-/
import proofs.«172429_j24283745091878_2_alg».proof.Proof.K0.Dat
import proofs.«172429_j24283745091878_2_alg».proof.Proof.K1.Dat
import proofs.«172429_j24283745091878_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the audio embedding's host operations (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what its pipeline leaves, every other buffer as entered. -/
def W2 (c : Dev nD) : Valuation τ sig (Elt F) :=
  Pipeline.withArrays spec0 c (W1 m c) fun w => (Call0.dat (V1 m) c).arrAt w cfg0.N
theorem W2_arr (c : Dev nD) (w : Fin cfg0.W) :
    W2 m c (Proc.devRef .tc (Pipeline.arrRef spec0 w)) = (Call0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Call0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call (entered from the first call's exit contents). -/
def W3 (c : Dev nD) : Valuation τ sig (Elt F) :=
  Pipeline.withArrays spec1 c (W2 m c) fun w => (Call1.dat (V2 m) c).arrAt w cfg1.N
theorem W3_arr (c : Dev nD) (w : Fin cfg1.W) :
    W3 m c (Proc.devRef .tc (Pipeline.arrRef spec1 w)) = (Call1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Call1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After each of the five host stretches that follow. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)
abbrev W8 : Dev nD → Valuation τ sig (Elt F) := fun c => StableHlo.after hostOps2_4 (W7 m c)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => Call0.dat (V1 m) c
  | ⟨1, _⟩ => fun c => Call1.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the generator register. -/
abbrev Tₙ (c : Dev nD) : sProp 𝕄 := iprop(StableHlo.held (c : Thread nD τ) (Pipeline.ucRefs τ sig) (W8 m c) ∗ ∃ r, prngReg c r)

/-! ## The two calls as segments -/

-- a library lemma stated over the pinned configuration unifies with the printed one only when unification may unfold plain
-- definitions in a metavariable's type
set_option backward.isDefEq.respectTransparency.types false in
/-- Call 0 as a segment: entered from every unscoped buffer at the contents before it, left at the contents after it. Its
    arrays are split out of the unscoped buffers and put back at what the pipeline leaves; the generator register goes into
    the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Call0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Call0.hin (V1 m) c)
    unfold Pipeline.ΦA
    iintro ⟨Hp, -, Hr⟩
    isplitl [Hr]; · iexact Hr
    iexact Hp
  hout c := by
    refine BIBase.Entails.trans (Call0.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 1 as a segment: entered from every unscoped buffer at the contents before it, left at the contents after it. Its
    arrays are split out of the unscoped buffers and put back at what the pipeline leaves; the generator register goes into
    the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Call1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Call1.hin (V2 m) c)
    unfold Pipeline.ΦA
    iintro ⟨Hp, -, Hr⟩
    isplitl [Hr]; · iexact Hr
    iexact Hp
  hout c := by
    refine BIBase.Entails.trans (Call1.hout (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)),
    .host (hseg hostOps2_4 hostOps2_4_sub hostOps2_4_fresh (W7 m)) ]

theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN: from any memory with zero counters every weakly fair execution of @main on the TensorCores terminates, nothing
    faulting, and in every final state every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Whole

end
-- ==== Proof.KArgs.lean ====
/-
  The argument arrays at the last boundary: no host operation writes an argument, and a call either does not stage it or stages it
  as an input window, whose array the pipeline leaves as it found it. So the fold at an argument's buffer walks back to the launch
  memory.
-/
import proofs.«172429_j24283745091878_2_alg».proof.Proof.KWhole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer none of the operations after the two calls writes is as it was. -/
theorem keeps_after (W : Valuation τ sig (Elt F)) (r : Ref sig .tc)
    (h : r ∉ hostOps2_W ∧ r ∉ hostOps2_1_W ∧ r ∉ hostOps2_2_W ∧ r ∉ hostOps2_3_W ∧ r ∉ hostOps2_4_W) :
    StableHlo.after hostOps2_4 (StableHlo.after hostOps2_3 (StableHlo.after hostOps2_2 (StableHlo.after hostOps2_1 (StableHlo.after hostOps2 W)))) (Proc.devRef .tc r)
      = W (Proc.devRef .tc r) :=
  (StableHlo.after_of_writes_sub hostOps2_4 _ hostOps2_4_writes h.2.2.2.2).trans <|
  (StableHlo.after_of_writes_sub hostOps2_3 _ hostOps2_3_writes h.2.2.2.1).trans <|
  (StableHlo.after_of_writes_sub hostOps2_2 _ hostOps2_2_writes h.2.2.1).trans <|
  (StableHlo.after_of_writes_sub hostOps2_1 _ hostOps2_1_writes h.2.1).trans <|
  StableHlo.after_of_writes_sub hostOps2 _ hostOps2_writes h.1

/-- A buffer none of the three operations before the calls writes is as it was. -/
theorem keeps_before (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

/-- The argument array 0 ends as launched. -/
theorem W8_arg0 (c : Dev nD) : W8 m c (Proc.devRef .tc main_arg0) = m ((c : Thread nD τ).loc main_arg0) :=
  (keeps_after (W3 m c) main_arg0 (by decide)).trans <| (W3_of_ne m c main_arg0 (by decide)).trans <| (W2_of_ne m c main_arg0 (by decide)).trans <| (keeps_before (W0 m c) main_arg0 (by decide)).trans rfl
/-- The argument array 1 ends as launched. -/
theorem W8_arg1 (c : Dev nD) : W8 m c (Proc.devRef .tc main_arg1) = m ((c : Thread nD τ).loc main_arg1) :=
  (keeps_after (W3 m c) main_arg1 (by decide)).trans <| (W3_of_ne m c main_arg1 (by decide)).trans <| ((W2_arr m c 0).trans (((Call0.dat (V1 m) c).arrAt_in 0 rfl _).trans (Call0.A_eq (V1 m) c 0))).trans <| (keeps_before (W0 m c) main_arg1 (by decide)).trans rfl
/-- The argument array 2 ends as launched. -/
theorem W8_arg2 (c : Dev nD) : W8 m c (Proc.devRef .tc main_arg2) = m ((c : Thread nD τ).loc main_arg2) :=
  (keeps_after (W3 m c) main_arg2 (by decide)).trans <| (W3_of_ne m c main_arg2 (by decide)).trans <| (W2_of_ne m c main_arg2 (by decide)).trans <| (keeps_before (W0 m c) main_arg2 (by decide)).trans rfl
/-- The argument array 3 ends as launched. -/
theorem W8_arg3 (c : Dev nD) : W8 m c (Proc.devRef .tc main_arg3) = m ((c : Thread nD τ).loc main_arg3) :=
  (keeps_after (W3 m c) main_arg3 (by decide)).trans <| ((W3_arr m c 0).trans (((Call1.dat (V2 m) c).arrAt_in 0 rfl _).trans (Call1.A_eq (V2 m) c 0))).trans <| (W2_of_ne m c main_arg3 (by decide)).trans <| (keeps_before (W0 m c) main_arg3 (by decide)).trans rfl
/-- The argument array 4 ends as launched. -/
theorem W8_arg4 (c : Dev nD) : W8 m c (Proc.devRef .tc main_arg4) = m ((c : Thread nD τ).loc main_arg4) :=
  (keeps_after (W3 m c) main_arg4 (by decide)).trans <| (W3_of_ne m c main_arg4 (by decide)).trans <| (W2_of_ne m c main_arg4 (by decide)).trans <| (keeps_before (W0 m c) main_arg4 (by decide)).trans rfl
/-- The argument array 5 ends as launched. -/
theorem W8_arg5 (c : Dev nD) : W8 m c (Proc.devRef .tc main_arg5) = m ((c : Thread nD τ).loc main_arg5) :=
  (keeps_after (W3 m c) main_arg5 (by decide)).trans <| ((W3_arr m c 1).trans (((Call1.dat (V2 m) c).arrAt_in 1 rfl _).trans (Call1.A_eq (V2 m) c 1))).trans <| ((W2_arr m c 1).trans (((Call0.dat (V1 m) c).arrAt_in 1 rfl _).trans (Call0.A_eq (V1 m) c 1))).trans <| (keeps_before (W0 m c) main_arg5 (by decide)).trans rfl

end Cert.Kernel.Whole

end
-- ==== Proof.KI0.Base.lean ====
/-
  Call 0 of the visual kernel: the vocabulary its run is stated over.

  The grid has 30 points, numbered t = 15·n + k for the output column tile n ∈ {0, 1} and the reduction step k ∈ {0, …, 14}.
  The body zeroes the accumulator when k = 0, adds the product of the point's two input blocks to it at every point, and copies
  it to the output block when k = 14; the output block is written back exactly at those points and is idle at the others.
  Stated here: the two input blocks of a point, the two branch conditions in closed form, where the output window is idle or
  written back, the memrefs the body is called with, and the region's scoped buffers with the accumulator singled out.
-/
import proofs.«172429_j24283745091878_2_alg».proof.Proof.Gen.KernelIdeal.Launch
import proofs.«172429_j24283745091878_2_alg».proof.Proof.Gen.KernelIdeal.Skeleton
import proofs.«172429_j24283745091878_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered
variable (V : (c : Dev nD) → (b : Ref sig .tc) → Buf (Elt F) ((c : Thread nD τ).loc b))

/-! ## The input blocks of a point -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The visual tensor's block of point t: one plane's lower half, for all 256 samples. -/
def xblk (c : Dev nD) (t : Fin cfg0.N) : Vec F S256x1x1x48x96 .f32 := iblk V c 0 t
/-- The weights' block of point t: 4608 rows by the tile's 256 columns. -/
def wblk (c : Dev nD) (t : Fin cfg0.N) : Vec F S4608x256 .f32 := iblk V c 1 t

/-- An input window's current staging buffer holds its block at every point, for any proof data whose array is the entry
    contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branch conditions -/

/-- "This is the first reduction step": the condition of the body's first conditional, from the grid coordinates. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 15 = 0 :=
  (by decide +kernel : ∀ t : Fin grid0.N, condFirst (grid0.coords t) ↔ t.val % 15 = 0)
/-- "This is the last reduction step": the condition of the body's second conditional. -/
abbrev condLast (i : grid0.Coords) : Prop := k0_cond2 i = 1#1
theorem hcondLast : ∀ t : Fin cfg0.N, condLast (grid0.coords t) ↔ t.val % 15 = 14 :=
  (by decide +kernel : ∀ t : Fin grid0.N, condLast (grid0.coords t) ↔ t.val % 15 = 14)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from the last reduction step the output window is idle and is not written back. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At the last reduction step the output window is live. -/
theorem liveAt_2 : ∀ t : Fin cfg0.N, condLast (grid0.coords t) → cfg0.idle 2 (grid0.coords t) = false := by decide +kernel

/-! ## The memrefs the body is called with -/

abbrev ms_0 (t : Fin cfg0.N) : Memref sig .tc .vmem S256x1x1x48x96 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4608x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x256 .f32 := win0_2.stage (cfg0.slots t 2)
abbrev hs_2 (t : Fin cfg0.N) : (ms_2 t).IsWhole := hstage0_2 ((cfg0.slots t 2).cast nbuf0_2)
/-- The accumulator: a whole scoped buffer of the call's own, passed beside the windows. -/
abbrev scM : Memref sig .tc .vmem S256x256 .f32 := Memref.whole cc0_scratch0
/-- The views the output block's and the accumulator's contents are stated through. -/
abbrev VO : View sig .tc .vmem S256x256 .f32 := (Memref.whole cc0_stg2_0 : Memref sig .tc .vmem S256x256 .f32).view
abbrev VS : View sig .tc .vmem S256x256 .f32 := scM.view

/-! ## The call's scoped buffers, the accumulator first -/

/-- The other call's seven scoped buffers, each whole at some contents: this call never touches them. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped buffers no window of this call stages: the accumulator and the other call's seven. -/
theorem scopedRest_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others c) :=
  Pipeline.scopedRest_eq_of_list spec0 c [cc0_scratch0, cc1_stg0_0, cc1_stg0_1, cc1_stg1_0, cc1_stg1_1, cc1_stg2_0, cc1_stg2_1, cc1_scratch0] (by decide) (by decide)

/-- The invariant before the first point: the accumulator at anything, the other scoped buffers, the generator register. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest_eq]; simp only [scM, owns_whole]; try rfl

end Cert.KernelIdeal.Call0

end
-- ==== Proof.KI0.Run.lean ====
/-
  Call 0 of the visual kernel: the body's run in each of its three control cases.

  FIRST (k = 0): the accumulator, found at anything, is zeroed and then receives the first product. MIDDLE (0 < k < 14): the
  accumulator, found at what the point before left, receives one more product. LAST (k = 14): as MIDDLE, and the accumulator is
  then copied into the output block. In every case the two input blocks are handed back as found; in FIRST and MIDDLE the output
  block is not touched. Each run is a subtype: its witness is the list of pieces the stores leave in each buffer written.
-/
import proofs.«172429_j24283745091878_2_alg».proof.Proof.KI0.Base

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST: the pieces left in the accumulator, with the run. -/
noncomputable def runFirst (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc0__visual_kernel i arg2 harg2 arg3 harg3 arg4 harg4 arg5 harg5) K } := by
  refine ⟨?_, fun d2 E K => ?run⟩
  case run =>
    simp only [cc0__visual_kernel_eq_skeleton]; unfold cc0__visual_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- MIDDLE: the pieces left in the accumulator, over what it held (xs), with the run. -/
noncomputable def runMiddle (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc0__visual_kernel i arg2 harg2 arg3 harg3 arg4 harg4 arg5 harg5) K } := by
  refine ⟨?_, fun d2 E K => ?run⟩
  case run =>
    simp only [cc0__visual_kernel_eq_skeleton]; unfold cc0__visual_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- LAST: the pieces left in the output block and in the accumulator, over what the accumulator held (xs), with the run. -/
noncomputable def runLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    Σ' (L2 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__visual_kernel i arg2 harg2 arg3 harg3 arg4 harg4 arg5 harg5) K } := by
  refine ⟨?_, ?_, fun E K => ?run⟩
  case run =>
    simp only [cc0__visual_kernel_eq_skeleton]; unfold cc0__visual_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Call0

end
-- ==== Proof.KI0.Pieces.lean ====
/-
  Call 0 of the visual kernel: what each control case leaves in the accumulator and in the output block, as the body's stored
  value of the point's two input blocks. Every store of the body covers its whole buffer, so what a buffer ends with is the
  payload of the last store into it: the first step leaves the product added to the zero block, every later step the product
  added to what the accumulator held, and the last step copies that sum into the output block.
-/
import proofs.«172429_j24283745091878_2_alg».proof.Proof.KI0.Run
import Idealize.ShloMosaic.Lib.Pipeline.Value

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → Nat) = fun _ => 0 := by
  funext a; match a with | ⟨0, _⟩ => rfl | ⟨1, _⟩ => rfl
theorem off5_zero : (![0, 0, 0, 0, 0] : Fin 5 → Nat) = fun _ => 0 := by
  funext a; match a with | ⟨0, _⟩ => rfl | ⟨1, _⟩ => rfl | ⟨2, _⟩ => rfl | ⟨3, _⟩ => rfl | ⟨4, _⟩ => rfl

/-! ## FIRST -/

/-- What FIRST leaves in the accumulator: its pieces read back. -/
def soutFirst (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) : Vec F S256x256 .f32 :=
  VS.read (Elt F) (VS.writes (Elt F) VS.junk (runFirst c i arg2 harg2 arg3 harg3 arg4 harg4 arg5 harg5 hc1 hc2 x0 x1).1)

theorem scoverFirst (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) (y : S256x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S256x256.size (by sl_kernel_rfl) y

/-- The first step leaves the first product added to the zero block. -/
theorem soutFirst_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    soutFirst c i arg2 harg2 arg3 harg3 arg4 harg4 arg5 harg5 hc1 hc2 x0 x1 = k0_pay2 x0 x1 (k0_pay1 (F := F)) := by
  unfold soutFirst
  rw [View.read_writes_eq_canon _ _ _ (scoverFirst c i arg2 harg2 arg3 harg3 arg4 harg4 arg5 harg5 hc1 hc2 x0 x1)]
  unfold runFirst
  dsimp only
  sl_unfold_run_names
  rw [View.canon_cons_unit_zero off2_zero]
  simp only [View.readAt_eq_ld, harg2.read_unread, harg3.read_unread, View.ld_unit_zero (S := S256x1x1x48x96) off5_zero,
    View.ld_unit_zero (S := S4608x256) off2_zero, View.readCov_unit_zero (S := S256x256) arg5.view off2_zero]

/-! ## MIDDLE -/

def soutMiddle (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) : Vec F S256x256 .f32 :=
  VS.read (Elt F) (VS.writes (Elt F) VS.junk (runMiddle c i arg2 harg2 arg3 harg3 arg4 harg4 arg5 harg5 hc1 hc2 x0 x1 xs).1)

theorem scoverMiddle (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) (y : S256x256.Idx) :
    ∃ pc ∈ (runMiddle c i arg2 harg2 arg3 harg3 arg4 harg4 arg5 harg5 hc1 hc2 x0 x1 xs).1, y ∈ pc.1.set :=
  View.cover_of_tiledL (runMiddle c i arg2 harg2 arg3 harg3 arg4 harg4 arg5 harg5 hc1 hc2 x0 x1 xs).1 S256x256.size (by sl_kernel_rfl) y

/-- A middle step leaves its product added to what the accumulator held. -/
theorem soutMiddle_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    soutMiddle c i arg2 harg2 arg3 harg3 arg4 harg4 arg5 harg5 hc1 hc2 x0 x1 xs = k0_pay2 x0 x1 xs := by
  unfold soutMiddle
  rw [View.read_writes_eq_canon _ _ _ (scoverMiddle c i arg2 harg2 arg3 harg3 arg4 harg4 arg5 harg5 hc1 hc2 x0 x1 xs)]
  unfold runMiddle
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-! ## LAST -/

def soutLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VS.read (Elt F) (VS.writes (Elt F) VS.junk (runLast c i arg2 harg2 arg3 harg3 arg4 harg4 arg5 harg5 hc1 hc2 x0 x1 xs).2.1)

def outLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VO.read (Elt F) (VO.writes (Elt F) VO.junk (runLast c i arg2 harg2 arg3 harg3 arg4 harg4 arg5 harg5 hc1 hc2 x0 x1 xs).1)

theorem scoverLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S256x256.size (by sl_kernel_rfl) y

theorem coverLast (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S256x256.size (by sl_kernel_rfl) y

/-- The last step leaves its product added to what the accumulator held, -/
theorem soutLast_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    soutLast c i arg2 harg2 arg3 harg3 arg4 harg4 arg5 harg5 hc1 hc2 x0 x1 xs = k0_pay2 x0 x1 xs := by
  unfold soutLast
  rw [View.read_writes_eq_canon _ _ _ (scoverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-- and the output block holds the same sum. -/
theorem outLast_eq (c : Dev nD) (i : grid0.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    outLast c i arg2 harg2 arg3 harg3 arg4 harg4 arg5 harg5 hc1 hc2 x0 x1 xs = k0_pay2 x0 x1 xs := by
  unfold outLast
  rw [View.read_writes_eq_canon _ _ _ (coverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero, View.readCov_unit_zero (S := S256x256) arg5.view off2_zero]

end Cert.KernelIdeal.Call0

end
-- ==== Proof.KI0.Acc.lean ====
/-
  Call 0 of the visual kernel: the accumulator after the body at point n, as a recursion over the points in grid order. At a
  point that starts a column tile (n divisible by 15) the step's product is added to the zero block; at every other point to what
  the point before left.
-/
import proofs.«172429_j24283745091878_2_alg».proof.Proof.KI0.Base

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after the body at point n. -/
def sAt (c : Dev nD) : (n : ℕ) → n < cfg0.N → Vec F S256x256 .f32
  | 0, h => k0_pay2 (iblk V c 0 ⟨0, h⟩) (iblk V c 1 ⟨0, h⟩) (k0_pay1 (F := F))
  | n + 1, h => k0_pay2 (iblk V c 0 ⟨n + 1, h⟩) (iblk V c 1 ⟨n + 1, h⟩)
      (if (n + 1) % 15 = 0 then k0_pay1 (F := F) else sAt c n (Nat.lt_of_succ_lt h))

/-- At the first reduction step of a column tile: the product added to the zero block. -/
theorem sAt_first (c : Dev nD) (t : Fin cfg0.N) (h : t.val % 15 = 0) :
    sAt V c t.val t.isLt = k0_pay2 (iblk V c 0 t) (iblk V c 1 t) (k0_pay1 (F := F)) := by
  obtain ⟨n, hn⟩ := t
  cases n with
  | zero => rfl
  | succ n => show k0_pay2 _ _ (if (n + 1) % 15 = 0 then _ else _) = _; rw [if_pos h]

/-- At every other step: the product added to what the point before left. -/
theorem sAt_next (c : Dev nD) (t : Fin cfg0.N) (h : ¬t.val % 15 = 0) :
    sAt V c t.val t.isLt = k0_pay2 (iblk V c 0 t) (iblk V c 1 t) (sAt V c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 15 = 0 then _ else _) = _; rw [if_neg h]; rfl

end

end Cert.KernelIdeal.Call0

end
-- ==== Proof.KI0.Dat.lean ====
/-
  Call 0 of the visual kernel: the proof data of its pipeline and the body obligation.

  Between two points the region holds the accumulator at what the point before left (at anything before the first point), the
  other call's scoped buffers at anything and the generator register at some state. After the body at point t the two input
  windows' buffers hold their blocks and the output window's buffer holds the accumulator's sum; the pipeline consults the
  latter only at the last reduction step of a column tile, where the body has just stored it and the block is written back —
  at the other points the output window is idle and is handed back as found. The body obligation is proved by cases on the
  reduction step: first, middle, last.
-/
import proofs.«172429_j24283745091878_2_alg».proof.Proof.KI0.Pieces
import proofs.«172429_j24283745091878_2_alg».proof.Proof.KI0.Acc

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The invariant -/

/-- The region's invariant before position n: the library's before the first point; afterwards the accumulator at what point
    n − 1 left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare (sAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => sAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = sAt V c t.val t.isLt := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 30 := lt_of_lt_of_eq t.isLt (show cfg0.N = 30 from N_0)
  by_cases h0 : t.val % 15 = 0
  · -- FIRST
    have hl : ¬condLast (grid0.coords t) := fun h => by have := (hcondLast t).mp h; omega
    have hf : condFirst (grid0.coords t) := (hcondFirst t).mpr h0
    rw [Dat.leavesExact_idle (dat V c) 2 t (idleAt_2 t hl) (noFlush_2 t hl)]
    rw [sAt_first V c t h0, ← soutFirst_eq c (grid0.coords t) (ms_0 t) (hs_0 t) (ms_1 t) (hs_1 t) (ms_2 t) (hs_2 t) scM (Memref.isWhole_whole _) hf hl (iblk V c 0 t) (iblk V c 1 t)]
    unfold soutFirst; (try dsimp only)
    have hpre : (dat V c).Φ t.castSucc ⊢ (iprop(iprop((∃ d, owns (c : Thread nD τ) scM fullShare d) ∗ others c) ∗ (∃ r, prngReg c r)) : sProp 𝕄) := by
      by_cases hz : t.val = 0
      · rw [PhiS_castSucc V c t, PhiS_zero V c _ _ hz, PhiA_eq]
      · rw [PhiS_castSucc V c t, PhiS_pos V c _ _ hz]
        iintro ⟨⟨HS, Hoth⟩, Hg⟩
        isplitl [HS Hoth]
        · isplitl [HS]; · iexists _; iexact HS
          iexact Hoth
        iexact Hg
    iintro ⟨HΦ, Ho, ⟨%d0, H0⟩, ⟨%d1, H1⟩, ⟨%d2, H2⟩⟩
    ihave HΦ' := hpre $$ HΦ
    icases HΦ' with ⟨⟨HS, Hoth⟩, Hg⟩
    iapply ((runFirst c (grid0.coords t) _ _ _ _ _ _ _ _ hf hl (iblk V c 0 t) (iblk V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hoth Hg]
    · isplitl [HS Hoth]
      · isplitl [HS]
        · unfold owns; iexists _; isplitr
          swap; · iexact HS
          ipureintro; exact View.read_writes_of_cover _ _ _ _ _ (scoverFirst c _ _ _ _ _ _ _ _ _ _ _ _ _)
        iexact Hoth
      iexact Hg
    isplitl [Ho]; · iexact Ho
    isplitl [H0]; · iexact H0
    isplitl [H1]; · iexact H1
    iexists _; iexact H2
  · have hnf : ¬condFirst (grid0.coords t) := fun h => h0 ((hcondFirst t).mp h)
    have hz : t.val ≠ 0 := fun h => h0 (by rw [h])
    rw [PhiS_castSucc V c t, PhiS_pos V c _ _ hz]
    by_cases h14 : t.val % 15 = 14
    · -- LAST
      have hl : condLast (grid0.coords t) := (hcondLast t).mpr h14
      rw [show (dat V c).leavesExact 2 t = owns (c : Thread nD τ) (ms_2 t) fullShare ((dat V c).after 2 t) from by
        unfold Dat.leavesExact; rw [liveAt_2 t hl], after_2]
      rw [sAt_next V c t h0]
      rw [← soutLast_eq c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      rw [show owns (c : Thread nD τ) (ms_2 t) fullShare (soutLast c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt)))
          = owns (c : Thread nD τ) (ms_2 t) fullShare (outLast c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))) from by
        rw [soutLast_eq, outLast_eq]]
      unfold soutLast outLast; (try dsimp only)
      iintro ⟨⟨⟨HS, Hoth⟩, Hg⟩, Ho, ⟨%d0, H0⟩, ⟨%d1, H1⟩, ⟨%d2, H2⟩⟩
      iapply ((runLast c (grid0.coords t) _ _ _ _ _ _ _ _ hnf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · -- MIDDLE
      have hl : ¬condLast (grid0.coords t) := fun h => h14 ((hcondLast t).mp h)
      rw [Dat.leavesExact_idle (dat V c) 2 t (idleAt_2 t hl) (noFlush_2 t hl)]
      rw [sAt_next V c t h0]
      rw [← soutMiddle_eq c (grid0.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      unfold soutMiddle; (try dsimp only)
      iintro ⟨⟨⟨HS, Hoth⟩, Hg⟩, Ho, ⟨%d0, H0⟩, ⟨%d1, H1⟩, ⟨%d2, H2⟩⟩
      iapply ((runMiddle c (grid0.coords t) _ _ _ _ _ _ _ _ hnf hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scoverMiddle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the library's back: the accumulator's contents are forgotten. -/
theorem hout (c : Dev nD) : (dat V c).Φ (Fin.last cfg0.N) ⊢ Pipeline.ΦA spec0 c := by
  have ht : (Fin.last cfg0.N).val ≠ 0 := by rw [Fin.val_last]; have : cfg0.N = 30 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS, Hoth⟩, Hg⟩
  isplitl [HS Hoth]
  · isplitl [HS]; · iexists _; iexact HS
    iexact Hoth
  iexact Hg

end

end Cert.KernelIdeal.Call0

end
-- ==== Proof.KI1.Base.lean ====
/-
  Call 1 of the visual kernel: the vocabulary its run is stated over.

  The grid has 30 points, numbered t = 15·n + k for the output column tile n ∈ {0, 1} and the reduction step k ∈ {0, …, 14}.
  The body zeroes the accumulator when k = 0, adds the product of the point's two input blocks to it at every point, and copies
  it to the output block when k = 14; the output block is written back exactly at those points and is idle at the others.
  Stated here: the two input blocks of a point, the two branch conditions in closed form, where the output window is idle or
  written back, the memrefs the body is called with, and the region's scoped buffers with the accumulator singled out.
-/
import proofs.«172429_j24283745091878_2_alg».proof.Proof.Gen.KernelIdeal.Launch
import proofs.«172429_j24283745091878_2_alg».proof.Proof.Gen.KernelIdeal.Skeleton
import proofs.«172429_j24283745091878_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered
variable (V : (c : Dev nD) → (b : Ref sig .tc) → Buf (Elt F) ((c : Thread nD τ).loc b))

/-! ## The input blocks of a point -/

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The visual tensor's block of point t: one plane's lower half, for all 256 samples. -/
def xblk (c : Dev nD) (t : Fin cfg1.N) : Vec F S256x1x1x48x96 .f32 := iblk V c 0 t
/-- The weights' block of point t: 4608 rows by the tile's 256 columns. -/
def wblk (c : Dev nD) (t : Fin cfg1.N) : Vec F S4608x256 .f32 := iblk V c 1 t

/-- An input window's current staging buffer holds its block at every point, for any proof data whose array is the entry
    contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branch conditions -/

/-- "This is the first reduction step": the condition of the body's first conditional, from the grid coordinates. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 15 = 0 :=
  (by decide +kernel : ∀ t : Fin grid1.N, condFirst (grid1.coords t) ↔ t.val % 15 = 0)
/-- "This is the last reduction step": the condition of the body's second conditional. -/
abbrev condLast (i : grid1.Coords) : Prop := k1_cond2 i = 1#1
theorem hcondLast : ∀ t : Fin cfg1.N, condLast (grid1.coords t) ↔ t.val % 15 = 14 :=
  (by decide +kernel : ∀ t : Fin grid1.N, condLast (grid1.coords t) ↔ t.val % 15 = 14)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Away from the last reduction step the output window is idle and is not written back. -/
theorem idleAt_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
/-- At the last reduction step the output window is live. -/
theorem liveAt_2 : ∀ t : Fin cfg1.N, condLast (grid1.coords t) → cfg1.idle 2 (grid1.coords t) = false := by decide +kernel

/-! ## The memrefs the body is called with -/

abbrev ms_0 (t : Fin cfg1.N) : Memref sig .tc .vmem S256x1x1x48x96 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4608x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x256 .f32 := win1_2.stage (cfg1.slots t 2)
abbrev hs_2 (t : Fin cfg1.N) : (ms_2 t).IsWhole := hstage1_2 ((cfg1.slots t 2).cast nbuf1_2)
/-- The accumulator: a whole scoped buffer of the call's own, passed beside the windows. -/
abbrev scM : Memref sig .tc .vmem S256x256 .f32 := Memref.whole cc1_scratch0
/-- The views the output block's and the accumulator's contents are stated through. -/
abbrev VO : View sig .tc .vmem S256x256 .f32 := (Memref.whole cc1_stg2_0 : Memref sig .tc .vmem S256x256 .f32).view
abbrev VS : View sig .tc .vmem S256x256 .f32 := scM.view

/-! ## The call's scoped buffers, the accumulator first -/

/-- The other call's seven scoped buffers, each whole at some contents: this call never touches them. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers no window of this call stages: the accumulator and the other call's seven. -/
theorem scopedRest_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  Pipeline.scopedRest_eq_of_list spec1 c [cc1_scratch0, cc0_stg0_0, cc0_stg0_1, cc0_stg1_0, cc0_stg1_1, cc0_stg2_0, cc0_stg2_1, cc0_scratch0] (by decide) (by decide)

/-- The invariant before the first point: the accumulator at anything, the other scoped buffers, the generator register. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA; rw [scopedRest_eq]; simp only [scM, owns_whole]; try rfl

end Cert.KernelIdeal.Call1

end
-- ==== Proof.KI1.Run.lean ====
/-
  Call 1 of the visual kernel: the body's run in each of its three control cases.

  FIRST (k = 0): the accumulator, found at anything, is zeroed and then receives the first product. MIDDLE (0 < k < 14): the
  accumulator, found at what the point before left, receives one more product. LAST (k = 14): as MIDDLE, and the accumulator is
  then copied into the output block. In every case the two input blocks are handed back as found; in FIRST and MIDDLE the output
  block is not touched. Each run is a subtype: its witness is the list of pieces the stores leave in each buffer written.
-/
import proofs.«172429_j24283745091878_2_alg».proof.Proof.KI1.Base

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST: the pieces left in the accumulator, with the run. -/
noncomputable def runFirst (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ (∃ d, owns (c : Thread nD τ) arg5 fullShare d)
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc1__visual_kernel i arg2 harg2 arg3 harg3 arg4 harg4 arg5 harg5) K } := by
  refine ⟨?_, fun d2 E K => ?run⟩
  case run =>
    simp only [cc1__visual_kernel_eq_skeleton]; unfold cc1__visual_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- MIDDLE: the pieces left in the accumulator, over what it held (xs), with the run. -/
noncomputable def runMiddle (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    { LS : List (View.Piece (Elt F) S256x256 .f32) //
      ∀ (d2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare d2 ∗ owns (c : Thread nD τ) arg5 fullShare xs
            ∗ (iprop(owns (c : Thread nD τ) arg2 fullShare x0 ∗ owns (c : Thread nD τ) arg3 fullShare x1 ∗ owns (c : Thread nD τ) arg4 fullShare d2 ∗ (∃ f, arg5.view.loc (c : Thread nD τ) ↦[arg5.view.set]{fullShare} arg5.view.writes (Elt F) f LS)) -∗ K ⟨⟩))
          ⊢ wp frame (wpE (defs₀ (F := F)) Variants.none c none) E (cc1__visual_kernel i arg2 harg2 arg3 harg3 arg4 harg4 arg5 harg5) K } := by
  refine ⟨?_, fun d2 E K => ?run⟩
  case run =>
    simp only [cc1__visual_kernel_eq_skeleton]; unfold cc1__visual_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    iexists _; iexact HS

set_option maxHeartbeats 1000000 in
/-- LAST: the pieces left in the output block and in the accumulator, over what the accumulator held (xs), with the run. -/
noncomputable def runLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    Σ' (L2 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__visual_kernel i arg2 harg2 arg3 harg3 arg4 harg4 arg5 harg5) K } := by
  refine ⟨?_, ?_, fun E K => ?run⟩
  case run =>
    simp only [cc1__visual_kernel_eq_skeleton]; unfold cc1__visual_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Call1

end
-- ==== Proof.KI1.Pieces.lean ====
/-
  Call 1 of the visual kernel: what each control case leaves in the accumulator and in the output block, as the body's stored
  value of the point's two input blocks. Every store of the body covers its whole buffer, so what a buffer ends with is the
  payload of the last store into it: the first step leaves the product added to the zero block, every later step the product
  added to what the accumulator held, and the last step copies that sum into the output block.
-/
import proofs.«172429_j24283745091878_2_alg».proof.Proof.KI1.Run
import Idealize.ShloMosaic.Lib.Pipeline.Value

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → Nat) = fun _ => 0 := by
  funext a; match a with | ⟨0, _⟩ => rfl | ⟨1, _⟩ => rfl
theorem off5_zero : (![0, 0, 0, 0, 0] : Fin 5 → Nat) = fun _ => 0 := by
  funext a; match a with | ⟨0, _⟩ => rfl | ⟨1, _⟩ => rfl | ⟨2, _⟩ => rfl | ⟨3, _⟩ => rfl | ⟨4, _⟩ => rfl

/-! ## FIRST -/

/-- What FIRST leaves in the accumulator: its pieces read back. -/
def soutFirst (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) : Vec F S256x256 .f32 :=
  VS.read (Elt F) (VS.writes (Elt F) VS.junk (runFirst c i arg2 harg2 arg3 harg3 arg4 harg4 arg5 harg5 hc1 hc2 x0 x1).1)

theorem scoverFirst (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) (y : S256x256.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S256x256.size (by sl_kernel_rfl) y

/-- The first step leaves the first product added to the zero block. -/
theorem soutFirst_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : condFirst i) (hc2 : ¬condLast i) (x0 : Vec F S256x1x1x48x96 .f32) (x1 : Vec F S4608x256 .f32) :
    soutFirst c i arg2 harg2 arg3 harg3 arg4 harg4 arg5 harg5 hc1 hc2 x0 x1 = k1_pay2 x0 x1 (k1_pay1 (F := F)) := by
  unfold soutFirst
  rw [View.read_writes_eq_canon _ _ _ (scoverFirst c i arg2 harg2 arg3 harg3 arg4 harg4 arg5 harg5 hc1 hc2 x0 x1)]
  unfold runFirst
  dsimp only
  sl_unfold_run_names
  rw [View.canon_cons_unit_zero off2_zero]
  simp only [View.readAt_eq_ld, harg2.read_unread, harg3.read_unread, View.ld_unit_zero (S := S256x1x1x48x96) off5_zero,
    View.ld_unit_zero (S := S4608x256) off2_zero, View.readCov_unit_zero (S := S256x256) arg5.view off2_zero]

/-! ## MIDDLE -/

def soutMiddle (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) : Vec F S256x256 .f32 :=
  VS.read (Elt F) (VS.writes (Elt F) VS.junk (runMiddle c i arg2 harg2 arg3 harg3 arg4 harg4 arg5 harg5 hc1 hc2 x0 x1 xs).1)

theorem scoverMiddle (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) (y : S256x256.Idx) :
    ∃ pc ∈ (runMiddle c i arg2 harg2 arg3 harg3 arg4 harg4 arg5 harg5 hc1 hc2 x0 x1 xs).1, y ∈ pc.1.set :=
  View.cover_of_tiledL (runMiddle c i arg2 harg2 arg3 harg3 arg4 harg4 arg5 harg5 hc1 hc2 x0 x1 xs).1 S256x256.size (by sl_kernel_rfl) y

/-- A middle step leaves its product added to what the accumulator held. -/
theorem soutMiddle_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : ¬condLast i) (x0 : Vec F S256x1x1x48x96 .f32) (x1 : Vec F S4608x256 .f32) (xs : Vec F S256x256 .f32) :
    soutMiddle c i arg2 harg2 arg3 harg3 arg4 harg4 arg5 harg5 hc1 hc2 x0 x1 xs = k1_pay2 x0 x1 xs := by
  unfold soutMiddle
  rw [View.read_writes_eq_canon _ _ _ (scoverMiddle c i arg2 harg2 arg3 harg3 arg4 harg4 arg5 harg5 hc1 hc2 x0 x1 xs)]
  unfold runMiddle
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-! ## LAST -/

def soutLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VS.read (Elt F) (VS.writes (Elt F) VS.junk (runLast c i arg2 harg2 arg3 harg3 arg4 harg4 arg5 harg5 hc1 hc2 x0 x1 xs).2.1)

def outLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) : Vec F S256x256 .f32 :=
  VO.read (Elt F) (VO.writes (Elt F) VO.junk (runLast c i arg2 harg2 arg3 harg3 arg4 harg4 arg5 harg5 hc1 hc2 x0 x1 xs).1)

theorem scoverLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).2.1, y ∈ pc.1.set :=
  View.cover_of_tiledL (runLast c i arg2 harg2 arg3 harg3 arg4 harg4 arg5 harg5 hc1 hc2 x0 x1 xs).2.1 S256x256.size (by sl_kernel_rfl) y

theorem coverLast (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) (y : S256x256.Idx) :
    ∃ pc ∈ (runLast c i arg2 harg2 arg3 harg3 arg4 harg4 arg5 harg5 hc1 hc2 x0 x1 xs).1, y ∈ pc.1.set :=
  View.cover_of_tiledL (runLast c i arg2 harg2 arg3 harg3 arg4 harg4 arg5 harg5 hc1 hc2 x0 x1 xs).1 S256x256.size (by sl_kernel_rfl) y

/-- The last step leaves its product added to what the accumulator held, -/
theorem soutLast_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    soutLast c i arg2 harg2 arg3 harg3 arg4 harg4 arg5 harg5 hc1 hc2 x0 x1 xs = k1_pay2 x0 x1 xs := by
  unfold soutLast
  rw [View.read_writes_eq_canon _ _ _ (scoverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero]

/-- and the output block holds the same sum. -/
theorem outLast_eq (c : Dev nD) (i : grid1.Coords) (arg2 : Memref sig .tc .vmem S256x1x1x48x96 .f32) (harg2 : arg2.IsWhole) (arg3 : Memref sig .tc .vmem S4608x256 .f32) (harg3 : arg3.IsWhole) (arg4 : Memref sig .tc .vmem S256x256 .f32) (harg4 : arg4.IsWhole) (arg5 : Memref sig .tc .vmem S256x256 .f32) (harg5 : arg5.IsWhole)
    (hc1 : ¬condFirst i) (hc2 : condLast i) (x0 : Vec F S256x1x1x48x96 .f32) (x1 : Vec F S4608x256 .f32) (xs : Vec F S256x256 .f32) :
    outLast c i arg2 harg2 arg3 harg3 arg4 harg4 arg5 harg5 hc1 hc2 x0 x1 xs = k1_pay2 x0 x1 xs := by
  unfold outLast
  rw [View.read_writes_eq_canon _ _ _ (coverLast c i arg2 harg2 arg3 harg3 arg4 harg4 arg5 harg5 hc1 hc2 x0 x1 xs)]
  unfold runLast
  dsimp only
  sl_unfold_run_names
  rw [View.canon_cons_unit_zero off2_zero]
  simp only [View.readAt_eq_ld, harg2.read_unread, harg3.read_unread, harg5.read_unread, View.ld_unit_zero (S := S256x1x1x48x96) off5_zero,
    View.ld_unit_zero (S := S4608x256) off2_zero, View.ld_unit_zero (S := S256x256) off2_zero, View.readCov_unit_zero (S := S256x256) arg5.view off2_zero]

end Cert.KernelIdeal.Call1

end
-- ==== Proof.KI1.Acc.lean ====
/-
  Call 1 of the visual kernel: the accumulator after the body at point n, as a recursion over the points in grid order. At a
  point that starts a column tile (n divisible by 15) the step's product is added to the zero block; at every other point to what
  the point before left.
-/
import proofs.«172429_j24283745091878_2_alg».proof.Proof.KI1.Base

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after the body at point n. -/
def sAt (c : Dev nD) : (n : ℕ) → n < cfg1.N → Vec F S256x256 .f32
  | 0, h => k1_pay2 (iblk V c 0 ⟨0, h⟩) (iblk V c 1 ⟨0, h⟩) (k1_pay1 (F := F))
  | n + 1, h => k1_pay2 (iblk V c 0 ⟨n + 1, h⟩) (iblk V c 1 ⟨n + 1, h⟩)
      (if (n + 1) % 15 = 0 then k1_pay1 (F := F) else sAt c n (Nat.lt_of_succ_lt h))

/-- At the first reduction step of a column tile: the product added to the zero block. -/
theorem sAt_first (c : Dev nD) (t : Fin cfg1.N) (h : t.val % 15 = 0) :
    sAt V c t.val t.isLt = k1_pay2 (iblk V c 0 t) (iblk V c 1 t) (k1_pay1 (F := F)) := by
  obtain ⟨n, hn⟩ := t
  cases n with
  | zero => rfl
  | succ n => show k1_pay2 _ _ (if (n + 1) % 15 = 0 then _ else _) = _; rw [if_pos h]

/-- At every other step: the product added to what the point before left. -/
theorem sAt_next (c : Dev nD) (t : Fin cfg1.N) (h : ¬t.val % 15 = 0) :
    sAt V c t.val t.isLt = k1_pay2 (iblk V c 0 t) (iblk V c 1 t) (sAt V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 15 = 0 then _ else _) = _; rw [if_neg h]; rfl

end

end Cert.KernelIdeal.Call1

end
-- ==== Proof.KI1.Dat.lean ====
/-
  Call 1 of the visual kernel: the proof data of its pipeline and the body obligation.

  Between two points the region holds the accumulator at what the point before left (at anything before the first point), the
  other call's scoped buffers at anything and the generator register at some state. After the body at point t the two input
  windows' buffers hold their blocks and the output window's buffer holds the accumulator's sum; the pipeline consults the
  latter only at the last reduction step of a column tile, where the body has just stored it and the block is written back —
  at the other points the output window is idle and is handed back as found. The body obligation is proved by cases on the
  reduction step: first, middle, last.
-/
import proofs.«172429_j24283745091878_2_alg».proof.Proof.KI1.Pieces
import proofs.«172429_j24283745091878_2_alg».proof.Proof.KI1.Acc

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The invariant -/

/-- The region's invariant before position n: the library's before the first point; afterwards the accumulator at what point
    n − 1 left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM fullShare (sAt V c n hn) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg1.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => sAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = sAt V c t.val t.isLt := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 30 := lt_of_lt_of_eq t.isLt (show cfg1.N = 30 from N_1)
  by_cases h0 : t.val % 15 = 0
  · -- FIRST
    have hl : ¬condLast (grid1.coords t) := fun h => by have := (hcondLast t).mp h; omega
    have hf : condFirst (grid1.coords t) := (hcondFirst t).mpr h0
    rw [Dat.leavesExact_idle (dat V c) 2 t (idleAt_2 t hl) (noFlush_2 t hl)]
    rw [sAt_first V c t h0, ← soutFirst_eq c (grid1.coords t) (ms_0 t) (hs_0 t) (ms_1 t) (hs_1 t) (ms_2 t) (hs_2 t) scM (Memref.isWhole_whole _) hf hl (iblk V c 0 t) (iblk V c 1 t)]
    unfold soutFirst; (try dsimp only)
    have hpre : (dat V c).Φ t.castSucc ⊢ (iprop(iprop((∃ d, owns (c : Thread nD τ) scM fullShare d) ∗ others c) ∗ (∃ r, prngReg c r)) : sProp 𝕄) := by
      by_cases hz : t.val = 0
      · rw [PhiS_castSucc V c t, PhiS_zero V c _ _ hz, PhiA_eq]
      · rw [PhiS_castSucc V c t, PhiS_pos V c _ _ hz]
        iintro ⟨⟨HS, Hoth⟩, Hg⟩
        isplitl [HS Hoth]
        · isplitl [HS]; · iexists _; iexact HS
          iexact Hoth
        iexact Hg
    iintro ⟨HΦ, Ho, ⟨%d0, H0⟩, ⟨%d1, H1⟩, ⟨%d2, H2⟩⟩
    ihave HΦ' := hpre $$ HΦ
    icases HΦ' with ⟨⟨HS, Hoth⟩, Hg⟩
    iapply ((runFirst c (grid1.coords t) _ _ _ _ _ _ _ _ hf hl (iblk V c 0 t) (iblk V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hoth Hg]
    · isplitl [HS Hoth]
      · isplitl [HS]
        · unfold owns; iexists _; isplitr
          swap; · iexact HS
          ipureintro; exact View.read_writes_of_cover _ _ _ _ _ (scoverFirst c _ _ _ _ _ _ _ _ _ _ _ _ _)
        iexact Hoth
      iexact Hg
    isplitl [Ho]; · iexact Ho
    isplitl [H0]; · iexact H0
    isplitl [H1]; · iexact H1
    iexists _; iexact H2
  · have hnf : ¬condFirst (grid1.coords t) := fun h => h0 ((hcondFirst t).mp h)
    have hz : t.val ≠ 0 := fun h => h0 (by rw [h])
    rw [PhiS_castSucc V c t, PhiS_pos V c _ _ hz]
    by_cases h14 : t.val % 15 = 14
    · -- LAST
      have hl : condLast (grid1.coords t) := (hcondLast t).mpr h14
      rw [show (dat V c).leavesExact 2 t = owns (c : Thread nD τ) (ms_2 t) fullShare ((dat V c).after 2 t) from by
        unfold Dat.leavesExact; rw [liveAt_2 t hl], after_2]
      rw [sAt_next V c t h0]
      rw [← soutLast_eq c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      rw [show owns (c : Thread nD τ) (ms_2 t) fullShare (soutLast c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt)))
          = owns (c : Thread nD τ) (ms_2 t) fullShare (outLast c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))) from by
        rw [soutLast_eq, outLast_eq]]
      unfold soutLast outLast; (try dsimp only)
      iintro ⟨⟨⟨HS, Hoth⟩, Hg⟩, Ho, ⟨%d0, H0⟩, ⟨%d1, H1⟩, ⟨%d2, H2⟩⟩
      iapply ((runLast c (grid1.coords t) _ _ _ _ _ _ _ _ hnf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverLast c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · -- MIDDLE
      have hl : ¬condLast (grid1.coords t) := fun h => h14 ((hcondLast t).mp h)
      rw [Dat.leavesExact_idle (dat V c) 2 t (idleAt_2 t hl) (noFlush_2 t hl)]
      rw [sAt_next V c t h0]
      rw [← soutMiddle_eq c (grid1.coords t) (ms_0 t) (hs_0 t) (ms_1 t) (hs_1 t) (ms_2 t) (hs_2 t) scM (Memref.isWhole_whole _) hnf hl (iblk V c 0 t) (iblk V c 1 t) (sAt V c (t.val - 1) (Nat.lt_of_le_of_lt (Nat.sub_le _ _) t.isLt))]
      unfold soutMiddle; (try dsimp only)
      iintro ⟨⟨⟨HS, Hoth⟩, Hg⟩, Ho, ⟨%d0, H0⟩, ⟨%d1, H1⟩, ⟨%d2, H2⟩⟩
      iapply ((runMiddle c (grid1.coords t) _ _ _ _ _ _ _ _ hnf hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scoverMiddle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the library's back: the accumulator's contents are forgotten. -/
theorem hout (c : Dev nD) : (dat V c).Φ (Fin.last cfg1.N) ⊢ Pipeline.ΦA spec1 c := by
  have ht : (Fin.last cfg1.N).val ≠ 0 := by rw [Fin.val_last]; have : cfg1.N = 30 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS, Hoth⟩, Hg⟩
  isplitl [HS Hoth]
  · isplitl [HS]; · iexists _; iexact HS
    iexact Hoth
  iexact Hg

end

end Cert.KernelIdeal.Call1

end
-- ==== Proof.KIWhole.lean ====
/-
  The whole program's run: from any launch memory every weakly fair execution of @main terminates, and at the end every unscoped
  buffer holds what the fold below computes for it.

  @main is eight consecutive segments: the host operations of the audio embedding, the two visual pallas_calls, and five stretches
  of host operations (the concatenation of the two calls' results, the two row normalisations, the loss). The buffer contents at
  the nine boundaries are a fold from the launch memory: a host stretch applies its operations; a call leaves each of its arrays at
  what its pipeline's write-backs leave (its two input arrays as it found them, its output array at the blocks written back) and
  every other buffer untouched. Each call enters the pipeline library's launch theorem as a segment with its own proof data, taken
  at the contents the call is entered from.
-/
import proofs.«172429_j24283745091878_2_alg».proof.Proof.KI0.Dat
import proofs.«172429_j24283745091878_2_alg».proof.Proof.KI1.Dat
import proofs.«172429_j24283745091878_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the audio embedding's host operations (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what its pipeline leaves, every other buffer as entered. -/
def W2 (c : Dev nD) : Valuation τ sig (Elt F) :=
  Pipeline.withArrays spec0 c (W1 m c) fun w => (Call0.dat (V1 m) c).arrAt w cfg0.N
theorem W2_arr (c : Dev nD) (w : Fin cfg0.W) :
    W2 m c (Proc.devRef .tc (Pipeline.arrRef spec0 w)) = (Call0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Call0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call (entered from the first call's exit contents). -/
def W3 (c : Dev nD) : Valuation τ sig (Elt F) :=
  Pipeline.withArrays spec1 c (W2 m c) fun w => (Call1.dat (V2 m) c).arrAt w cfg1.N
theorem W3_arr (c : Dev nD) (w : Fin cfg1.W) :
    W3 m c (Proc.devRef .tc (Pipeline.arrRef spec1 w)) = (Call1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Call1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After each of the five host stretches that follow. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)
abbrev W8 : Dev nD → Valuation τ sig (Elt F) := fun c => StableHlo.after hostOps2_4 (W7 m c)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => Call0.dat (V1 m) c
  | ⟨1, _⟩ => fun c => Call1.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the generator register. -/
abbrev Tₙ (c : Dev nD) : sProp 𝕄 := iprop(StableHlo.held (c : Thread nD τ) (Pipeline.ucRefs τ sig) (W8 m c) ∗ ∃ r, prngReg c r)

/-! ## The two calls as segments -/

-- a library lemma stated over the pinned configuration unifies with the printed one only when unification may unfold plain
-- definitions in a metavariable's type
set_option backward.isDefEq.respectTransparency.types false in
/-- Call 0 as a segment: entered from every unscoped buffer at the contents before it, left at the contents after it. Its
    arrays are split out of the unscoped buffers and put back at what the pipeline leaves; the generator register goes into
    the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Call0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Call0.hin (V1 m) c)
    unfold Pipeline.ΦA
    iintro ⟨Hp, -, Hr⟩
    isplitl [Hr]; · iexact Hr
    iexact Hp
  hout c := by
    refine BIBase.Entails.trans (Call0.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 1 as a segment: entered from every unscoped buffer at the contents before it, left at the contents after it. Its
    arrays are split out of the unscoped buffers and put back at what the pipeline leaves; the generator register goes into
    the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Call1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Call1.hin (V2 m) c)
    unfold Pipeline.ΦA
    iintro ⟨Hp, -, Hr⟩
    isplitl [Hr]; · iexact Hr
    iexact Hp
  hout c := by
    refine BIBase.Entails.trans (Call1.hout (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)),
    .host (hseg hostOps2_4 hostOps2_4_sub hostOps2_4_fresh (W7 m)) ]

theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN: from any memory with zero counters every weakly fair execution of @main on the TensorCores terminates, nothing
    faulting, and in every final state every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Whole

end
-- ==== Proof.KIArgs.lean ====
/-
  The argument arrays at the last boundary: no host operation writes an argument, and a call either does not stage it or stages it
  as an input window, whose array the pipeline leaves as it found it. So the fold at an argument's buffer walks back to the launch
  memory.
-/
import proofs.«172429_j24283745091878_2_alg».proof.Proof.KIWhole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer none of the operations after the two calls writes is as it was. -/
theorem keeps_after (W : Valuation τ sig (Elt F)) (r : Ref sig .tc)
    (h : r ∉ hostOps2_W ∧ r ∉ hostOps2_1_W ∧ r ∉ hostOps2_2_W ∧ r ∉ hostOps2_3_W ∧ r ∉ hostOps2_4_W) :
    StableHlo.after hostOps2_4 (StableHlo.after hostOps2_3 (StableHlo.after hostOps2_2 (StableHlo.after hostOps2_1 (StableHlo.after hostOps2 W)))) (Proc.devRef .tc r)
      = W (Proc.devRef .tc r) :=
  (StableHlo.after_of_writes_sub hostOps2_4 _ hostOps2_4_writes h.2.2.2.2).trans <|
  (StableHlo.after_of_writes_sub hostOps2_3 _ hostOps2_3_writes h.2.2.2.1).trans <|
  (StableHlo.after_of_writes_sub hostOps2_2 _ hostOps2_2_writes h.2.2.1).trans <|
  (StableHlo.after_of_writes_sub hostOps2_1 _ hostOps2_1_writes h.2.1).trans <|
  StableHlo.after_of_writes_sub hostOps2 _ hostOps2_writes h.1

/-- A buffer none of the three operations before the calls writes is as it was. -/
theorem keeps_before (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

/-- The argument array 0 ends as launched. -/
theorem W8_arg0 (c : Dev nD) : W8 m c (Proc.devRef .tc main_arg0) = m ((c : Thread nD τ).loc main_arg0) :=
  (keeps_after (W3 m c) main_arg0 (by decide)).trans <| (W3_of_ne m c main_arg0 (by decide)).trans <| (W2_of_ne m c main_arg0 (by decide)).trans <| (keeps_before (W0 m c) main_arg0 (by decide)).trans rfl
/-- The argument array 1 ends as launched. -/
theorem W8_arg1 (c : Dev nD) : W8 m c (Proc.devRef .tc main_arg1) = m ((c : Thread nD τ).loc main_arg1) :=
  (keeps_after (W3 m c) main_arg1 (by decide)).trans <| (W3_of_ne m c main_arg1 (by decide)).trans <| ((W2_arr m c 0).trans (((Call0.dat (V1 m) c).arrAt_in 0 rfl _).trans (Call0.A_eq (V1 m) c 0))).trans <| (keeps_before (W0 m c) main_arg1 (by decide)).trans rfl
/-- The argument array 2 ends as launched. -/
theorem W8_arg2 (c : Dev nD) : W8 m c (Proc.devRef .tc main_arg2) = m ((c : Thread nD τ).loc main_arg2) :=
  (keeps_after (W3 m c) main_arg2 (by decide)).trans <| (W3_of_ne m c main_arg2 (by decide)).trans <| (W2_of_ne m c main_arg2 (by decide)).trans <| (keeps_before (W0 m c) main_arg2 (by decide)).trans rfl
/-- The argument array 3 ends as launched. -/
theorem W8_arg3 (c : Dev nD) : W8 m c (Proc.devRef .tc main_arg3) = m ((c : Thread nD τ).loc main_arg3) :=
  (keeps_after (W3 m c) main_arg3 (by decide)).trans <| ((W3_arr m c 0).trans (((Call1.dat (V2 m) c).arrAt_in 0 rfl _).trans (Call1.A_eq (V2 m) c 0))).trans <| (W2_of_ne m c main_arg3 (by decide)).trans <| (keeps_before (W0 m c) main_arg3 (by decide)).trans rfl
/-- The argument array 4 ends as launched. -/
theorem W8_arg4 (c : Dev nD) : W8 m c (Proc.devRef .tc main_arg4) = m ((c : Thread nD τ).loc main_arg4) :=
  (keeps_after (W3 m c) main_arg4 (by decide)).trans <| (W3_of_ne m c main_arg4 (by decide)).trans <| (W2_of_ne m c main_arg4 (by decide)).trans <| (keeps_before (W0 m c) main_arg4 (by decide)).trans rfl
/-- The argument array 5 ends as launched. -/
theorem W8_arg5 (c : Dev nD) : W8 m c (Proc.devRef .tc main_arg5) = m ((c : Thread nD τ).loc main_arg5) :=
  (keeps_after (W3 m c) main_arg5 (by decide)).trans <| ((W3_arr m c 1).trans (((Call1.dat (V2 m) c).arrAt_in 1 rfl _).trans (Call1.A_eq (V2 m) c 1))).trans <| ((W2_arr m c 1).trans (((Call0.dat (V1 m) c).arrAt_in 1 rfl _).trans (Call0.A_eq (V1 m) c 1))).trans <| (keeps_before (W0 m c) main_arg5 (by decide)).trans rfl

end Cert.KernelIdeal.Whole

end
-- ==== Proof.KerTail.lean ====
/-
  The kernel program's host code around its two accumulating matrix products, as two functions: the audio embedding (the two
  audio batches stacked along the sample axis, each sample flattened to 1280 features, times the 1280 × 512 weights), which
  the program computes before the products, and the tail it applies afterwards to the audio embedding and to the stacked
  visual embedding — each embedding's rows divided by their Euclidean norm (bounded below by a small constant), the upper
  and lower halves of the rows taken apart, six row-wise inner products and two matrix products under the exponential, the
  quotient of the two sums, its logarithm, the mean over the 256 rows, and the sign change.
-/
import proofs.«172429_j24283745091878_2_alg».proof.Proof.Gen.KernelIdeal

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]

/-- The audio embedding: the two audio batches stacked along the sample axis, each sample flattened to 1280 features,
    times the 1280 × 512 weights. -/
def aemb (x0 x2 : FVec F S256x1x80x16 .f32) (x4 : FVec F S1280x512 .f32) : FVec F S512x512 .f32 :=
  Host.dotGeneral dot_S512x1280_S1280x512_S512x512_1_0_0_1_n_n none (shapeCast _ (concatenate S512x1x80x16 0 [⟨S256x1x80x16, x0⟩, ⟨S256x1x80x16, x2⟩] concatenates_S256x1x80x16_S256x1x80x16_S512x1x80x16_d0) shapeCasts_S512x1x80x16_S512x1280) x4

set_option maxRecDepth 8192 in
/-- Everything after the two embeddings, as one function of them. -/
def tail (A B : FVec F S512x512 .f32) : FVec F S_ .f32 :=
  Host.negf (Host.divf (Host.reduceAdd (Host.log (Host.divf (addf (addf (addf (addf (addf (Host.exp (Host.reduceAdd (mulf (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![0, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_0_0)) (constant S_ .f32 0x00000000#32) reducesTo_S256x512_S256_d1 h_S_)) (Host.exp (Host.reduceAdd (mulf (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![256, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.exp (Host.reduceAdd (mulf (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0) (extractStridedSlice S256x512 ![0, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_0_0)) (constant S_ .f32 0x00000000#32) reducesTo_S256x512_S256_d1 h_S_))) (Host.exp (Host.reduceAdd (mulf (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0) (extractStridedSlice S256x512 ![256, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.exp (Host.reduceAdd (mulf (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.exp (Host.reduceAdd (mulf (extractStridedSlice S256x512 ![0, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![256, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.reduceAdd (addf (Host.exp (Host.dotGeneral dot_S256x512_S512x512_S256x512_1_0_0_1_n_n none (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (transpose S512x512 [1, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) transposes_S512x512_S512x512_1_0))) (Host.exp (Host.dotGeneral dot_S256x512_S512x512_S256x512_1_0_0_1_n_n none (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0) (transpose S512x512 [1, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) transposes_S512x512_S512x512_1_0)))) (constant S_ .f32 0x00000000#32) reducesTo_S256x512_S256_d1 h_S_))) (constant S_ .f32 0x00000000#32) reducesTo_S256_S_d0 h_S_) (constant S_ .f32 0x43800000#32))

end Cert.KernelIdeal.Bridge

end
-- ==== Proof.KerHost.lean ====
/-
  The kernel program's host operations read back over an arbitrary valuation of the buffers: the three operations before
  the two accumulating matrix products leave the audio embedding of the three audio arguments; the operations after them
  leave, in the result buffer, the tail of the audio embedding and of the two visual halves stacked along the sample axis;
  and neither stretch changes a buffer it does not write.
-/
import proofs.«172429_j24283745091878_2_alg».proof.Proof.KerTail
import proofs.«172429_j24283745091878_2_alg».proof.Proof.Gen.KernelIdeal.Regions

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]

/-- The three operations before the products leave the audio embedding in their last buffer. -/
theorem aemb_read (W : Valuation τ sig (Elt F)) :
    StableHlo.after hostOps0 W (Proc.devRef .tc main_v2)
      = aemb (W (Proc.devRef .tc main_arg0)) (W (Proc.devRef .tc main_arg2)) (W (Proc.devRef .tc main_arg4)) := by
  dsimp only [hostOps0]
  after_results
  rfl

set_option maxRecDepth 8192 in
set_option maxHeartbeats 16000000 in
/-- The operations after the products leave the tail in the result buffer. -/
theorem tail_read (W : Valuation τ sig (Elt F)) :
    StableHlo.after hostOps2_4 (StableHlo.after hostOps2_3 (StableHlo.after hostOps2_2 (StableHlo.after hostOps2_1 (StableHlo.after hostOps2 W)))) (Proc.devRef .tc main_v55)
      = tail (W (Proc.devRef .tc main_v2))
          (concatenate S512x512 0 [⟨S256x512, W (Proc.devRef .tc main_v3)⟩, ⟨S256x512, W (Proc.devRef .tc main_v4)⟩]
            concatenates_S256x512_S256x512_S512x512_d0) := by
  dsimp only [hostOps2_4, hostOps2_3, hostOps2_2, hostOps2_1, hostOps2]
  after_results_simp
  unfold tail
  rfl

/-- A buffer none of the operations after the products writes is as it was. -/
theorem tail_keeps (W : Valuation τ sig (Elt F)) (r : Ref sig .tc)
    (h : r ∉ hostOps2_W ∧ r ∉ hostOps2_1_W ∧ r ∉ hostOps2_2_W ∧ r ∉ hostOps2_3_W ∧ r ∉ hostOps2_4_W) :
    StableHlo.after hostOps2_4 (StableHlo.after hostOps2_3 (StableHlo.after hostOps2_2 (StableHlo.after hostOps2_1 (StableHlo.after hostOps2 W)))) (Proc.devRef .tc r)
      = W (Proc.devRef .tc r) :=
  (StableHlo.after_of_writes_sub hostOps2_4 _ hostOps2_4_writes h.2.2.2.2).trans <|
  (StableHlo.after_of_writes_sub hostOps2_3 _ hostOps2_3_writes h.2.2.2.1).trans <|
  (StableHlo.after_of_writes_sub hostOps2_2 _ hostOps2_2_writes h.2.2.1).trans <|
  (StableHlo.after_of_writes_sub hostOps2_1 _ hostOps2_1_writes h.2.1).trans <|
  StableHlo.after_of_writes_sub hostOps2 _ hostOps2_writes h.1

/-- A buffer none of the three operations before the products writes is as it was. -/
theorem head_keeps (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

end Cert.KernelIdeal.Bridge

end
-- ==== Proof.Spec.lean ====
/-
  The visual embedding, as one function of a visual tensor and the weight matrix.

  A visual tensor X has shape [256, 3, 5, 96, 96] (sample, colour c, frame t, row, column) and the weights W have shape
  [69120, 512]. Only the lower 48 rows of each plane enter. The planes are taken frame-major and colour-minor: plane number
  k = 3·t + c, so c = k mod 3 and t = k div 3. Inside a plane the 48 × 96 entries are flattened row-major to
  j = 96·row + column, and the flattened feature 4608·k + j meets row 4608·k + j of W. The embedding at sample a and output
  column q is the sum over the 15 planes of the sum over the 4608 entries of the plane.
-/
import Idealize.ShloMosaic.PureOps.Ideal
import Idealize.ShloMosaic.Lib.ValueIdx

noncomputable section

open scoped BigOperators

namespace Cert.Spec

open Idealize.ShloMosaic Idealize.ShloMosaic.ValueIdx

/-- Entry j of the lower half of plane k of sample a: colour k mod 3, frame k div 3, row 48 + j div 96, column j mod 96. -/
def xblk (X : FVec Ideal ⟨5, ![256, 3, 5, 96, 96]⟩ .f32) (k : Fin 15) (a : Fin 256) (j : Fin 4608) : EReal :=
  X (ix5 a (⟨k.val % 3, Nat.mod_lt _ (by decide)⟩ : Fin 3) (⟨k.val / 3, by have := k.isLt; omega⟩ : Fin 5)
    (⟨48 + j.val / 96, by have := j.isLt; omega⟩ : Fin 96) (⟨j.val % 96, Nat.mod_lt _ (by decide)⟩ : Fin 96))

/-- Row 4608·k + j, column q of the weights. -/
def wblk (W : FVec Ideal ⟨2, ![69120, 512]⟩ .f32) (k : Fin 15) (j : Fin 4608) (q : Fin 512) : EReal :=
  W (ix2 (⟨k.val * 4608 + j.val, by have := k.isLt; have := j.isLt; omega⟩ : Fin 69120) q)

/-- The embedding of sample a at output column q. -/
def embAt (X : FVec Ideal ⟨5, ![256, 3, 5, 96, 96]⟩ .f32) (W : FVec Ideal ⟨2, ![69120, 512]⟩ .f32) (a : Fin 256) (q : Fin 512) : EReal :=
  ∑ k : Fin 15, ∑ j : Fin 4608, xblk X k a j * wblk W k j q

/-- The embedding as an array of shape [256, 512]. -/
def emb (X : FVec Ideal ⟨5, ![256, 3, 5, 96, 96]⟩ .f32) (W : FVec Ideal ⟨2, ![69120, 512]⟩ .f32) : FVec Ideal ⟨2, ![256, 512]⟩ .f32 :=
  fun i => embAt X W (i 0) (i 1)

theorem emb_apply (X : FVec Ideal ⟨5, ![256, 3, 5, 96, 96]⟩ .f32) (W : FVec Ideal ⟨2, ![69120, 512]⟩ .f32) (a : Fin 256) (q : Fin 512) :
    emb X W (ix2 a q) = embAt X W a q := rfl

/-- Two embeddings stacked along the sample axis: rows 0..255 from X₁, rows 256..511 from X₂. -/
def emb2 (X₁ X₂ : FVec Ideal ⟨5, ![256, 3, 5, 96, 96]⟩ .f32) (W : FVec Ideal ⟨2, ![69120, 512]⟩ .f32) : FVec Ideal ⟨2, ![512, 512]⟩ .f32 :=
  fun i => if h : (i 0).val < 256 then embAt X₁ W ⟨(i 0).val, h⟩ (i 1)
    else embAt X₂ W ⟨(i 0).val - 256, by have := idx2_lt0 i; omega⟩ (i 1)

end Cert.Spec

end
-- ==== Proof.ConcatValue.lean ====
/-
  The host's concatenation of the two calls' results along the sample axis, read at an index: rows below 256 come from
  the first piece, the others from the second, 256 rows up. Applied to two embeddings it is the stacked embedding.
-/
import proofs.«172429_j24283745091878_2_alg».proof.Proof.Gen.KernelIdeal
import proofs.«172429_j24283745091878_2_alg».proof.Proof.Spec
import Idealize.ShloMosaic.Lib.Pipeline.Value
import Idealize.ShloMosaic.Lib.ValueIdx

noncomputable section

namespace Cert.KernelIdeal.AccValue

open Idealize.ShloMosaic Idealize.ShloMosaic.ValueIdx Cert.KernelIdeal Cert.KernelIdeal.Gen

/-- A two-piece concatenation of [256, 512] arrays along axis 0, at an index. -/
theorem concat_apply {F : FTy → Type} [FloatOps F] (P Q : FVec F Cert.KernelIdeal.S256x512 .f32) (i : S512x512.Idx) :
    concatenate S512x512 0 [⟨S256x512, P⟩, ⟨S256x512, Q⟩] concatenates_S256x512_S256x512_S512x512_d0 i
      = if h : (i 0).val < 256 then P (ix2 ⟨(i 0).val, h⟩ (i 1))
        else Q (ix2 ⟨(i 0).val - 256, by have := idx2_lt0 i; omega⟩ (i 1)) := by
  by_cases h : (i 0).val < 256
  · rw [dif_pos h]
    exact concatenate_pair_apply_left 0 P Q concatenates_S256x512_S256x512_S512x512_d0 i rfl
      (ix2 ⟨(i 0).val, h⟩ (i 1)) (fun b => match b with
        | ⟨0, _⟩ => rfl
        | ⟨1, _⟩ => rfl)
  · rw [dif_neg h]
    exact concatenate_pair_apply_right 0 P Q concatenates_S256x512_S256x512_S512x512_d0 i rfl rfl
      (ix2 ⟨(i 0).val - 256, by have := idx2_lt0 i; omega⟩ (i 1)) (fun b hb => match b, hb with
        | ⟨0, _⟩, hb => absurd rfl hb
        | ⟨1, _⟩, _ => rfl)
      (by show (i 0).val - 256 + 256 = (i 0).val; omega)

/-- The concatenation of two embeddings is the stacked embedding. -/
theorem concat_emb (X₁ X₂ : FVec Ideal ⟨5, ![256, 3, 5, 96, 96]⟩ .f32) (W : FVec Ideal ⟨2, ![69120, 512]⟩ .f32) :
    concatenate S512x512 0 [⟨S256x512, Cert.Spec.emb X₁ W⟩, ⟨S256x512, Cert.Spec.emb X₂ W⟩]
      concatenates_S256x512_S256x512_S512x512_d0 = Cert.Spec.emb2 X₁ X₂ W := by
  funext i
  rw [concat_apply (F := Ideal)]
  unfold Cert.Spec.emb2
  by_cases h : (i 0).val < 256
  · rw [dif_pos h, dif_pos h]
    exact Cert.Spec.emb_apply X₁ W _ _
  · rw [dif_neg h, dif_neg h]
    exact Cert.Spec.emb_apply X₂ W _ _

end Cert.KernelIdeal.AccValue

end
-- ==== Proof.KI0.Final.lean ====
/-
  Call 0 of the visual kernel: the output array after the run, and the two inputs kept.

  The output array [256, 512] is written back in two column tiles of 256 columns: tile n at the last reduction step of that
  tile, grid point 15·n + 14, where the output block holds the accumulator the body has just left. Column q' of the array
  therefore comes from tile q' / 256, local column q' mod 256, of the accumulator after point 15·(q' / 256) + 14. Every index
  of the array lies in exactly such a block, so the array ends holding this function everywhere. The two input windows are
  never written back: their arrays stay what the call found.
-/
import proofs.«172429_j24283745091878_2_alg».proof.Proof.KI0.Dat
import Idealize.ShloMosaic.Lib.Pipeline.Value
import Idealize.ShloMosaic.Lib.ValueIdx

set_option maxRecDepth 16384

noncomputable section

namespace Cert.KernelIdeal.Call0

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-- The output window's block indices at point t: row block 0, column tile t / 15. -/
theorem idx_facts_o : ∀ t : Fin cfg0.N, win0_2.index t (0 : Fin 2) = 0
    ∧ win0_2.index t (1 : Fin 2) = t.val / 15 :=
  (by decide +kernel : ∀ t : Fin grid0.N, _)

/-- An index of the array is in point t's output block iff each coordinate is in the block's range on its axis. -/
theorem mem_blk (t : Fin cfg0.N) (i : S256x512.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v3).slice (win0_2.rect t)).set ↔ _
  rw [View.set_slice_whole, Rect.mem_set_unit]
  exact Iff.rfl

section
-- the TensorCore's buffer contents when the call is entered
variable (V : (c : Dev nD) → (b : Ref sig .tc) → Buf (Elt F) ((c : Thread nD τ).loc b))

/-- The accumulator after a point depends on the point's number only. -/
theorem sAt_congr (c : Dev nD) {n n' : ℕ} (h : n < cfg0.N) (h' : n' < cfg0.N) (e : n = n') :
    sAt V c n h = sAt V c n' h' := by
  subst e; rfl

/-- The output array after the run: column q' comes from column tile q' / 256, local column q' mod 256, of the accumulator
    after that tile's last reduction step, point 15·(q' / 256) + 14. -/
def outArr (c : Dev nD) : Vec F S256x512 .f32 := fun i =>
  sAt V c (15 * ((i 1).val / 256) + 14) (by have h := idx2_lt1 i; have hN : cfg0.N = 30 := N_0; omega)
    (ix2 (⟨(i 0).val, idx2_lt0 i⟩ : Fin 256) (⟨(i 1).val % 256, Nat.mod_lt _ (by decide)⟩ : Fin 256))

/-- At a last reduction step t, the array index whose row is y's and whose column is 256·(t / 15) plus y's reads the
    accumulator after t at y. -/
theorem outArr_at (c : Dev nD) (t : Fin cfg0.N) (h14 : t.val % 15 = 14) (y : S256x256.Idx) (i : S256x512.Idx)
    (h0 : (i 0).val = (y 0).val) (h1 : (i 1).val = (t.val / 15) * 256 + (y 1).val) :
    outArr V c i = sAt V c t.val t.isLt y := by
  unfold outArr
  have hy : (y 1).val < 256 := idx2_lt1 y
  have e : 15 * ((i 1).val / 256) + 14 = t.val := by rw [h1]; omega
  refine (congrFun (sAt_congr V c _ t.isLt e) _).trans ?_
  exact congrArg _ (funext fun a => Fin.ext (by
    match a with
    | ⟨0, _⟩ => exact h0
    | ⟨1, _⟩ => show (i 1).val % 256 = (y 1).val; rw [h1]; omega))

/-- What a write-back point writes back is its block of the closed form. -/
theorem flushed_eq (c : Dev nD) (t : Fin cfg0.N) (hf : (cfg0.win 2).flush t = true) :
    (dat V c).flushed 2 t = ((cfg0.win 2).blk t).view.read (Elt F) (outArr V c) := by
  have h14 : t.val % 15 = 14 := (flush0_2 t).mp hf
  obtain ⟨e0, e1⟩ := idx_facts_o t
  show (cfg0.win 2).cut (grid0.coords t) ((dat V c).after 2 t) = _
  rw [after_2]
  funext y
  rw [View.read_apply]
  show sAt V c t.val t.isLt y = outArr V c (((cfg0.win 2).blk t).view.emb y)
  refine (outArr_at V c t h14 y _ ?_ ?_).symm
  · show win0_2.index t (0 : Fin 2) * 256 + 1 * (y 0).val = (y 0).val; omega
  · show win0_2.index t (1 : Fin 2) * 256 + 1 * (y 1).val = (t.val / 15) * 256 + (y 1).val; omega

/-- Every index of the array is in the block of the last reduction step of its column tile. -/
theorem cover (i : S256x512.Idx) :
    ∃ t : Fin cfg0.N, (cfg0.win 2).flush t = true ∧ i ∈ ((cfg0.win 2).blk t).view.set := by
  have hi0 : (i 0).val < 256 := idx2_lt0 i
  have hi1 : (i 1).val < 512 := idx2_lt1 i
  have hN : cfg0.N = 30 := N_0
  obtain ⟨t, ht⟩ : ∃ t : Fin cfg0.N, t.val = 15 * ((i 1).val / 256) + 14 := ⟨⟨15 * ((i 1).val / 256) + 14, by omega⟩, rfl⟩
  obtain ⟨e0, e1⟩ := idx_facts_o t
  refine ⟨t, (flush0_2 t).mpr (by omega), ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- The output array after the run is the closed form. -/
theorem final2 (c : Dev nD) : (dat V c).arrAt 2 cfg0.N = outArr V c :=
  (dat V c).arrAt_eq_of_cover 2 (outArr V c) (flushed_eq V c) cover

/-- The two input arrays are never written back: they stay what the call found. -/
theorem kept_in (c : Dev nD) (w : Fin cfg0.W) (hw : w = 0 ∨ w = 1) (n : ℕ) :
    (dat V c).arrAt w n = V c (Pipeline.arrRef spec0 w) := by
  rcases hw with rfl | rfl
  · exact ((dat V c).arrAt_in 0 rfl n).trans (A_eq V c 0)
  · exact ((dat V c).arrAt_in 1 rfl n).trans (A_eq V c 1)

end

end Cert.KernelIdeal.Call0

end
-- ==== Proof.KAcc.lean ====
/-
  The accumulator of the visual kernel after its first k + 1 reduction steps, as a recursion over the kernel body's two stored
  values: the first step starts from the zero block, each later step adds one plane's product to what the step before left.
  One recursion per pallas_call (the two calls run the same body).
-/
import proofs.«172429_j24283745091878_2_alg».proof.Proof.Gen.KernelIdeal.Skeleton

noncomputable section

namespace Cert.KernelIdeal.Acc

open Idealize.ShloMosaic Cert.KernelIdeal Cert.KernelIdeal.Gen

variable {F : FTy → Type} [FloatOps F]

/-- First call: the accumulator after steps 0..k, from the x blocks xb and the weight blocks wb of those steps. -/
def accRec0 (xb : ℕ → Vec F S256x1x1x48x96 .f32) (wb : ℕ → Vec F S4608x256 .f32) : ℕ → FVec F S256x256 .f32
  | 0 => k0_pay2 (xb 0) (wb 0) (k0_pay1 (F := F))
  | k + 1 => k0_pay2 (xb (k + 1)) (wb (k + 1)) (accRec0 xb wb k)

/-- Second call: the same recursion over its own stored values. -/
def accRec1 (xb : ℕ → Vec F S256x1x1x48x96 .f32) (wb : ℕ → Vec F S4608x256 .f32) : ℕ → FVec F S256x256 .f32
  | 0 => k1_pay2 (xb 0) (wb 0) (k1_pay1 (F := F))
  | k + 1 => k1_pay2 (xb (k + 1)) (wb (k + 1)) (accRec1 xb wb k)

end Cert.KernelIdeal.Acc

end
-- ==== Proof.PayValue.lean ====
/-
  The two values the kernel body stores, read at an index, at the ideal instance.

  The first is the zero block. The second is the block it reads back plus a product: the x block of shape [256, 1, 1, 48, 96]
  is flattened row-major to [256, 4608] (entry j of a row is row j div 96, column j mod 96 of the plane), and multiplied
  with the weight block of shape [4608, 256]; the format changes in front of the product are the identity on extended reals.
-/
import proofs.«172429_j24283745091878_2_alg».proof.Proof.KAcc
import Idealize.ShloMosaic.Lib.Pipeline.Value
import Idealize.ShloMosaic.Lib.ValueIdx
import Idealize.ShloMosaic.PureOps.Ideal.Laws

noncomputable section

open scoped BigOperators

namespace Cert.KernelIdeal.AccValue

open Idealize.ShloMosaic Idealize.ShloMosaic.ValueIdx Cert.KernelIdeal Cert.KernelIdeal.Gen Cert.KernelIdeal.Acc

/-- The zero block is zero everywhere. -/
theorem pay1_apply (a q : Fin 256) : k0_pay1 (F := Ideal) (ix2 a q) = 0 := by
  unfold k0_pay1
  rw [shapeCast_self]
  exact Ideal.ofBits_zero_f32

/-- The x block flattened to [256, 4608], at row a and flat position j. -/
theorem flat_apply (v3 : Vec Ideal S256x1x1x48x96 .f32) (a : Fin 256) (j : Fin 4608) :
    shapeCast S256x4608 (shapeCast S256x48x96 v3 shapeCasts_S256x1x1x48x96_S256x48x96) shapeCasts_S256x48x96_S256x4608 (ix2 a j)
      = v3 (ix5 a (0 : Fin 1) (0 : Fin 1) (⟨j.val / 96, by have := j.isLt; omega⟩ : Fin 48)
          (⟨j.val % 96, Nat.mod_lt _ (by decide)⟩ : Fin 96)) := by
  refine (shapeCast_apply _ shapeCasts_S256x48x96_S256x4608 (ix2 a j)
    (ix3 a (⟨j.val / 96, by have := j.isLt; omega⟩ : Fin 48) (⟨j.val % 96, Nat.mod_lt _ (by decide)⟩ : Fin 96)) ?_).trans ?_
  · rw [Shape.rowMajor_val_three, Shape.rowMajor_val_two]
    show (a.val * 48 + j.val / 96) * 96 + j.val % 96 = a.val * 4608 + j.val
    omega
  · refine shapeCast_apply _ shapeCasts_S256x1x1x48x96_S256x48x96 _ _ ?_
    rw [Shape.rowMajor_val_five, Shape.rowMajor_val_three]
    show (((a.val * 1 + 0) * 1 + 0) * 48 + j.val / 96) * 96 + j.val % 96 = (a.val * 48 + j.val / 96) * 96 + j.val % 96
    omega

/-- The product's left operand is read at the output row and the contraction position. -/
theorem lhs_idx_0 (i : S256x256.Idx) (c : dot_S256x4608_S4608x256_S256x256_1_0_0_1_n_n.contr.Idx) :
    (dot_S256x4608_S4608x256_S256x256_1_0_0_1_n_n.lhsIdx i c 0).val = (i 0).val := by
  unfold DotDims.lhsIdx
  rw [dif_neg (show ¬(0 : Fin S256x4608.rank) ∈ dot_S256x4608_S4608x256_S256x256_1_0_0_1_n_n.lhsBatch by decide),
    dif_pos (show (0 : Fin S256x4608.rank) ∈ dot_S256x4608_S4608x256_S256x256_1_0_0_1_n_n.lhsNonContracting by decide)]
  rfl

theorem lhs_idx_1 (i : S256x256.Idx) (c : dot_S256x4608_S4608x256_S256x256_1_0_0_1_n_n.contr.Idx) :
    (dot_S256x4608_S4608x256_S256x256_1_0_0_1_n_n.lhsIdx i c 1).val = (c ⟨0, by decide⟩).val :=
  dot_S256x4608_S4608x256_S256x256_1_0_0_1_n_n.lhsIdx_val_of_single rfl i c

/-- The right operand is read at the contraction position and the output column. -/
theorem rhs_idx_0 (i : S256x256.Idx) (c : dot_S256x4608_S4608x256_S256x256_1_0_0_1_n_n.contr.Idx) :
    (dot_S256x4608_S4608x256_S256x256_1_0_0_1_n_n.rhsIdx i c 0).val = (c ⟨0, by decide⟩).val :=
  dot_S256x4608_S4608x256_S256x256_1_0_0_1_n_n.rhsIdx_val_of_single rfl i c

theorem rhs_idx_1 (i : S256x256.Idx) (c : dot_S256x4608_S4608x256_S256x256_1_0_0_1_n_n.contr.Idx) :
    (dot_S256x4608_S4608x256_S256x256_1_0_0_1_n_n.rhsIdx i c 1).val = (i 1).val := by
  unfold DotDims.rhsIdx
  rw [dif_neg (show ¬(1 : Fin S4608x256.rank) ∈ dot_S256x4608_S4608x256_S256x256_1_0_0_1_n_n.rhsBatch by decide),
    dif_pos (show (1 : Fin S4608x256.rank) ∈ dot_S256x4608_S4608x256_S256x256_1_0_0_1_n_n.rhsNonContracting by decide)]
  rfl

/-- The stored value of a step: what the block held plus the plane's product. -/
theorem pay2_apply (v3 : Vec Ideal S256x1x1x48x96 .f32) (v7 : Vec Ideal S4608x256 .f32) (v9 : Vec Ideal S256x256 .f32)
    (a q : Fin 256) :
    k0_pay2 (F := Ideal) v3 v7 v9 (ix2 a q)
      = v9 (ix2 a q) + ∑ j : Fin 4608,
          v3 (ix5 a (0 : Fin 1) (0 : Fin 1) (⟨j.val / 96, by have := j.isLt; omega⟩ : Fin 48)
            (⟨j.val % 96, Nat.mod_lt _ (by decide)⟩ : Fin 96)) * v7 (ix2 j q) := by
  unfold k0_pay2
  rw [shapeCast_self]
  refine (addf_apply _ _ _).trans ?_
  refine congrArg (v9 (ix2 a q) + ·) ?_
  simp only [matmul]
  rw [Ideal.matmul_constant_zero_apply,
    ← Equiv.sum_comp (contrEquiv1 dot_S256x4608_S4608x256_S256x256_1_0_0_1_n_n 4608 rfl rfl).symm]
  refine Finset.sum_congr rfl fun k _ => ?_
  have hk := contrEquiv1_symm_val dot_S256x4608_S4608x256_S256x256_1_0_0_1_n_n 4608 rfl rfl k
  have el : dot_S256x4608_S4608x256_S256x256_1_0_0_1_n_n.lhsIdx (ix2 a q)
      ((contrEquiv1 dot_S256x4608_S4608x256_S256x256_1_0_0_1_n_n 4608 rfl rfl).symm k) = ix2 a k :=
    funext fun b => Fin.ext (by
      match b with
      | ⟨0, _⟩ => exact lhs_idx_0 _ _
      | ⟨1, _⟩ => exact (lhs_idx_1 _ _).trans hk)
  have er : dot_S256x4608_S4608x256_S256x256_1_0_0_1_n_n.rhsIdx (ix2 a q)
      ((contrEquiv1 dot_S256x4608_S4608x256_S256x256_1_0_0_1_n_n 4608 rfl rfl).symm k) = ix2 k q :=
    funext fun b => Fin.ext (by
      match b with
      | ⟨0, _⟩ => exact (rhs_idx_0 _ _).trans hk
      | ⟨1, _⟩ => exact rhs_idx_1 _ _)
  rw [el, er, truncf_apply, truncf_apply, flat_apply]

/-- The second call stores the same two values. -/
theorem k1_pay1_eq : @k1_pay1 = @k0_pay1 := rfl

theorem k1_pay2_eq : @k1_pay2 = @k0_pay2 := rfl

theorem k1_pay1_apply (a q : Fin 256) : k1_pay1 (F := Ideal) (ix2 a q) = 0 := by
  rw [k1_pay1_eq]; exact pay1_apply a q

theorem k1_pay2_apply (v3 : Vec Ideal S256x1x1x48x96 .f32) (v7 : Vec Ideal S4608x256 .f32) (v9 : Vec Ideal S256x256 .f32)
    (a q : Fin 256) :
    k1_pay2 (F := Ideal) v3 v7 v9 (ix2 a q)
      = v9 (ix2 a q) + ∑ j : Fin 4608,
          v3 (ix5 a (0 : Fin 1) (0 : Fin 1) (⟨j.val / 96, by have := j.isLt; omega⟩ : Fin 48)
            (⟨j.val % 96, Nat.mod_lt _ (by decide)⟩ : Fin 96)) * v7 (ix2 j q) := by
  rw [k1_pay2_eq]; exact pay2_apply v3 v7 v9 a q

end Cert.KernelIdeal.AccValue

end
-- ==== Proof.AccValue.lean ====
/-
  The kernel's accumulator after all 15 reduction steps, read at an index, is the embedding.

  Each step adds to the accumulator the product of one plane's lower half with the matching 4608 rows of the weights; the
  first step starts from zero. So after steps 0..k the accumulator at (a, q) is the sum over those steps of the step's
  inner sum, and after step 14 it is the double sum that defines the embedding, once each step's blocks are identified with
  the entries of the whole arrays they were cut from. Addition of extended reals is associative and commutative and zero is
  neutral, which is all the argument uses.
-/
import proofs.«172429_j24283745091878_2_alg».proof.Proof.PayValue
import proofs.«172429_j24283745091878_2_alg».proof.Proof.Spec

noncomputable section

open scoped BigOperators

namespace Cert.KernelIdeal.AccValue

open Idealize.ShloMosaic Idealize.ShloMosaic.ValueIdx Cert.KernelIdeal Cert.KernelIdeal.Gen Cert.KernelIdeal.Acc

/-- Step i's contribution at row a and column q: the sum over the plane's 4608 entries of x block times weight block. -/
def planeSum (xb : ℕ → Vec Ideal S256x1x1x48x96 .f32) (wb : ℕ → Vec Ideal S4608x256 .f32) (a q : Fin 256) (i : ℕ) : EReal :=
  ∑ j : Fin 4608,
    xb i (ix5 a (0 : Fin 1) (0 : Fin 1) (⟨j.val / 96, by have := j.isLt; omega⟩ : Fin 48)
      (⟨j.val % 96, Nat.mod_lt _ (by decide)⟩ : Fin 96)) * wb i (ix2 j q)

/-- After steps 0..k the accumulator holds the sum of those steps' contributions. -/
theorem accRec0_sum (xb : ℕ → Vec Ideal S256x1x1x48x96 .f32) (wb : ℕ → Vec Ideal S4608x256 .f32) (a q : Fin 256) (k : ℕ) :
    accRec0 xb wb k (ix2 a q) = ∑ i ∈ Finset.range (k + 1), planeSum xb wb a q i := by
  induction k with
  | zero =>
    rw [Finset.sum_range_one]
    unfold planeSum
    rw [accRec0, pay2_apply, pay1_apply, zero_add]
  | succ k ih =>
    rw [Finset.sum_range_succ _ (k + 1), ← ih]
    unfold planeSum
    rw [accRec0, pay2_apply]

/-- The second call's recursion is the first's. -/
theorem accRec1_eq (xb : ℕ → Vec Ideal S256x1x1x48x96 .f32) (wb : ℕ → Vec Ideal S4608x256 .f32) (k : ℕ) :
    accRec1 xb wb k = accRec0 xb wb k := by
  induction k with
  | zero => rw [accRec1, accRec0, k1_pay2_eq, k1_pay1_eq]
  | succ k ih => rw [accRec1, accRec0, ih, k1_pay2_eq]

/-- After the last step the accumulator is the embedding: the x blocks are the lower halves of the planes of X (plane k is
    colour k mod 3 of frame k div 3), the weight blocks are rows 4608·k .. 4608·k + 4607 of W in the column block n. -/
theorem accRec0_apply (X : FVec Ideal ⟨5, ![256, 3, 5, 96, 96]⟩ .f32) (W : FVec Ideal ⟨2, ![69120, 512]⟩ .f32) (n : Fin 2)
    (xb : ℕ → Vec Ideal S256x1x1x48x96 .f32) (wb : ℕ → Vec Ideal S4608x256 .f32)
    (hx : ∀ (k : Fin 15) (a : Fin 256) (r : Fin 48) (cl : Fin 96),
      xb k.val (ix5 a (0 : Fin 1) (0 : Fin 1) r cl)
        = X (ix5 a (⟨k.val % 3, Nat.mod_lt _ (by decide)⟩ : Fin 3) (⟨k.val / 3, by have := k.isLt; omega⟩ : Fin 5)
            (⟨48 + r.val, by have := r.isLt; omega⟩ : Fin 96) cl))
    (hw : ∀ (k : Fin 15) (j : Fin 4608) (q : Fin 256),
      wb k.val (ix2 j q)
        = W (ix2 (⟨k.val * 4608 + j.val, by have := k.isLt; have := j.isLt; omega⟩ : Fin 69120)
            (⟨n.val * 256 + q.val, by have := n.isLt; have := q.isLt; omega⟩ : Fin 512)))
    (a q : Fin 256) :
    accRec0 xb wb 14 (ix2 a q)
      = Cert.Spec.embAt X W a (⟨n.val * 256 + q.val, by have := n.isLt; have := q.isLt; omega⟩ : Fin 512) := by
  refine (accRec0_sum xb wb a q 14).trans ?_
  refine (Fin.sum_univ_eq_sum_range (fun i => planeSum xb wb a q i) 15).symm.trans ?_
  unfold Cert.Spec.embAt
  refine Finset.sum_congr rfl fun k _ => ?_
  unfold planeSum
  refine Finset.sum_congr rfl fun j _ => ?_
  rw [hx k a, hw k j q]
  rfl

theorem accRec1_apply (X : FVec Ideal ⟨5, ![256, 3, 5, 96, 96]⟩ .f32) (W : FVec Ideal ⟨2, ![69120, 512]⟩ .f32) (n : Fin 2)
    (xb : ℕ → Vec Ideal S256x1x1x48x96 .f32) (wb : ℕ → Vec Ideal S4608x256 .f32)
    (hx : ∀ (k : Fin 15) (a : Fin 256) (r : Fin 48) (cl : Fin 96),
      xb k.val (ix5 a (0 : Fin 1) (0 : Fin 1) r cl)
        = X (ix5 a (⟨k.val % 3, Nat.mod_lt _ (by decide)⟩ : Fin 3) (⟨k.val / 3, by have := k.isLt; omega⟩ : Fin 5)
            (⟨48 + r.val, by have := r.isLt; omega⟩ : Fin 96) cl))
    (hw : ∀ (k : Fin 15) (j : Fin 4608) (q : Fin 256),
      wb k.val (ix2 j q)
        = W (ix2 (⟨k.val * 4608 + j.val, by have := k.isLt; have := j.isLt; omega⟩ : Fin 69120)
            (⟨n.val * 256 + q.val, by have := n.isLt; have := q.isLt; omega⟩ : Fin 512)))
    (a q : Fin 256) :
    accRec1 xb wb 14 (ix2 a q)
      = Cert.Spec.embAt X W a (⟨n.val * 256 + q.val, by have := n.isLt; have := q.isLt; omega⟩ : Fin 512) := by
  rw [accRec1_eq]
  exact accRec0_apply X W n xb wb hx hw a q

end Cert.KernelIdeal.AccValue

end
-- ==== Proof.KI0.AccRead.lean ====
/-
  Call 0 of the visual kernel: the accumulator after a column tile's last reduction step, read at an index, is the embedding.

  The points of column tile n are 15·n + k for the reduction steps k = 0, …, 14, in grid order. The accumulator after the
  body at the point 15·n + k is the accumulator recursion over the tile's two block sequences after steps 0..k: the step
  k = 0 starts from the zero block, every later step from what the point before left. With the two input blocks of a point
  read off the whole arrays (plane k of the visual tensor, rows 4608·k .. 4608·k + 4607 of the weights in column block n) the
  recursion's value after step 14 is the embedding.
-/
import proofs.«172429_j24283745091878_2_alg».proof.Proof.KI0.Acc
import proofs.«172429_j24283745091878_2_alg».proof.Proof.AccValue

set_option maxRecDepth 16384

noncomputable section

namespace Cert.KernelIdeal.Call0

open Cert.KernelIdeal Cert.KernelIdeal.Gen Cert.KernelIdeal.Acc Cert.KernelIdeal.AccValue
open Idealize.ShloMosaic Idealize.ShloMosaic.TcCoe Idealize.ShloMosaic.ValueIdx
open Idealize.SL.Sem

/-- The point 15·n + k of column tile n and reduction step k is a point of the grid. -/
theorem tile_point_lt (n : Fin 2) (k : ℕ) (hk : k < 15) : 15 * n.val + k < cfg0.N := by
  have hN : cfg0.N = 30 := N_0
  have := n.isLt
  omega

theorem zero_lt_N : 0 < cfg0.N := by
  have hN : cfg0.N = 30 := N_0
  omega

section
variable {F : FTy → Type} [FloatOps F]
-- the TensorCore's buffer contents when the call is entered
variable (V : (c : Dev nD) → (b : Ref sig .tc) → Buf (Elt F) ((c : Thread nD τ).loc b))

/-- The visual blocks of column tile n in step order (past the grid: the block of point 0, which nothing reads). -/
def xseq (c : Dev nD) (n : ℕ) (k : ℕ) : Vec F S256x1x1x48x96 .f32 :=
  if h : 15 * n + k < cfg0.N then iblk V c 0 ⟨15 * n + k, h⟩ else iblk V c 0 ⟨0, zero_lt_N⟩

/-- The weight blocks of column tile n in step order. -/
def wseq (c : Dev nD) (n : ℕ) (k : ℕ) : Vec F S4608x256 .f32 :=
  if h : 15 * n + k < cfg0.N then iblk V c 1 ⟨15 * n + k, h⟩ else iblk V c 1 ⟨0, zero_lt_N⟩

theorem xseq_of_lt (c : Dev nD) (n k : ℕ) (h : 15 * n + k < cfg0.N) : xseq V c n k = iblk V c 0 ⟨15 * n + k, h⟩ := dif_pos h

theorem wseq_of_lt (c : Dev nD) (n k : ℕ) (h : 15 * n + k < cfg0.N) : wseq V c n k = iblk V c 1 ⟨15 * n + k, h⟩ := dif_pos h

/-- The accumulator after the body at the point 15·n + k is the recursion over the tile's blocks after steps 0..k. -/
theorem sAt_eq_accRec (c : Dev nD) (n : Fin 2) (k : ℕ) (hk : k < 15) :
    sAt V c (15 * n.val + k) (tile_point_lt n k hk) = accRec0 (xseq V c n.val) (wseq V c n.val) k := by
  induction k with
  | zero =>
    have hlt : 15 * n.val + 0 < cfg0.N := tile_point_lt n 0 hk
    rw [accRec0, xseq_of_lt V c n.val 0 hlt, wseq_of_lt V c n.val 0 hlt]
    exact sAt_first V c ⟨15 * n.val + 0, hlt⟩ (by show (15 * n.val + 0) % 15 = 0; omega)
  | succ k ih =>
    have hlt : 15 * n.val + (k + 1) < cfg0.N := tile_point_lt n (k + 1) hk
    rw [accRec0, xseq_of_lt V c n.val (k + 1) hlt, wseq_of_lt V c n.val (k + 1) hlt, ← ih (by omega)]
    exact sAt_next V c ⟨15 * n.val + (k + 1), hlt⟩ (by show ¬(15 * n.val + (k + 1)) % 15 = 0; omega)

end

/-- Reading the visual tensor at two indices whose colour and frame coordinates have equal values. -/
theorem read_x_congr (X : FVec Ideal ⟨5, ![256, 3, 5, 96, 96]⟩ .f32) (a : Fin 256) {b b' : Fin 3} {d d' : Fin 5} (r cl : Fin 96)
    (hb : b.val = b'.val) (hd : d.val = d'.val) : X (ix5 a b d r cl) = X (ix5 a b' d' r cl) := by
  obtain rfl := Fin.ext hb
  obtain rfl := Fin.ext hd
  rfl

/-- Reading the weights at two indices whose coordinates have equal values. -/
theorem read_w_congr (W : FVec Ideal ⟨2, ![69120, 512]⟩ .f32) {j j' : Fin 69120} {q q' : Fin 512}
    (hj : j.val = j'.val) (hq : q.val = q'.val) : W (ix2 j q) = W (ix2 j' q') := by
  obtain rfl := Fin.ext hj
  obtain rfl := Fin.ext hq
  rfl

section
variable (V : (c : Dev nD) → (b : Ref sig .tc) → Buf (Elt Ideal) ((c : Thread nD τ).loc b))

/-- After the last reduction step of column tile n the accumulator at (a, q) is the embedding of sample a at output
    column 256·n + q, given where the two blocks of a point sit in the visual tensor and in the weights. -/
theorem sAt_apply (c : Dev nD)
    (hx : ∀ (t : Fin cfg0.N) (a : Fin 256) (r : Fin 48) (cl : Fin 96),
      (iblk V c 0 t : Vec Ideal S256x1x1x48x96 .f32) (ix5 a (0 : Fin 1) (0 : Fin 1) r cl)
        = (V c main_arg1 : Vec Ideal S256x3x5x96x96 .f32) (ix5 a
            (⟨(t.val % 15) % 3, Nat.mod_lt _ (by decide)⟩ : Fin 3)
            (⟨(t.val % 15) / 3, by have := Nat.mod_lt t.val (show 0 < 15 by decide); omega⟩ : Fin 5)
            (⟨48 + r.val, by have := r.isLt; omega⟩ : Fin 96) cl))
    (hw : ∀ (t : Fin cfg0.N) (j : Fin 4608) (q : Fin 256),
      (iblk V c 1 t : Vec Ideal S4608x256 .f32) (ix2 j q)
        = (V c main_arg5 : Vec Ideal S69120x512 .f32) (ix2
            (⟨(t.val % 15) * 4608 + j.val, by have := Nat.mod_lt t.val (show 0 < 15 by decide); have := j.isLt; omega⟩ : Fin 69120)
            (⟨(t.val / 15) * 256 + q.val, by
              have hN : cfg0.N = 30 := N_0
              have := t.isLt; have := q.isLt; omega⟩ : Fin 512)))
    (n : Fin 2) (a q : Fin 256) :
    sAt V c (15 * n.val + 14) (tile_point_lt n 14 (by decide)) (ix2 a q)
      = Cert.Spec.embAt (V c main_arg1 : Vec Ideal S256x3x5x96x96 .f32) (V c main_arg5 : Vec Ideal S69120x512 .f32) a
          (⟨n.val * 256 + q.val, by have := n.isLt; have := q.isLt; omega⟩ : Fin 512) := by
  rw [sAt_eq_accRec V c n 14 (by decide)]
  refine accRec0_apply (V c main_arg1 : Vec Ideal S256x3x5x96x96 .f32) (V c main_arg5 : Vec Ideal S69120x512 .f32) n
    (xseq V c n.val) (wseq V c n.val) (fun k a r cl => ?_) (fun k j q => ?_) a q
  · have hlt : 15 * n.val + k.val < cfg0.N := tile_point_lt n k.val k.isLt
    rw [xseq_of_lt V c n.val k.val hlt]
    refine (hx ⟨15 * n.val + k.val, hlt⟩ a r cl).trans ?_
    refine read_x_congr _ a _ cl ?_ ?_
    · show (15 * n.val + k.val) % 15 % 3 = k.val % 3
      have := k.isLt; omega
    · show (15 * n.val + k.val) % 15 / 3 = k.val / 3
      have := k.isLt; omega
  · have hlt : 15 * n.val + k.val < cfg0.N := tile_point_lt n k.val k.isLt
    rw [wseq_of_lt V c n.val k.val hlt]
    refine (hw ⟨15 * n.val + k.val, hlt⟩ j q).trans ?_
    refine read_w_congr _ ?_ ?_
    · show (15 * n.val + k.val) % 15 * 4608 + j.val = k.val * 4608 + j.val
      have := k.isLt; omega
    · show (15 * n.val + k.val) / 15 * 256 + q.val = n.val * 256 + q.val
      have := k.isLt; omega

end

end Cert.KernelIdeal.Call0

end
-- ==== Proof.KI0.BlockRead.lean ====
/-
  Call 0 of the visual kernel: its two input blocks read at an index.

  At grid point t the column tile is n = t / 15 and the reduction step is k = t mod 15. The visual tensor's block is one
  plane's lower half for all 256 samples: colour k mod 3, frame k / 3, rows 48..95, every column. The weights' block is rows
  4608·k .. 4608·k + 4607 and columns 256·n .. 256·n + 255. An element of a block sits in its array, on every axis, at the
  block index times the block's extent plus its own coordinate; the block indices are decided once over the 30 points.
-/
import proofs.«172429_j24283745091878_2_alg».proof.Proof.KI0.Base
import Idealize.ShloMosaic.Lib.ValueIdx

set_option maxRecDepth 16384

noncomputable section

namespace Cert.KernelIdeal.Call0

open Cert.KernelIdeal Cert.KernelIdeal.Gen
open Idealize.ShloMosaic Idealize.ShloMosaic.TcCoe
open Idealize.SL.Sem
open Idealize.ShloMosaic.ValueIdx

variable {F : FTy → Type} [FloatOps F]

/-- A grid point's number is below 30. -/
theorem point_lt (t : Fin cfg0.N) : t.val < 30 := lt_of_lt_of_eq t.isLt N_0

/-- The visual tensor's block indices at point t: sample block 0, colour (t mod 15) mod 3, frame (t mod 15) / 3, the lower
    half of the rows, column block 0. -/
theorem idx_facts_x : ∀ t : Fin cfg0.N, win0_0.index t (0 : Fin 5) = 0
    ∧ win0_0.index t (1 : Fin 5) = (t.val % 15) % 3
    ∧ win0_0.index t (2 : Fin 5) = (t.val % 15) / 3
    ∧ win0_0.index t (3 : Fin 5) = 1
    ∧ win0_0.index t (4 : Fin 5) = 0 :=
  (by decide +kernel : ∀ t : Fin grid0.N, _)

/-- The weights' block indices at point t: row block t mod 15, column block t / 15. -/
theorem idx_facts_w : ∀ t : Fin cfg0.N, win0_1.index t (0 : Fin 2) = t.val % 15
    ∧ win0_1.index t (1 : Fin 2) = t.val / 15 :=
  (by decide +kernel : ∀ t : Fin grid0.N, _)

section
-- the TensorCore's buffer contents when the call is entered
variable (V : (c : Dev nD) → (b : Ref sig .tc) → Buf (Elt F) ((c : Thread nD τ).loc b))

/-- Entry (a, r, cl) of the visual block of point t is the visual tensor at sample a, colour (t mod 15) mod 3,
    frame (t mod 15) / 3, row 48 + r, column cl. -/
theorem xblk_apply (c : Dev nD) (t : Fin cfg0.N) (a : Fin 256) (r : Fin 48) (cl : Fin 96) :
    (iblk V c 0 t : Vec F S256x1x1x48x96 .f32) (ix5 a (0 : Fin 1) (0 : Fin 1) r cl)
      = (V c main_arg1 : Vec F S256x3x5x96x96 .f32) (ix5 a
          (⟨(t.val % 15) % 3, Nat.mod_lt _ (by decide)⟩ : Fin 3)
          (⟨(t.val % 15) / 3, by have := Nat.mod_lt t.val (show 0 < 15 by decide); omega⟩ : Fin 5)
          (⟨48 + r.val, by have := r.isLt; omega⟩ : Fin 96) cl) := by
  obtain ⟨e0, e1, e2, e3, e4⟩ := idx_facts_x t
  unfold iblk
  rw [View.read_apply]
  show (V c main_arg1 : Vec F S256x3x5x96x96 .f32) (((cfg0.win 0).blk t).view.emb (ix5 a (0 : Fin 1) (0 : Fin 1) r cl)) = _
  refine congrArg _ (funext fun b => Fin.ext ?_)
  match b with
  | ⟨0, _⟩ => show win0_0.index t (0 : Fin 5) * 256 + 1 * a.val = a.val; omega
  | ⟨1, _⟩ => show win0_0.index t (1 : Fin 5) * 1 + 1 * 0 = (t.val % 15) % 3; omega
  | ⟨2, _⟩ => show win0_0.index t (2 : Fin 5) * 1 + 1 * 0 = (t.val % 15) / 3; omega
  | ⟨3, _⟩ => show win0_0.index t (3 : Fin 5) * 48 + 1 * r.val = 48 + r.val; omega
  | ⟨4, _⟩ => show win0_0.index t (4 : Fin 5) * 96 + 1 * cl.val = cl.val; omega

/-- Entry (j, q) of the weights' block of point t is the weights at row 4608·(t mod 15) + j, column 256·(t / 15) + q. -/
theorem wblk_apply (c : Dev nD) (t : Fin cfg0.N) (j : Fin 4608) (q : Fin 256) :
    (iblk V c 1 t : Vec F S4608x256 .f32) (ix2 j q)
      = (V c main_arg5 : Vec F S69120x512 .f32) (ix2
          (⟨(t.val % 15) * 4608 + j.val, by have := Nat.mod_lt t.val (show 0 < 15 by decide); have := j.isLt; omega⟩ : Fin 69120)
          (⟨(t.val / 15) * 256 + q.val, by have := point_lt t; have := q.isLt; omega⟩ : Fin 512)) := by
  obtain ⟨e0, e1⟩ := idx_facts_w t
  unfold iblk
  rw [View.read_apply]
  show (V c main_arg5 : Vec F S69120x512 .f32) (((cfg0.win 1).blk t).view.emb (ix2 j q)) = _
  refine congrArg _ (funext fun b => Fin.ext ?_)
  match b with
  | ⟨0, _⟩ => show win0_1.index t (0 : Fin 2) * 4608 + 1 * j.val = (t.val % 15) * 4608 + j.val; omega
  | ⟨1, _⟩ => show win0_1.index t (1 : Fin 2) * 256 + 1 * q.val = (t.val / 15) * 256 + q.val; omega

end

end Cert.KernelIdeal.Call0

end
-- ==== Proof.KI1.Final.lean ====
/-
  Call 0 of the visual kernel: the output array after the run, and the two inputs kept.

  The output array [256, 512] is written back in two column tiles of 256 columns: tile n at the last reduction step of that
  tile, grid point 15·n + 14, where the output block holds the accumulator the body has just left. Column q' of the array
  therefore comes from tile q' / 256, local column q' mod 256, of the accumulator after point 15·(q' / 256) + 14. Every index
  of the array lies in exactly such a block, so the array ends holding this function everywhere. The two input windows are
  never written back: their arrays stay what the call found.
-/
import proofs.«172429_j24283745091878_2_alg».proof.Proof.KI1.Dat
import Idealize.ShloMosaic.Lib.Pipeline.Value
import Idealize.ShloMosaic.Lib.ValueIdx

set_option maxRecDepth 16384

noncomputable section

namespace Cert.KernelIdeal.Call1

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-- The output window's block indices at point t: row block 0, column tile t / 15. -/
theorem idx_facts_o : ∀ t : Fin cfg1.N, win1_2.index t (0 : Fin 2) = 0
    ∧ win1_2.index t (1 : Fin 2) = t.val / 15 :=
  (by decide +kernel : ∀ t : Fin grid1.N, _)

/-- An index of the array is in point t's output block iff each coordinate is in the block's range on its axis. -/
theorem mem_blk (t : Fin cfg1.N) (i : S256x512.Idx) :
    i ∈ ((cfg1.win 2).blk t).view.set ↔ ∀ a : Fin 2, win1_2.index t a * S256x256.size a ≤ (i a).val
      ∧ (i a).val < win1_2.index t a * S256x256.size a + S256x256.size a := by
  show i ∈ ((View.whole main_v4).slice (win1_2.rect t)).set ↔ _
  rw [View.set_slice_whole, Rect.mem_set_unit]
  exact Iff.rfl

section
-- the TensorCore's buffer contents when the call is entered
variable (V : (c : Dev nD) → (b : Ref sig .tc) → Buf (Elt F) ((c : Thread nD τ).loc b))

/-- The accumulator after a point depends on the point's number only. -/
theorem sAt_congr (c : Dev nD) {n n' : ℕ} (h : n < cfg1.N) (h' : n' < cfg1.N) (e : n = n') :
    sAt V c n h = sAt V c n' h' := by
  subst e; rfl

/-- The output array after the run: column q' comes from column tile q' / 256, local column q' mod 256, of the accumulator
    after that tile's last reduction step, point 15·(q' / 256) + 14. -/
def outArr (c : Dev nD) : Vec F S256x512 .f32 := fun i =>
  sAt V c (15 * ((i 1).val / 256) + 14) (by have h := idx2_lt1 i; have hN : cfg1.N = 30 := N_1; omega)
    (ix2 (⟨(i 0).val, idx2_lt0 i⟩ : Fin 256) (⟨(i 1).val % 256, Nat.mod_lt _ (by decide)⟩ : Fin 256))

/-- At a last reduction step t, the array index whose row is y's and whose column is 256·(t / 15) plus y's reads the
    accumulator after t at y. -/
theorem outArr_at (c : Dev nD) (t : Fin cfg1.N) (h14 : t.val % 15 = 14) (y : S256x256.Idx) (i : S256x512.Idx)
    (h0 : (i 0).val = (y 0).val) (h1 : (i 1).val = (t.val / 15) * 256 + (y 1).val) :
    outArr V c i = sAt V c t.val t.isLt y := by
  unfold outArr
  have hy : (y 1).val < 256 := idx2_lt1 y
  have e : 15 * ((i 1).val / 256) + 14 = t.val := by rw [h1]; omega
  refine (congrFun (sAt_congr V c _ t.isLt e) _).trans ?_
  exact congrArg _ (funext fun a => Fin.ext (by
    match a with
    | ⟨0, _⟩ => exact h0
    | ⟨1, _⟩ => show (i 1).val % 256 = (y 1).val; rw [h1]; omega))

/-- What a write-back point writes back is its block of the closed form. -/
theorem flushed_eq (c : Dev nD) (t : Fin cfg1.N) (hf : (cfg1.win 2).flush t = true) :
    (dat V c).flushed 2 t = ((cfg1.win 2).blk t).view.read (Elt F) (outArr V c) := by
  have h14 : t.val % 15 = 14 := (flush1_2 t).mp hf
  obtain ⟨e0, e1⟩ := idx_facts_o t
  show (cfg1.win 2).cut (grid1.coords t) ((dat V c).after 2 t) = _
  rw [after_2]
  funext y
  rw [View.read_apply]
  show sAt V c t.val t.isLt y = outArr V c (((cfg1.win 2).blk t).view.emb y)
  refine (outArr_at V c t h14 y _ ?_ ?_).symm
  · show win1_2.index t (0 : Fin 2) * 256 + 1 * (y 0).val = (y 0).val; omega
  · show win1_2.index t (1 : Fin 2) * 256 + 1 * (y 1).val = (t.val / 15) * 256 + (y 1).val; omega

/-- Every index of the array is in the block of the last reduction step of its column tile. -/
theorem cover (i : S256x512.Idx) :
    ∃ t : Fin cfg1.N, (cfg1.win 2).flush t = true ∧ i ∈ ((cfg1.win 2).blk t).view.set := by
  have hi0 : (i 0).val < 256 := idx2_lt0 i
  have hi1 : (i 1).val < 512 := idx2_lt1 i
  have hN : cfg1.N = 30 := N_1
  obtain ⟨t, ht⟩ : ∃ t : Fin cfg1.N, t.val = 15 * ((i 1).val / 256) + 14 := ⟨⟨15 * ((i 1).val / 256) + 14, by omega⟩, rfl⟩
  obtain ⟨e0, e1⟩ := idx_facts_o t
  refine ⟨t, (flush1_2 t).mpr (by omega), ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 256 ≤ (i 1).val ∧ (i 1).val < win1_2.index t (1 : Fin 2) * 256 + 256; omega

/-- The output array after the run is the closed form. -/
theorem final2 (c : Dev nD) : (dat V c).arrAt 2 cfg1.N = outArr V c :=
  (dat V c).arrAt_eq_of_cover 2 (outArr V c) (flushed_eq V c) cover

/-- The two input arrays are never written back: they stay what the call found. -/
theorem kept_in (c : Dev nD) (w : Fin cfg1.W) (hw : w = 0 ∨ w = 1) (n : ℕ) :
    (dat V c).arrAt w n = V c (Pipeline.arrRef spec1 w) := by
  rcases hw with rfl | rfl
  · exact ((dat V c).arrAt_in 0 rfl n).trans (A_eq V c 0)
  · exact ((dat V c).arrAt_in 1 rfl n).trans (A_eq V c 1)

end

end Cert.KernelIdeal.Call1

end
-- ==== Proof.KI1.AccRead.lean ====
/-
  Call 0 of the visual kernel: the accumulator after a column tile's last reduction step, read at an index, is the embedding.

  The points of column tile n are 15·n + k for the reduction steps k = 0, …, 14, in grid order. The accumulator after the
  body at the point 15·n + k is the accumulator recursion over the tile's two block sequences after steps 0..k: the step
  k = 0 starts from the zero block, every later step from what the point before left. With the two input blocks of a point
  read off the whole arrays (plane k of the visual tensor, rows 4608·k .. 4608·k + 4607 of the weights in column block n) the
  recursion's value after step 14 is the embedding.
-/
import proofs.«172429_j24283745091878_2_alg».proof.Proof.KI1.Acc
import proofs.«172429_j24283745091878_2_alg».proof.Proof.AccValue

set_option maxRecDepth 16384

noncomputable section

namespace Cert.KernelIdeal.Call1

open Cert.KernelIdeal Cert.KernelIdeal.Gen Cert.KernelIdeal.Acc Cert.KernelIdeal.AccValue
open Idealize.ShloMosaic Idealize.ShloMosaic.TcCoe Idealize.ShloMosaic.ValueIdx
open Idealize.SL.Sem

/-- The point 15·n + k of column tile n and reduction step k is a point of the grid. -/
theorem tile_point_lt (n : Fin 2) (k : ℕ) (hk : k < 15) : 15 * n.val + k < cfg1.N := by
  have hN : cfg1.N = 30 := N_1
  have := n.isLt
  omega

theorem zero_lt_N : 0 < cfg1.N := by
  have hN : cfg1.N = 30 := N_1
  omega

section
variable {F : FTy → Type} [FloatOps F]
-- the TensorCore's buffer contents when the call is entered
variable (V : (c : Dev nD) → (b : Ref sig .tc) → Buf (Elt F) ((c : Thread nD τ).loc b))

/-- The visual blocks of column tile n in step order (past the grid: the block of point 0, which nothing reads). -/
def xseq (c : Dev nD) (n : ℕ) (k : ℕ) : Vec F S256x1x1x48x96 .f32 :=
  if h : 15 * n + k < cfg1.N then iblk V c 0 ⟨15 * n + k, h⟩ else iblk V c 0 ⟨0, zero_lt_N⟩

/-- The weight blocks of column tile n in step order. -/
def wseq (c : Dev nD) (n : ℕ) (k : ℕ) : Vec F S4608x256 .f32 :=
  if h : 15 * n + k < cfg1.N then iblk V c 1 ⟨15 * n + k, h⟩ else iblk V c 1 ⟨0, zero_lt_N⟩

theorem xseq_of_lt (c : Dev nD) (n k : ℕ) (h : 15 * n + k < cfg1.N) : xseq V c n k = iblk V c 0 ⟨15 * n + k, h⟩ := dif_pos h

theorem wseq_of_lt (c : Dev nD) (n k : ℕ) (h : 15 * n + k < cfg1.N) : wseq V c n k = iblk V c 1 ⟨15 * n + k, h⟩ := dif_pos h

/-- The accumulator after the body at the point 15·n + k is the recursion over the tile's blocks after steps 0..k. -/
theorem sAt_eq_accRec (c : Dev nD) (n : Fin 2) (k : ℕ) (hk : k < 15) :
    sAt V c (15 * n.val + k) (tile_point_lt n k hk) = accRec1 (xseq V c n.val) (wseq V c n.val) k := by
  induction k with
  | zero =>
    have hlt : 15 * n.val + 0 < cfg1.N := tile_point_lt n 0 hk
    rw [accRec1, xseq_of_lt V c n.val 0 hlt, wseq_of_lt V c n.val 0 hlt]
    exact sAt_first V c ⟨15 * n.val + 0, hlt⟩ (by show (15 * n.val + 0) % 15 = 0; omega)
  | succ k ih =>
    have hlt : 15 * n.val + (k + 1) < cfg1.N := tile_point_lt n (k + 1) hk
    rw [accRec1, xseq_of_lt V c n.val (k + 1) hlt, wseq_of_lt V c n.val (k + 1) hlt, ← ih (by omega)]
    exact sAt_next V c ⟨15 * n.val + (k + 1), hlt⟩ (by show ¬(15 * n.val + (k + 1)) % 15 = 0; omega)

end

/-- Reading the visual tensor at two indices whose colour and frame coordinates have equal values. -/
theorem read_x_congr (X : FVec Ideal ⟨5, ![256, 3, 5, 96, 96]⟩ .f32) (a : Fin 256) {b b' : Fin 3} {d d' : Fin 5} (r cl : Fin 96)
    (hb : b.val = b'.val) (hd : d.val = d'.val) : X (ix5 a b d r cl) = X (ix5 a b' d' r cl) := by
  obtain rfl := Fin.ext hb
  obtain rfl := Fin.ext hd
  rfl

/-- Reading the weights at two indices whose coordinates have equal values. -/
theorem read_w_congr (W : FVec Ideal ⟨2, ![69120, 512]⟩ .f32) {j j' : Fin 69120} {q q' : Fin 512}
    (hj : j.val = j'.val) (hq : q.val = q'.val) : W (ix2 j q) = W (ix2 j' q') := by
  obtain rfl := Fin.ext hj
  obtain rfl := Fin.ext hq
  rfl

section
variable (V : (c : Dev nD) → (b : Ref sig .tc) → Buf (Elt Ideal) ((c : Thread nD τ).loc b))

/-- After the last reduction step of column tile n the accumulator at (a, q) is the embedding of sample a at output
    column 256·n + q, given where the two blocks of a point sit in the visual tensor and in the weights. -/
theorem sAt_apply (c : Dev nD)
    (hx : ∀ (t : Fin cfg1.N) (a : Fin 256) (r : Fin 48) (cl : Fin 96),
      (iblk V c 0 t : Vec Ideal S256x1x1x48x96 .f32) (ix5 a (0 : Fin 1) (0 : Fin 1) r cl)
        = (V c main_arg3 : Vec Ideal S256x3x5x96x96 .f32) (ix5 a
            (⟨(t.val % 15) % 3, Nat.mod_lt _ (by decide)⟩ : Fin 3)
            (⟨(t.val % 15) / 3, by have := Nat.mod_lt t.val (show 0 < 15 by decide); omega⟩ : Fin 5)
            (⟨48 + r.val, by have := r.isLt; omega⟩ : Fin 96) cl))
    (hw : ∀ (t : Fin cfg1.N) (j : Fin 4608) (q : Fin 256),
      (iblk V c 1 t : Vec Ideal S4608x256 .f32) (ix2 j q)
        = (V c main_arg5 : Vec Ideal S69120x512 .f32) (ix2
            (⟨(t.val % 15) * 4608 + j.val, by have := Nat.mod_lt t.val (show 0 < 15 by decide); have := j.isLt; omega⟩ : Fin 69120)
            (⟨(t.val / 15) * 256 + q.val, by
              have hN : cfg1.N = 30 := N_1
              have := t.isLt; have := q.isLt; omega⟩ : Fin 512)))
    (n : Fin 2) (a q : Fin 256) :
    sAt V c (15 * n.val + 14) (tile_point_lt n 14 (by decide)) (ix2 a q)
      = Cert.Spec.embAt (V c main_arg3 : Vec Ideal S256x3x5x96x96 .f32) (V c main_arg5 : Vec Ideal S69120x512 .f32) a
          (⟨n.val * 256 + q.val, by have := n.isLt; have := q.isLt; omega⟩ : Fin 512) := by
  rw [sAt_eq_accRec V c n 14 (by decide)]
  refine accRec1_apply (V c main_arg3 : Vec Ideal S256x3x5x96x96 .f32) (V c main_arg5 : Vec Ideal S69120x512 .f32) n
    (xseq V c n.val) (wseq V c n.val) (fun k a r cl => ?_) (fun k j q => ?_) a q
  · have hlt : 15 * n.val + k.val < cfg1.N := tile_point_lt n k.val k.isLt
    rw [xseq_of_lt V c n.val k.val hlt]
    refine (hx ⟨15 * n.val + k.val, hlt⟩ a r cl).trans ?_
    refine read_x_congr _ a _ cl ?_ ?_
    · show (15 * n.val + k.val) % 15 % 3 = k.val % 3
      have := k.isLt; omega
    · show (15 * n.val + k.val) % 15 / 3 = k.val / 3
      have := k.isLt; omega
  · have hlt : 15 * n.val + k.val < cfg1.N := tile_point_lt n k.val k.isLt
    rw [wseq_of_lt V c n.val k.val hlt]
    refine (hw ⟨15 * n.val + k.val, hlt⟩ j q).trans ?_
    refine read_w_congr _ ?_ ?_
    · show (15 * n.val + k.val) % 15 * 4608 + j.val = k.val * 4608 + j.val
      have := k.isLt; omega
    · show (15 * n.val + k.val) / 15 * 256 + q.val = n.val * 256 + q.val
      have := k.isLt; omega

end

end Cert.KernelIdeal.Call1

end
-- ==== Proof.KI1.BlockRead.lean ====
/-
  Call 0 of the visual kernel: its two input blocks read at an index.

  At grid point t the column tile is n = t / 15 and the reduction step is k = t mod 15. The visual tensor's block is one
  plane's lower half for all 256 samples: colour k mod 3, frame k / 3, rows 48..95, every column. The weights' block is rows
  4608·k .. 4608·k + 4607 and columns 256·n .. 256·n + 255. An element of a block sits in its array, on every axis, at the
  block index times the block's extent plus its own coordinate; the block indices are decided once over the 30 points.
-/
import proofs.«172429_j24283745091878_2_alg».proof.Proof.KI1.Base
import Idealize.ShloMosaic.Lib.ValueIdx

set_option maxRecDepth 16384

noncomputable section

namespace Cert.KernelIdeal.Call1

open Cert.KernelIdeal Cert.KernelIdeal.Gen
open Idealize.ShloMosaic Idealize.ShloMosaic.TcCoe
open Idealize.SL.Sem
open Idealize.ShloMosaic.ValueIdx

variable {F : FTy → Type} [FloatOps F]

/-- A grid point's number is below 30. -/
theorem point_lt (t : Fin cfg1.N) : t.val < 30 := lt_of_lt_of_eq t.isLt N_1

/-- The visual tensor's block indices at point t: sample block 0, colour (t mod 15) mod 3, frame (t mod 15) / 3, the lower
    half of the rows, column block 0. -/
theorem idx_facts_x : ∀ t : Fin cfg1.N, win1_0.index t (0 : Fin 5) = 0
    ∧ win1_0.index t (1 : Fin 5) = (t.val % 15) % 3
    ∧ win1_0.index t (2 : Fin 5) = (t.val % 15) / 3
    ∧ win1_0.index t (3 : Fin 5) = 1
    ∧ win1_0.index t (4 : Fin 5) = 0 :=
  (by decide +kernel : ∀ t : Fin grid1.N, _)

/-- The weights' block indices at point t: row block t mod 15, column block t / 15. -/
theorem idx_facts_w : ∀ t : Fin cfg1.N, win1_1.index t (0 : Fin 2) = t.val % 15
    ∧ win1_1.index t (1 : Fin 2) = t.val / 15 :=
  (by decide +kernel : ∀ t : Fin grid1.N, _)

section
-- the TensorCore's buffer contents when the call is entered
variable (V : (c : Dev nD) → (b : Ref sig .tc) → Buf (Elt F) ((c : Thread nD τ).loc b))

/-- Entry (a, r, cl) of the visual block of point t is the visual tensor at sample a, colour (t mod 15) mod 3,
    frame (t mod 15) / 3, row 48 + r, column cl. -/
theorem xblk_apply (c : Dev nD) (t : Fin cfg1.N) (a : Fin 256) (r : Fin 48) (cl : Fin 96) :
    (iblk V c 0 t : Vec F S256x1x1x48x96 .f32) (ix5 a (0 : Fin 1) (0 : Fin 1) r cl)
      = (V c main_arg3 : Vec F S256x3x5x96x96 .f32) (ix5 a
          (⟨(t.val % 15) % 3, Nat.mod_lt _ (by decide)⟩ : Fin 3)
          (⟨(t.val % 15) / 3, by have := Nat.mod_lt t.val (show 0 < 15 by decide); omega⟩ : Fin 5)
          (⟨48 + r.val, by have := r.isLt; omega⟩ : Fin 96) cl) := by
  obtain ⟨e0, e1, e2, e3, e4⟩ := idx_facts_x t
  unfold iblk
  rw [View.read_apply]
  show (V c main_arg3 : Vec F S256x3x5x96x96 .f32) (((cfg1.win 0).blk t).view.emb (ix5 a (0 : Fin 1) (0 : Fin 1) r cl)) = _
  refine congrArg _ (funext fun b => Fin.ext ?_)
  match b with
  | ⟨0, _⟩ => show win1_0.index t (0 : Fin 5) * 256 + 1 * a.val = a.val; omega
  | ⟨1, _⟩ => show win1_0.index t (1 : Fin 5) * 1 + 1 * 0 = (t.val % 15) % 3; omega
  | ⟨2, _⟩ => show win1_0.index t (2 : Fin 5) * 1 + 1 * 0 = (t.val % 15) / 3; omega
  | ⟨3, _⟩ => show win1_0.index t (3 : Fin 5) * 48 + 1 * r.val = 48 + r.val; omega
  | ⟨4, _⟩ => show win1_0.index t (4 : Fin 5) * 96 + 1 * cl.val = cl.val; omega

/-- Entry (j, q) of the weights' block of point t is the weights at row 4608·(t mod 15) + j, column 256·(t / 15) + q. -/
theorem wblk_apply (c : Dev nD) (t : Fin cfg1.N) (j : Fin 4608) (q : Fin 256) :
    (iblk V c 1 t : Vec F S4608x256 .f32) (ix2 j q)
      = (V c main_arg5 : Vec F S69120x512 .f32) (ix2
          (⟨(t.val % 15) * 4608 + j.val, by have := Nat.mod_lt t.val (show 0 < 15 by decide); have := j.isLt; omega⟩ : Fin 69120)
          (⟨(t.val / 15) * 256 + q.val, by have := point_lt t; have := q.isLt; omega⟩ : Fin 512)) := by
  obtain ⟨e0, e1⟩ := idx_facts_w t
  unfold iblk
  rw [View.read_apply]
  show (V c main_arg5 : Vec F S69120x512 .f32) (((cfg1.win 1).blk t).view.emb (ix2 j q)) = _
  refine congrArg _ (funext fun b => Fin.ext ?_)
  match b with
  | ⟨0, _⟩ => show win1_1.index t (0 : Fin 2) * 4608 + 1 * j.val = (t.val % 15) * 4608 + j.val; omega
  | ⟨1, _⟩ => show win1_1.index t (1 : Fin 2) * 256 + 1 * q.val = (t.val / 15) * 256 + q.val; omega

end

end Cert.KernelIdeal.Call1

end
-- ==== Proof.KIValue.lean ====
/-
  The kernel program's result buffer at the last boundary of the whole-program fold, as a function of the launch memory: the
  tail of the audio embedding of the three audio arguments and of the stacked visual embedding of the two visual arguments
  and the weights.

  The fold is walked back from the result buffer. The operations after the two calls leave the tail of the audio embedding's
  buffer and of the two calls' output arrays stacked along the sample axis. The audio embedding's buffer is no array of
  either call and was written by the three operations before them, from the arguments as launched. A call's output array
  ends at its closed form, which reads the accumulator after each column tile's last reduction step, and that is the embedding
  of the call's visual tensor and the weights as the call found them; the calls found them as launched, since no host
  operation writes an argument and a call leaves its input arrays as it found them. Two embeddings stacked are the stacked
  embedding.
-/
import proofs.«172429_j24283745091878_2_alg».proof.Proof.KIWhole
import proofs.«172429_j24283745091878_2_alg».proof.Proof.KerHost
import proofs.«172429_j24283745091878_2_alg».proof.Proof.ConcatValue
import proofs.«172429_j24283745091878_2_alg».proof.Proof.KI0.Final
import proofs.«172429_j24283745091878_2_alg».proof.Proof.KI0.AccRead
import proofs.«172429_j24283745091878_2_alg».proof.Proof.KI0.BlockRead
import proofs.«172429_j24283745091878_2_alg».proof.Proof.KI1.Final
import proofs.«172429_j24283745091878_2_alg».proof.Proof.KI1.AccRead
import proofs.«172429_j24283745091878_2_alg».proof.Proof.KI1.BlockRead

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

/-! ## A call's output array in closed form is an embedding (extended reals; any contents at the call's entry) -/

/-- Call 0's output array in closed form is the embedding of the visual tensor and the weights the call found: the array's
    column q' reads the accumulator of column tile q' / 256 after its last reduction step at local column q' mod 256, which
    is the embedding at column 256 · (q' / 256) + q' mod 256 = q'. -/
theorem outArr0_emb (V : (c : Dev nD) → (b : Ref sig .tc) → Buf (Elt Ideal) ((c : Thread nD τ).loc b)) (c : Dev nD)
    (X : FVec Ideal ⟨5, ![256, 3, 5, 96, 96]⟩ .f32) (Wt : FVec Ideal ⟨2, ![69120, 512]⟩ .f32)
    (hX : V c main_arg1 = X) (hW : V c main_arg5 = Wt) :
    Call0.outArr V c = Cert.Spec.emb X Wt := by
  subst hX hW
  funext i
  have hi1 : (i 1).val < 512 := idx2_lt1 i
  have hn : (i 1).val / 256 < 2 := by omega
  have hp : (i 1).val / 256 * 256 + (i 1).val % 256 < 512 := by omega
  have key := Call0.sAt_apply V c (Call0.xblk_apply V c) (Call0.wblk_apply V c)
    (⟨(i 1).val / 256, hn⟩ : Fin 2) (⟨(i 0).val, idx2_lt0 i⟩ : Fin 256) (⟨(i 1).val % 256, Nat.mod_lt _ (by decide)⟩ : Fin 256)
  unfold Call0.outArr
  refine key.trans ?_
  have e0 : (⟨(i 0).val, idx2_lt0 i⟩ : Fin 256) = i 0 := Fin.ext rfl
  have e1 : (⟨(i 1).val / 256 * 256 + (i 1).val % 256, hp⟩ : Fin 512) = i 1 :=
    Fin.ext (by show (i 1).val / 256 * 256 + (i 1).val % 256 = (i 1).val; omega)
  show Cert.Spec.embAt _ _ (⟨(i 0).val, idx2_lt0 i⟩ : Fin 256) (⟨(i 1).val / 256 * 256 + (i 1).val % 256, hp⟩ : Fin 512)
    = Cert.Spec.embAt _ _ (i 0) (i 1)
  rw [e0, e1]

/-- Call 1's output array in closed form is the embedding of the visual tensor and the weights the call found: the array's
    column q' reads the accumulator of column tile q' / 256 after its last reduction step at local column q' mod 256, which
    is the embedding at column 256 · (q' / 256) + q' mod 256 = q'. -/
theorem outArr1_emb (V : (c : Dev nD) → (b : Ref sig .tc) → Buf (Elt Ideal) ((c : Thread nD τ).loc b)) (c : Dev nD)
    (X : FVec Ideal ⟨5, ![256, 3, 5, 96, 96]⟩ .f32) (Wt : FVec Ideal ⟨2, ![69120, 512]⟩ .f32)
    (hX : V c main_arg3 = X) (hW : V c main_arg5 = Wt) :
    Call1.outArr V c = Cert.Spec.emb X Wt := by
  subst hX hW
  funext i
  have hi1 : (i 1).val < 512 := idx2_lt1 i
  have hn : (i 1).val / 256 < 2 := by omega
  have hp : (i 1).val / 256 * 256 + (i 1).val % 256 < 512 := by omega
  have key := Call1.sAt_apply V c (Call1.xblk_apply V c) (Call1.wblk_apply V c)
    (⟨(i 1).val / 256, hn⟩ : Fin 2) (⟨(i 0).val, idx2_lt0 i⟩ : Fin 256) (⟨(i 1).val % 256, Nat.mod_lt _ (by decide)⟩ : Fin 256)
  unfold Call1.outArr
  refine key.trans ?_
  have e0 : (⟨(i 0).val, idx2_lt0 i⟩ : Fin 256) = i 0 := Fin.ext rfl
  have e1 : (⟨(i 1).val / 256 * 256 + (i 1).val % 256, hp⟩ : Fin 512) = i 1 :=
    Fin.ext (by show (i 1).val / 256 * 256 + (i 1).val % 256 = (i 1).val; omega)
  show Cert.Spec.embAt _ _ (⟨(i 0).val, idx2_lt0 i⟩ : Fin 256) (⟨(i 1).val / 256 * 256 + (i 1).val % 256, hp⟩ : Fin 512)
    = Cert.Spec.embAt _ _ (i 0) (i 1)
  rw [e0, e1]

/-! ## What the calls find in their input arrays, and the audio embedding's buffer (any float values) -/

section
variable {F : FTy → Type} [FloatOps F]
variable (m : (ℓ : Loc nD τ sig) → Buf (Elt F) ℓ)

/-- The first call finds its visual tensor as launched: the operations before it do not write it. -/
theorem V1_arg1 (c : Dev nD) : V1 m c main_arg1 = (m ((c : Thread nD τ).loc main_arg1)) :=
  (Bridge.head_keeps (W0 m c) main_arg1 (by decide)).trans rfl

/-- The first call finds the weights as launched. -/
theorem V1_arg5 (c : Dev nD) : V1 m c main_arg5 = (m ((c : Thread nD τ).loc main_arg5)) :=
  (Bridge.head_keeps (W0 m c) main_arg5 (by decide)).trans rfl

/-- The second call finds its visual tensor as launched: it is no array of the first call. -/
theorem V2_arg3 (c : Dev nD) : V2 m c main_arg3 = (m ((c : Thread nD τ).loc main_arg3)) :=
  (W2_of_ne m c main_arg3 (by decide)).trans <| (Bridge.head_keeps (W0 m c) main_arg3 (by decide)).trans rfl

/-- The second call finds the weights as launched: they are an input array of the first call, which leaves them as found. -/
theorem V2_arg5 (c : Dev nD) : V2 m c main_arg5 = (m ((c : Thread nD τ).loc main_arg5)) :=
  ((W2_arr m c 1).trans (Call0.kept_in (V1 m) c 1 (Or.inr rfl) cfg0.N)).trans <|
    (Bridge.head_keeps (W0 m c) main_arg5 (by decide)).trans rfl

/-- The audio embedding's buffer after the two calls: no array of either, written by the operations before them. -/
theorem W3_v2 (c : Dev nD) :
    W3 m c (Proc.devRef .tc main_v2)
      = Bridge.aemb (m ((c : Thread nD τ).loc main_arg0)) (m ((c : Thread nD τ).loc main_arg2)) (m ((c : Thread nD τ).loc main_arg4)) :=
  (W3_of_ne m c main_v2 (by decide)).trans <| (W2_of_ne m c main_v2 (by decide)).trans <| Bridge.aemb_read (W0 m c)

end

/-! ## The calls' output buffers and the result (extended reals) -/

section
variable (m : (ℓ : Loc nD τ sig) → Buf (Elt Ideal) ℓ)

/-- The first call's output buffer after the two calls: no array of the second call, the first call's output array. -/
theorem W3_v3 (c : Dev nD) :
    W3 m c (Proc.devRef .tc main_v3) = Cert.Spec.emb (m ((c : Thread nD τ).loc main_arg1)) (m ((c : Thread nD τ).loc main_arg5)) :=
  (W3_of_ne m c main_v3 (by decide)).trans <| (W2_arr m c 2).trans <| (Call0.final2 (V1 m) c).trans
    (outArr0_emb (V1 m) c _ _ (V1_arg1 m c) (V1_arg5 m c))

/-- The second call's output buffer after the two calls: the second call's output array. -/
theorem W3_v4 (c : Dev nD) :
    W3 m c (Proc.devRef .tc main_v4) = Cert.Spec.emb (m ((c : Thread nD τ).loc main_arg3)) (m ((c : Thread nD τ).loc main_arg5)) :=
  (W3_arr m c 2).trans <| (Call1.final2 (V2 m) c).trans
    (outArr1_emb (V2 m) c _ _ (V2_arg3 m c) (V2_arg5 m c))

/-- THE RESULT: the result buffer at the last boundary is the tail of the audio embedding and the stacked visual embedding
    of the launch memory's arguments. -/
theorem result_eq (c : Dev nD) :
    W8 m c (Proc.devRef .tc main_v55)
      = Cert.KernelIdeal.Bridge.tail
          (Cert.KernelIdeal.Bridge.aemb (m ((c : Thread nD τ).loc main_arg0)) (m ((c : Thread nD τ).loc main_arg2)) (m ((c : Thread nD τ).loc main_arg4)))
          (Cert.Spec.emb2 (m ((c : Thread nD τ).loc main_arg1)) (m ((c : Thread nD τ).loc main_arg3)) (m ((c : Thread nD τ).loc main_arg5))) :=
  (Bridge.tail_read (W3 m c)).trans <|
    congrArg₂ Bridge.tail (W3_v2 m c)
      ((congrArg₂ (fun P Q : FVec Ideal S256x512 .f32 =>
          concatenate S512x512 0 [⟨S256x512, P⟩, ⟨S256x512, Q⟩] concatenates_S256x512_S256x512_S512x512_d0)
        (W3_v3 m c) (W3_v4 m c)).trans (Cert.KernelIdeal.AccValue.concat_emb _ _ _))

end

end Cert.KernelIdeal.Whole

end
-- ==== Proof.RefTail.lean ====
/-
  The reference program's result, cut in two: the two embeddings (an audio one, a visual one), each one matrix product of a
  stacked and flattened input with a weight matrix, and the tail that both embeddings enter — each embedding's rows divided
  by their Euclidean norm (bounded below by a small constant), the upper and lower halves of the rows taken apart, six
  row-wise inner products and two matrix products under the exponential, the quotient of the two sums, its logarithm, the
  mean over the 256 rows, and the sign change. The program's result is the tail applied to the two embeddings.
-/
import proofs.«172429_j24283745091878_2_alg».proof.Proof.Gen.ReferenceIdeal.Run
import proofs.«172429_j24283745091878_2_alg».proof.Proof.Gen.ReferenceIdeal.Read

noncomputable section

namespace Cert.ReferenceIdeal.Bridge

open Cert.ReferenceIdeal Cert.ReferenceIdeal.Gen Idealize.ShloMosaic Idealize.ShloMosaic.TcCoe Idealize.SL.Sem Idealize.ShloMosaic.StableHlo

variable {F : FTy → Type} [FloatOps F]

/-- The audio embedding: the two audio batches stacked along the sample axis, each sample flattened to 1280 features,
    times the 1280 × 512 weights. -/
def aemb (x0 x2 : FVec F S256x1x80x16 .f32) (x4 : FVec F S1280x512 .f32) : FVec F S512x512 .f32 :=
  Host.dotGeneral dot_S512x1280_S1280x512_S512x512_1_0_0_1_n_n none (shapeCast _ (concatenate S512x1x80x16 0 [⟨S256x1x80x16, x0⟩, ⟨S256x1x80x16, x2⟩] concatenates_S256x1x80x16_S256x1x80x16_S512x1x80x16_d0) shapeCasts_S512x1x80x16_S512x1280) x4

/-- The visual embedding: the two visual batches stacked along the sample axis, the lower 48 rows of every plane kept, the
    colour and frame axes exchanged, each sample flattened to 69120 features, times the 69120 × 512 weights. -/
def vemb (x1 x3 : FVec F S256x3x5x96x96 .f32) (x5 : FVec F S69120x512 .f32) : FVec F S512x512 .f32 :=
  Host.dotGeneral dot_S512x69120_S69120x512_S512x512_1_0_0_1_n_n none (shapeCast _ (shapeCast _ (transpose S512x5x3x48x96 [0, 2, 1, 3, 4] (extractStridedSlice S512x3x5x48x96 ![0, 0, 0, 48, 0] (concatenate S512x3x5x96x96 0 [⟨S256x3x5x96x96, x1⟩, ⟨S256x3x5x96x96, x3⟩] concatenates_S256x3x5x96x96_S256x3x5x96x96_S512x3x5x96x96_d0) slices_S512x3x5x96x96_S512x3x5x48x96_0_0_0_48_0) transposes_S512x3x5x48x96_S512x5x3x48x96_0_2_1_3_4) shapeCasts_S512x5x3x48x96_S512x15x48x96) shapeCasts_S512x15x48x96_S512x69120) x5

set_option maxRecDepth 8192 in
/-- Everything after the two embeddings, as one function of them. -/
def tail (A B : FVec F S512x512 .f32) : FVec F S_ .f32 :=
  Host.negf (Host.divf (Host.reduceAdd (Host.log (Host.divf (addf (addf (addf (addf (addf (Host.exp (Host.reduceAdd (mulf (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![0, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_0_0)) (constant S_ .f32 0x00000000#32) reducesTo_S256x512_S256_d1 h_S_)) (Host.exp (Host.reduceAdd (mulf (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![256, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.exp (Host.reduceAdd (mulf (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0) (extractStridedSlice S256x512 ![0, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_0_0)) (constant S_ .f32 0x00000000#32) reducesTo_S256x512_S256_d1 h_S_))) (Host.exp (Host.reduceAdd (mulf (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0) (extractStridedSlice S256x512 ![256, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.exp (Host.reduceAdd (mulf (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.exp (Host.reduceAdd (mulf (extractStridedSlice S256x512 ![0, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_0_0) (extractStridedSlice S256x512 ![256, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) slices_S512x512_S256x512_256_0)) (constant S_ .f32 0x00000000#32) reducesTo_S256x512_S256_d1 h_S_))) (Host.reduceAdd (addf (Host.exp (Host.dotGeneral dot_S256x512_S512x512_S256x512_1_0_0_1_n_n none (extractStridedSlice S256x512 ![0, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_0_0) (transpose S512x512 [1, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) transposes_S512x512_S512x512_1_0))) (Host.exp (Host.dotGeneral dot_S256x512_S512x512_S256x512_1_0_0_1_n_n none (extractStridedSlice S256x512 ![256, 0] (Host.divf A (broadcastInDim S512x512 ![0, 1] bcast_S512x1_S512x512_0_1 (maximumf (Host.sqrt (broadcastInDim S512x1 ![0] bcast_S512_S512x1_0 (Host.reduceAdd (mulf A A) (constant S_ .f32 0x00000000#32) reducesTo_S512x512_S512_d1 h_S_))) (broadcastInDim S512x1 ![] bcast_S_S512x1 (constant S_ .f32 0x2B8CBCCC#32))))) slices_S512x512_S256x512_256_0) (transpose S512x512 [1, 0] (Host.divf B (broadcastInDim S512x512 ![0, 1] bcast_S512x1_S512x512_0_1 (maximumf (Host.sqrt (broadcastInDim S512x1 ![0] bcast_S512_S512x1_0 (Host.reduceAdd (mulf B B) (constant S_ .f32 0x00000000#32) reducesTo_S512x512_S512_d1 h_S_))) (broadcastInDim S512x1 ![] bcast_S_S512x1 (constant S_ .f32 0x2B8CBCCC#32))))) transposes_S512x512_S512x512_1_0)))) (constant S_ .f32 0x00000000#32) reducesTo_S256x512_S256_d1 h_S_))) (constant S_ .f32 0x00000000#32) reducesTo_S256_S_d0 h_S_) (constant S_ .f32 0x43800000#32))

set_option maxRecDepth 8192 in
/-- The reference's result is the tail of its two embeddings. -/
theorem res_eq (m : (ℓ : Loc nD τ sig) → Buf (Elt F) ℓ) (c : Dev nD) :
    Cert.ReferenceIdeal.Value.res_main_v58 m c
      = tail (aemb (m ((c.tc : Thread nD τ).loc main_arg0)) (m ((c.tc : Thread nD τ).loc main_arg2)) (m ((c.tc : Thread nD τ).loc main_arg4)))
          (vemb (m ((c.tc : Thread nD τ).loc main_arg1)) (m ((c.tc : Thread nD τ).loc main_arg3)) (m ((c.tc : Thread nD τ).loc main_arg5))) := by
  unfold Cert.ReferenceIdeal.Value.res_main_v58 tail aemb vemb
  rfl

/-- The visual embedding is the generated reading's stage for the same value. -/
theorem vemb_eq_val (x1 x3 : FVec F S256x3x5x96x96 .f32) (x5 : FVec F S69120x512 .f32) :
    vemb x1 x3 x5 = Cert.ReferenceIdeal.Read.val_main_v13 x1 x3 x5 := rfl

end Cert.ReferenceIdeal.Bridge

end
-- ==== Proof.TailEq.lean ====
/-
  The kernel program's audio embedding and tail are the reference's: the same operations over the same literal shapes. The
  two texts differ only in which program's names they cite for the shapes, for the side conditions on shapes (propositions)
  and for the contraction records of the matrix products (records with equal fields).
-/
import proofs.«172429_j24283745091878_2_alg».proof.Proof.RefTail
import proofs.«172429_j24283745091878_2_alg».proof.Proof.KerTail

noncomputable section

namespace Cert.Bridge

open Idealize.ShloMosaic

variable {F : FTy → Type} [FloatOps F]

set_option maxRecDepth 8192 in
/-- The two tails are one function. -/
theorem tail_eq (A B : FVec F Cert.KernelIdeal.S512x512 .f32) :
    Cert.KernelIdeal.Bridge.tail A B = Cert.ReferenceIdeal.Bridge.tail A B := by
  unfold Cert.KernelIdeal.Bridge.tail Cert.ReferenceIdeal.Bridge.tail
  rfl

/-- The two audio embeddings are one function. -/
theorem aemb_eq (x0 x2 : FVec F Cert.KernelIdeal.S256x1x80x16 .f32) (x4 : FVec F Cert.KernelIdeal.S1280x512 .f32) :
    Cert.KernelIdeal.Bridge.aemb x0 x2 x4 = Cert.ReferenceIdeal.Bridge.aemb x0 x2 x4 := by
  unfold Cert.KernelIdeal.Bridge.aemb Cert.ReferenceIdeal.Bridge.aemb
  rfl

end Cert.Bridge

end
-- ==== Proof.RefEmbEntry.lean ====
/-
  The reference's flattened visual matrix read at an index.

  The reference stacks the two visual tensors along the sample axis (512 samples), keeps rows 48..95 of every
  plane, puts the frame axis before the colour axis, and flattens (frame, colour, row, column) row-major into
  one feature axis of length 69120 = 15 · 48 · 96. Feature f of sample r is therefore the entry of the stacked
  tensor at colour (f / 4608) mod 3, frame (f / 4608) / 3, row 48 + (f mod 4608) / 96, column f mod 96; and the
  stacked tensor at sample r is the first tensor at r when r < 256 and the second at r − 256 otherwise.
-/
import proofs.«172429_j24283745091878_2_alg».proof.Proof.Gen.ReferenceIdeal.Read

noncomputable section

namespace Cert.ReferenceIdeal.RefEmb

open Cert.ReferenceIdeal Cert.ReferenceIdeal.Gen Cert.ReferenceIdeal.Read Idealize.ShloMosaic Idealize.ShloMosaic.ValueIdx

variable {F : FTy → Type} [FloatOps F]

/-- The stacked tensor at a sample below 256 is the first tensor at that sample. -/
theorem stacked_lo (x1 x3 : FVec F S256x3x5x96x96 .f32) (r : Fin 512) (c : Fin 3) (t : Fin 5) (h w : Fin 96)
    (hr : r.val < 256) :
    val_main_v1 (F := F) x1 x3 (ix5 r c t h w) = x1 (ix5 (⟨r.val, hr⟩ : Fin 256) c t h w) := by
  unfold val_main_v1
  exact concatenate_pair_apply_left 0 x1 x3 concatenates_S256x3x5x96x96_S256x3x5x96x96_S512x3x5x96x96_d0
    (ix5 r c t h w) rfl (ix5 (⟨r.val, hr⟩ : Fin 256) c t h w) (fun b => by
      match b with
      | ⟨0, _⟩ => rfl
      | ⟨1, _⟩ => rfl
      | ⟨2, _⟩ => rfl
      | ⟨3, _⟩ => rfl
      | ⟨4, _⟩ => rfl)

/-- The stacked tensor at a sample from 256 on is the second tensor at that sample less 256. -/
theorem stacked_hi (x1 x3 : FVec F S256x3x5x96x96 .f32) (r : Fin 512) (c : Fin 3) (t : Fin 5) (h w : Fin 96)
    (hr : ¬ r.val < 256) :
    val_main_v1 (F := F) x1 x3 (ix5 r c t h w)
      = x3 (ix5 (⟨r.val - 256, by have := r.isLt; omega⟩ : Fin 256) c t h w) := by
  unfold val_main_v1
  exact concatenate_pair_apply_right 0 x1 x3 concatenates_S256x3x5x96x96_S256x3x5x96x96_S512x3x5x96x96_d0
    (ix5 r c t h w) rfl rfl (ix5 (⟨r.val - 256, by have := r.isLt; omega⟩ : Fin 256) c t h w)
    (fun b hb => by
      match b with
      | ⟨0, _⟩ => exact absurd rfl hb
      | ⟨1, _⟩ => rfl
      | ⟨2, _⟩ => rfl
      | ⟨3, _⟩ => rfl
      | ⟨4, _⟩ => rfl)
    (by show r.val - 256 + 256 = r.val; omega)

/-- Keeping rows 48..95: row h of the kept half is row 48 + h of the stacked tensor. -/
theorem kept_rows (x1 x3 : FVec F S256x3x5x96x96 .f32) (r : Fin 512) (c : Fin 3) (t : Fin 5) (h : Fin 48) (w : Fin 96) :
    val_main_v2 (F := F) x1 x3 (ix5 r c t h w)
      = val_main_v1 (F := F) x1 x3 (ix5 r c t (⟨48 + h.val, by have := h.isLt; omega⟩ : Fin 96) w) := by
  rw [val_main_v2_apply]
  exact congrArg _ (funext fun a => Fin.ext (by
    match a with
    | ⟨0, _⟩ => rfl
    | ⟨1, _⟩ => rfl
    | ⟨2, _⟩ => rfl
    | ⟨3, _⟩ => rfl
    | ⟨4, _⟩ => rfl))

/-- The transposition exchanges the colour and the frame axes. -/
theorem frame_major (x1 x3 : FVec F S256x3x5x96x96 .f32) (r : Fin 512) (t : Fin 5) (c : Fin 3) (h : Fin 48) (w : Fin 96) :
    val_main_v3 (F := F) x1 x3 (ix5 r t c h w) = val_main_v2 (F := F) x1 x3 (ix5 r c t h w) := by
  rw [val_main_v3_apply]
  exact congrArg _ (funext fun a => Fin.ext (by
    match a with
    | ⟨0, _⟩ => rfl
    | ⟨1, _⟩ => rfl
    | ⟨2, _⟩ => rfl
    | ⟨3, _⟩ => rfl
    | ⟨4, _⟩ => rfl))

/-- Plane p of the 15 planes is frame p / 3, colour p mod 3. -/
theorem planes (x1 x3 : FVec F S256x3x5x96x96 .f32) (r : Fin 512) (p : Fin 15) (h : Fin 48) (w : Fin 96) :
    val_main_v4 (F := F) x1 x3 (ix4 r p h w)
      = val_main_v3 (F := F) x1 x3 (ix5 r (⟨p.val / 3, by have := p.isLt; omega⟩ : Fin 5)
          (⟨p.val % 3, Nat.mod_lt _ (by decide)⟩ : Fin 3) h w) := by
  rw [val_main_v4_apply]
  have hr := r.isLt; have hp := p.isLt; have hh := h.isLt; have hw := w.isLt
  exact congrArg _ (funext fun a => Fin.ext (by
    match a with
    | ⟨0, _⟩ => show (((r.val * 15 + p.val) * 48 + h.val) * 96 + w.val) / 69120 = r.val; omega
    | ⟨1, _⟩ => show (((r.val * 15 + p.val) * 48 + h.val) * 96 + w.val) / 13824 % 5 = p.val / 3; omega
    | ⟨2, _⟩ => show (((r.val * 15 + p.val) * 48 + h.val) * 96 + w.val) / 4608 % 3 = p.val % 3; omega
    | ⟨3, _⟩ => show (((r.val * 15 + p.val) * 48 + h.val) * 96 + w.val) / 96 % 48 = h.val; omega
    | ⟨4, _⟩ => show (((r.val * 15 + p.val) * 48 + h.val) * 96 + w.val) % 96 = w.val; omega))

/-- Feature f of the flattened matrix is plane f / 4608, row (f / 96) mod 48, column f mod 96. -/
theorem features (x1 x3 : FVec F S256x3x5x96x96 .f32) (r : Fin 512) (f : Fin 69120) :
    val_main_v12 (F := F) x1 x3 (ix2 r f)
      = val_main_v4 (F := F) x1 x3 (ix4 r (⟨f.val / 4608, by have := f.isLt; omega⟩ : Fin 15)
          (⟨f.val / 96 % 48, Nat.mod_lt _ (by decide)⟩ : Fin 48) (⟨f.val % 96, Nat.mod_lt _ (by decide)⟩ : Fin 96)) := by
  rw [val_main_v12_apply]
  have hr := r.isLt; have hf := f.isLt
  exact congrArg _ (funext fun a => Fin.ext (by
    match a with
    | ⟨0, _⟩ => show (r.val * 69120 + f.val) / 69120 = r.val; omega
    | ⟨1, _⟩ => show (r.val * 69120 + f.val) / 4608 % 15 = f.val / 4608; omega
    | ⟨2, _⟩ => show (r.val * 69120 + f.val) / 96 % 48 = f.val / 96 % 48; omega
    | ⟨3, _⟩ => show (r.val * 69120 + f.val) % 96 = f.val % 96; omega))

/-- Entry j of plane k, as feature 4608·k + j of sample r of the flattened matrix, is the stacked tensor at colour
    k mod 3, frame k / 3, row 48 + j / 96, column j mod 96. -/
theorem entry (x1 x3 : FVec F S256x3x5x96x96 .f32) (r : Fin 512) (k : Fin 15) (j : Fin 4608) (f : Fin 69120)
    (hf : f.val = k.val * 4608 + j.val) :
    val_main_v12 (F := F) x1 x3 (ix2 r f)
      = val_main_v1 (F := F) x1 x3 (ix5 r (⟨k.val % 3, Nat.mod_lt _ (by decide)⟩ : Fin 3)
          (⟨k.val / 3, by have := k.isLt; omega⟩ : Fin 5)
          (⟨48 + j.val / 96, by have := j.isLt; omega⟩ : Fin 96) (⟨j.val % 96, Nat.mod_lt _ (by decide)⟩ : Fin 96)) := by
  have hk := k.isLt; have hj := j.isLt
  rw [features, planes, frame_major, kept_rows]
  refine congrArg _ ?_
  have e1 : f.val / 4608 = k.val := by omega
  have e2 : f.val / 96 % 48 = j.val / 96 := by omega
  have e3 : f.val % 96 = j.val % 96 := by omega
  funext a
  refine Fin.ext ?_
  match a with
  | ⟨0, _⟩ => rfl
  | ⟨1, _⟩ => show f.val / 4608 % 3 = k.val % 3; rw [e1]
  | ⟨2, _⟩ => show f.val / 4608 / 3 = k.val / 3; rw [e1]
  | ⟨3, _⟩ => show 48 + f.val / 96 % 48 = 48 + j.val / 96; rw [e2]
  | ⟨4, _⟩ => show f.val % 96 = j.val % 96; exact e3

end Cert.ReferenceIdeal.RefEmb

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.RefEmb.lean ====
/-
  The reference's visual embedding is the stacked embedding of the specification.

  The reference contracts the flattened visual matrix [512, 69120] with the weights [69120, 512] in one sum over
  the 69120 features. Cutting the feature range into 15 planes of 4608 entries (feature 4608·k + j is entry j of
  plane k) turns that sum into the specification's double sum; entry j of plane k of sample r is the stacked
  tensor at colour k mod 3, frame k / 3, row 48 + j / 96, column j mod 96, which is the first visual tensor for
  r < 256 and the second, at r − 256, otherwise. Only the regrouping of a finite sum is used.
-/
import proofs.«172429_j24283745091878_2_alg».proof.Proof.RefEmbEntry
import proofs.«172429_j24283745091878_2_alg».proof.Proof.LibBlockSum
import proofs.«172429_j24283745091878_2_alg».proof.Proof.Spec

noncomputable section

open scoped BigOperators

namespace Cert.ReferenceIdeal.RefEmb

open Cert.ReferenceIdeal Cert.ReferenceIdeal.Gen Cert.ReferenceIdeal.Read Idealize.ShloMosaic Idealize.ShloMosaic.ValueIdx

/-- One term of the contraction: feature f = 4608·k + j pairs entry j of plane k of sample r with row f of the weights. -/
theorem term_eq (x1 x3 : FVec Ideal S256x3x5x96x96 .f32) (x5 : FVec Ideal S69120x512 .f32) (r q : Fin 512)
    (k : Fin 15) (j : Fin 4608) (f : Fin 69120) (hf : f.val = k.val * 4608 + j.val) :
    val_main_v12 (F := Ideal) x1 x3 (lidx_main_v13 (ix2 r q) f) * x5 (ridx_main_v13 (ix2 r q) f)
      = val_main_v1 (F := Ideal) x1 x3 (ix5 r (⟨k.val % 3, Nat.mod_lt _ (by decide)⟩ : Fin 3)
          (⟨k.val / 3, by have := k.isLt; omega⟩ : Fin 5)
          (⟨48 + j.val / 96, by have := j.isLt; omega⟩ : Fin 96) (⟨j.val % 96, Nat.mod_lt _ (by decide)⟩ : Fin 96))
        * Cert.Spec.wblk x5 k j q := by
  have el : lidx_main_v13 (ix2 r q) f = ix2 r f := funext fun a => Fin.ext (by
    match a with
    | ⟨0, _⟩ => rfl
    | ⟨1, _⟩ => rfl)
  have er : ridx_main_v13 (ix2 r q) f = ix2 f q := funext fun a => Fin.ext (by
    match a with
    | ⟨0, _⟩ => rfl
    | ⟨1, _⟩ => rfl)
  rw [el, er, entry x1 x3 r k j f hf]
  refine congrArg _ ?_
  unfold Cert.Spec.wblk
  exact congrArg x5 (funext fun a => Fin.ext (by
    match a with
    | ⟨0, _⟩ => exact hf
    | ⟨1, _⟩ => rfl))

/-- The contraction over the 69120 features, regrouped as 15 planes of 4608 entries. -/
theorem dot_by_planes (x1 x3 : FVec Ideal S256x3x5x96x96 .f32) (x5 : FVec Ideal S69120x512 .f32) (r q : Fin 512) :
    val_main_v13 (F := Ideal) x1 x3 x5 (ix2 r q)
      = ∑ k : Fin 15, ∑ j : Fin 4608,
          val_main_v1 (F := Ideal) x1 x3 (ix5 r (⟨k.val % 3, Nat.mod_lt _ (by decide)⟩ : Fin 3)
            (⟨k.val / 3, by have := k.isLt; omega⟩ : Fin 5)
            (⟨48 + j.val / 96, by have := j.isLt; omega⟩ : Fin 96) (⟨j.val % 96, Nat.mod_lt _ (by decide)⟩ : Fin 96))
          * Cert.Spec.wblk x5 k j q := by
  rw [val_main_v13_apply]
  refine (Cert.LibBlockSum.sum_blocks (n := 15) (b := 4608) (fun f : Fin 69120 =>
    val_main_v12 (F := Ideal) x1 x3 (lidx_main_v13 (ix2 r q) f) * x5 (ridx_main_v13 (ix2 r q) f))).symm.trans ?_
  refine Finset.sum_congr rfl fun k _ => Finset.sum_congr rfl fun j _ => ?_
  exact term_eq x1 x3 x5 r q k j (finProdFinEquiv (k, j))
    (by show j.val + 4608 * k.val = k.val * 4608 + j.val; omega)

/-- The reference's visual embedding of the two stacked tensors is the specification's stacked embedding. -/
theorem val_main_v13_eq_emb2 (x1 x3 : FVec Ideal S256x3x5x96x96 .f32) (x5 : FVec Ideal S69120x512 .f32) :
    Cert.ReferenceIdeal.Read.val_main_v13 (F := Ideal) x1 x3 x5 = Cert.Spec.emb2 x1 x3 x5 := by
  funext i
  obtain ⟨r, q, rfl⟩ : ∃ (r : Fin 512) (q : Fin 512), i = ix2 r q := ⟨i 0, i 1, eq_ix2 i⟩
  rw [dot_by_planes]
  by_cases hr : r.val < 256
  · have e : Cert.Spec.emb2 x1 x3 x5 (ix2 r q) = Cert.Spec.embAt x1 x5 (⟨r.val, hr⟩ : Fin 256) q := by
      unfold Cert.Spec.emb2
      exact dif_pos hr
    rw [e]
    unfold Cert.Spec.embAt
    refine Finset.sum_congr rfl fun k _ => Finset.sum_congr rfl fun j _ => ?_
    rw [stacked_lo x1 x3 r _ _ _ _ hr]
    rfl
  · have e : Cert.Spec.emb2 x1 x3 x5 (ix2 r q)
        = Cert.Spec.embAt x3 x5 (⟨r.val - 256, by have := r.isLt; omega⟩ : Fin 256) q := by
      unfold Cert.Spec.emb2
      exact dif_neg hr
    rw [e]
    unfold Cert.Spec.embAt
    refine Finset.sum_congr rfl fun k _ => Finset.sum_congr rfl fun j _ => ?_
    rw [stacked_hi x1 x3 r _ _ _ _ hr]
    rfl

end Cert.ReferenceIdeal.RefEmb

end
-- ==== Proof.lean ====
/-
  The certificate of the visual-embedding kernel against its plain reference.

  Both programs compute, from two audio tensors, two visual tensors and two weight matrices, the same scalar loss. They share the
  audio embedding (a concatenation, a reshape and one matrix product) and everything after the two embeddings (row normalisation,
  six row products, two matrix products, exponentials, a quotient, a logarithm, a mean). They differ in the visual embedding. The
  reference stacks the two visual tensors, keeps the lower 48 rows of every plane, puts the frame axis before the colour axis,
  flattens the 15 planes of 48 × 96 entries to 69120 features and multiplies by the weights in one product. The kernel computes
  each tensor's embedding by a pallas_call over a 2 × 15 grid: column tile n of the weights, reduction step k; at step k the block
  of plane k (colour k mod 3, frame k div 3, lower half) is flattened to 4608 features and multiplied by rows 4608·k … 4608·k + 4607
  of the tile, the product is added to an accumulator kept across the steps (zeroed at step 0), and at step 14 the accumulator is
  written to the output's column tile. Read at the extended reals, where a change of float format is the identity, entry (a, q) of
  either embedding is the sum over the 15 planes of the sum over the 4608 entries of X(a, plane, entry) · W(4608·plane + entry, q):
  the kernel's left-nested sum of 15 block sums from zero, the reference's one sum over 69120 features regrouped into 15 blocks.
  Only associativity and commutativity of addition are used, which hold on the extended reals; no input needs to be finite.

  The frames: each program's run is proved with every unscoped buffer named at the end — the kernel's, at both instances, from the
  pipeline library's launch theorem over eight segments, each pallas_call a segment whose invariant carries the accumulator from
  point to point; the reference's from its generated run — and the argument arrays are read back as launched. The ideal pass
  rewrote nothing, so there is nothing to preserve.
-/
import proofs.«172429_j24283745091878_2_alg».proof.Defs
import proofs.«172429_j24283745091878_2_alg».proof.Proof.Gen.Kernel
import proofs.«172429_j24283745091878_2_alg».proof.Proof.Gen.KernelIdeal
import proofs.«172429_j24283745091878_2_alg».proof.Proof.Gen.ReferenceIdeal
import proofs.«172429_j24283745091878_2_alg».proof.Proof.Gen.ReferenceIdeal.Run
import proofs.«172429_j24283745091878_2_alg».proof.Proof.Gen.ReferenceIdeal.Read
import proofs.«172429_j24283745091878_2_alg».proof.Proof.Gen.Pre_finite_inputs
import proofs.«172429_j24283745091878_2_alg».proof.Proof.KArgs
import proofs.«172429_j24283745091878_2_alg».proof.Proof.KIArgs
import proofs.«172429_j24283745091878_2_alg».proof.Proof.KIValue
import proofs.«172429_j24283745091878_2_alg».proof.Proof.RefTail
import proofs.«172429_j24283745091878_2_alg».proof.Proof.TailEq
import proofs.«172429_j24283745091878_2_alg».proof.Proof.RefEmb
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ =>
  (θ_run Cert.Kernel.defs _ _).mono (fun r h c =>
    ⟨(h c _ (Cert.Kernel.Whole.mem_uc Cert.Kernel.main_arg0 (by decide))).trans (Cert.Kernel.Whole.W8_arg0 m c),
      (h c _ (Cert.Kernel.Whole.mem_uc Cert.Kernel.main_arg1 (by decide))).trans (Cert.Kernel.Whole.W8_arg1 m c),
      (h c _ (Cert.Kernel.Whole.mem_uc Cert.Kernel.main_arg2 (by decide))).trans (Cert.Kernel.Whole.W8_arg2 m c),
      (h c _ (Cert.Kernel.Whole.mem_uc Cert.Kernel.main_arg3 (by decide))).trans (Cert.Kernel.Whole.W8_arg3 m c),
      (h c _ (Cert.Kernel.Whole.mem_uc Cert.Kernel.main_arg4 (by decide))).trans (Cert.Kernel.Whole.W8_arg4 m c),
      (h c _ (Cert.Kernel.Whole.mem_uc Cert.Kernel.main_arg5 (by decide))).trans (Cert.Kernel.Whole.W8_arg5 m c)⟩)
    (Cert.Kernel.Whole.run_main (F := Bits) m ρ)

/-- The idealized kernel runs and leaves its arguments as launched. -/
theorem frame_ki : Cert.frame_KernelIdeal := fun m ρ _ =>
  (θ_run Cert.KernelIdeal.defs _ _).mono (fun r h c =>
    ⟨(h c _ (Cert.KernelIdeal.Whole.mem_uc Cert.KernelIdeal.main_arg0 (by decide))).trans (Cert.KernelIdeal.Whole.W8_arg0 m c),
      (h c _ (Cert.KernelIdeal.Whole.mem_uc Cert.KernelIdeal.main_arg1 (by decide))).trans (Cert.KernelIdeal.Whole.W8_arg1 m c),
      (h c _ (Cert.KernelIdeal.Whole.mem_uc Cert.KernelIdeal.main_arg2 (by decide))).trans (Cert.KernelIdeal.Whole.W8_arg2 m c),
      (h c _ (Cert.KernelIdeal.Whole.mem_uc Cert.KernelIdeal.main_arg3 (by decide))).trans (Cert.KernelIdeal.Whole.W8_arg3 m c),
      (h c _ (Cert.KernelIdeal.Whole.mem_uc Cert.KernelIdeal.main_arg4 (by decide))).trans (Cert.KernelIdeal.Whole.W8_arg4 m c),
      (h c _ (Cert.KernelIdeal.Whole.mem_uc Cert.KernelIdeal.main_arg5 (by decide))).trans (Cert.KernelIdeal.Whole.W8_arg5 m c)⟩)
    (Cert.KernelIdeal.Whole.run_main (F := Ideal) m ρ)

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals both programs end at the shared tail of the audio embedding and of the two visual embeddings stacked:
    the kernel by its run read back, the reference by its run with its one product regrouped into the 15 planes. -/
theorem algebraic : Cert.algebraic_KernelIdeal_ReferenceIdeal := by
  intro m ρ m' ρ' _ hagree
  refine ⟨fun c => Cert.KernelIdeal.Bridge.tail
      (Cert.KernelIdeal.Bridge.aemb (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)))
      (Cert.Spec.emb2 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))), ?_, ?_⟩
  · exact (θ_run Cert.KernelIdeal.defs _ _).mono (fun r h c =>
      ⟨(h c _ (Cert.KernelIdeal.Whole.mem_uc Cert.KernelIdeal.main_v55 (by decide))).trans (Cert.KernelIdeal.Whole.result_eq m c),
      (h c _ (Cert.KernelIdeal.Whole.mem_uc Cert.KernelIdeal.main_arg0 (by decide))).trans (Cert.KernelIdeal.Whole.W8_arg0 m c),
      (h c _ (Cert.KernelIdeal.Whole.mem_uc Cert.KernelIdeal.main_arg1 (by decide))).trans (Cert.KernelIdeal.Whole.W8_arg1 m c),
      (h c _ (Cert.KernelIdeal.Whole.mem_uc Cert.KernelIdeal.main_arg2 (by decide))).trans (Cert.KernelIdeal.Whole.W8_arg2 m c),
      (h c _ (Cert.KernelIdeal.Whole.mem_uc Cert.KernelIdeal.main_arg3 (by decide))).trans (Cert.KernelIdeal.Whole.W8_arg3 m c),
      (h c _ (Cert.KernelIdeal.Whole.mem_uc Cert.KernelIdeal.main_arg4 (by decide))).trans (Cert.KernelIdeal.Whole.W8_arg4 m c),
      (h c _ (Cert.KernelIdeal.Whole.mem_uc Cert.KernelIdeal.main_arg5 (by decide))).trans (Cert.KernelIdeal.Whole.W8_arg5 m c)⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Bridge.res_eq, Cert.ReferenceIdeal.Bridge.vemb_eq_val, Cert.ReferenceIdeal.RefEmb.val_main_v13_eq_emb2,
      (hagree c).1, (hagree c).2.1, (hagree c).2.2.1, (hagree c).2.2.2.1, (hagree c).2.2.2.2.1, (hagree c).2.2.2.2.2,
      ← Cert.Bridge.aemb_eq, ← Cert.Bridge.tail_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
